-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S164 : Shape := ⟨1, ![164]⟩
abbrev S196x164 : Shape := ⟨2, ![196, 164]⟩
abbrev S196 : Shape := ⟨1, ![196]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S164 : S_.BroadcastsInDim S164 (![] : Fin 0 → Fin S164.rank)
  reducesTo_S164_S_d0 : S164.ReducesTo [0] S_
  bcast_S_S196x164 : S_.BroadcastsInDim S196x164 (![] : Fin 0 → Fin S196x164.rank)
  reducesTo_S196x164_S_d0_1 : S196x164.ReducesTo [0, 1] S_
  bcast_S_S196 : S_.BroadcastsInDim S196 (![] : Fin 0 → Fin S196.rank)
  reducesTo_S196_S_d0 : S196.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S196 .f32) (main_arg5 : FVec F S768x768 .f32) (main_arg6 : FVec F S768 .f32) (main_v13 : IVec S_ 1) (main_v16 : IVec S196x164 1) : IVec S_ 1 :=
  let main_c_5 : IVec S_ 1 := constantI S_ 1 1#1
  let main_v17 : IVec S_ 1 := (fun x v => Host.reduce IntOp.andi x v reducesTo_S196x164_S_d0_1 h_S_) main_v16 main_c_5
  let main_v18 : IVec S_ 1 := andi main_v13 main_v17
  let main_v19 : FVec F S196 .f32 := Host.absf main_arg4
  let main_cst_6 : FVec F S_ .f32 := constant S_ .f32 0x7F800000#32
  let main_v20 : FVec F S196 .f32 := broadcastInDim S196 ![] bcast_S_S196 main_cst_6
  let main_v21 : IVec S196 1 := cmpf .olt main_v19 main_v20
  let main_c_7 : IVec S_ 1 := constantI S_ 1 1#1
  let main_v22 : IVec S_ 1 := (fun x v => Host.reduce IntOp.andi x v reducesTo_S196_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x2048x768 .f32) (main_arg1 : FVec F S164 .f32) (main_arg2 : FVec F S164 .f32) (main_arg3 : FVec F S196x164 .f32) (main_arg4 : FVec F S196 .f32) (main_arg5 : FVec F S768x768 .f32) (main_arg6 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S164 .f32 := Host.absf main_arg1
  let main_cst_0 : FVec F S_ .f32 := constant S_ .f32 0x7F800000#32
  let main_v5 : FVec F S164 .f32 := broadcastInDim S164 ![] bcast_S_S164 main_cst_0
  let main_v6 : IVec S164 1 := cmpf .olt main_v4 main_v5
  let main_c_1 : IVec S_ 1 := constantI S_ 1 1#1
  let main_v7 : IVec S_ 1 := (fun x v => Host.reduce IntOp.andi x v reducesTo_S164_S_d0 h_S_) main_v6 main_c_1
  let main_v8 : IVec S_ 1 := andi main_v3 main_v7
  let main_v9 : FVec F S164 .f32 := Host.absf main_arg2
  let main_cst_2 : FVec F S_ .f32 := constant S_ .f32 0x7F800000#32
  let main_v10 : FVec F S164 .f32 := broadcastInDim S164 ![] bcast_S_S164 main_cst_2
  let main_v11 : IVec S164 1 := cmpf .olt main_v9 main_v10
  let main_c_3 : IVec S_ 1 := constantI S_ 1 1#1
  let main_v12 : IVec S_ 1 := (fun x v => Host.reduce IntOp.andi x v reducesTo_S164_S_d0 h_S_) main_v11 main_c_3
  let main_v13 : IVec S_ 1 := andi main_v8 main_v12
  let main_v14 : FVec F S196x164 .f32 := Host.absf main_arg3
  let main_cst_4 : FVec F S_ .f32 := constant S_ .f32 0x7F800000#32
  let main_v15 : FVec F S196x164 .f32 := broadcastInDim S196x164 ![] bcast_S_S196x164 main_cst_4
  let main_v16 : IVec S196x164 1 := cmpf .olt main_v14 main_v15
  fn_part1 (F := F) main_arg4 main_arg5 main_arg6 main_v13 main_v16
-- ==== Kernel.lean ====
abbrev S8x2048x768 : Shape := ⟨3, ![8, 2048, 768]⟩
abbrev S164 : Shape := ⟨1, ![164]⟩
abbrev S196x164 : Shape := ⟨2, ![196, 164]⟩
abbrev S196 : Shape := ⟨1, ![196]⟩
abbrev S768x768 : Shape := ⟨2, ![768, 768]⟩
abbrev S768 : Shape := ⟨1, ![768]⟩
abbrev S8x2048x164 : Shape := ⟨3, ![8, 2048, 164]⟩
abbrev S1x2048x256 : Shape := ⟨3, ![1, 2048, 256]⟩
abbrev S1x2048x164 : Shape := ⟨3, ![1, 2048, 164]⟩
abbrev S2048x1 : Shape := ⟨2, ![2048, 1]⟩
abbrev S2048x164 : Shape := ⟨2, ![2048, 164]⟩
abbrev S2048x256 : Shape := ⟨2, ![2048, 256]⟩
abbrev S2048 : Shape := ⟨1, ![2048]⟩
abbrev S1x164 : Shape := ⟨2, ![1, 164]⟩
abbrev S164x196 : Shape := ⟨2, ![164, 196]⟩
abbrev S2048x196 : Shape := ⟨2, ![2048, 196]⟩
abbrev S1x196 : Shape := ⟨2, ![1, 196]⟩
abbrev S2048x16 : Shape := ⟨2, ![2048, 16]⟩
abbrev S512x16 : Shape := ⟨2, ![512, 16]⟩
abbrev S512x164 : Shape := ⟨2, ![512, 164]⟩
abbrev S16x512 : Shape := ⟨2, ![16, 512]⟩
abbrev S2048x512 : Shape := ⟨2, ![2048, 512]⟩
abbrev S1x1024x164 : Shape := ⟨3, ![1, 1024, 164]⟩
abbrev S1x1024x768 : Shape := ⟨3, ![1, 1024, 768]⟩
abbrev S1024x164 : Shape := ⟨2, ![1024, 164]⟩
abbrev S1024x768 : Shape := ⟨2, ![1024, 768]⟩
abbrev S1024x604 : Shape := ⟨2, ![1024, 604]⟩
abbrev S768x164 : Shape := ⟨2, ![768, 164]⟩
abbrev S768x604 : Shape := ⟨2, ![768, 604]⟩
abbrev S164x768 : Shape := ⟨2, ![164, 768]⟩
abbrev S604x768 : Shape := ⟨2, ![604, 768]⟩
abbrev S1x768 : Shape := ⟨2, ![1, 768]⟩

abbrev nBuf : Space → Nat
  | .hbm => 9
  | .vmem => 20
  | .smem => 0
  | _ => 0

abbrev bufTy : (tb : Table) → Fin (tcTables nBuf tb) → BufTy
  | .hbm, ⟨0, _⟩ => ⟨S8x2048x768, .f32⟩
  | .hbm, ⟨1, _⟩ => ⟨S164, .f32⟩
  | .hbm, ⟨2, _⟩ => ⟨S164, .f32⟩
  | .hbm, ⟨3, _⟩ => ⟨S196x164, .f32⟩
  | .hbm, ⟨4, _⟩ => ⟨S196, .f32⟩
  | .hbm, ⟨5, _⟩ => ⟨S768x768, .f32⟩
  | .hbm, ⟨6, _⟩ => ⟨S768, .f32⟩
  | .hbm, ⟨7, _⟩ => ⟨S8x2048x164, .f32⟩
  | .hbm, ⟨8, _⟩ => ⟨S8x2048x768, .f32⟩
  | .local _ .vmem, ⟨0, _⟩ => ⟨S1x2048x256, .f32⟩
  | .local _ .vmem, ⟨1, _⟩ => ⟨S1x2048x256, .f32⟩
  | .local _ .vmem, ⟨2, _⟩ => ⟨S164, .f32⟩
  | .local _ .vmem, ⟨3, _⟩ => ⟨S164, .f32⟩
  | .local _ .vmem, ⟨4, _⟩ => ⟨S196x164, .f32⟩
  | .local _ .vmem, ⟨5, _⟩ => ⟨S196, .f32⟩
  | .local _ .vmem, ⟨6, _⟩ => ⟨S1x2048x164, .f32⟩
  | .local _ .vmem, ⟨7, _⟩ => ⟨S1x2048x164, .f32⟩
  | .local _ .vmem, ⟨8, _⟩ => ⟨S2048x1, .f32⟩
  | .local _ .vmem, ⟨9, _⟩ => ⟨S2048x1, .f32⟩
  | .local _ .vmem, ⟨10, _⟩ => ⟨S2048x164, .f32⟩
  | .local _ .vmem, ⟨11, _⟩ => ⟨S2048x256, .f32⟩
  | .local _ .vmem, ⟨12, _⟩ => ⟨S1x1024x164, .f32⟩
  | .local _ .vmem, ⟨13, _⟩ => ⟨S1x1024x164, .f32⟩
  | .local _ .vmem, ⟨14, _⟩ => ⟨S1x1024x768, .f32⟩
  | .local _ .vmem, ⟨15, _⟩ => ⟨S1x1024x768, .f32⟩
  | .local _ .vmem, ⟨16, _⟩ => ⟨S768x768, .f32⟩
  | .local _ .vmem, ⟨17, _⟩ => ⟨S768, .f32⟩
  | .local _ .vmem, ⟨18, _⟩ => ⟨S1x1024x768, .f32⟩
  | .local _ .vmem, ⟨19, _⟩ => ⟨S1x1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c16 : Index := 16#32
  ![v7.toNat, 16]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v10 : Index := Scalar.indexCast v4
  let c32 : Index := 32#32
  ![v10.toNat, 32]
def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_20 : BitVec 32 := 0#32
  let v49 : BitVec 1 := Scalar.cmpi .ne v48 c0_i32_20
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S164 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S164 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S196x164 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S196 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x164 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x164 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x2048x256_S1x2048x164_0_0_0 : ∀ a, (![0, 0, 0] : Fin 3 → Nat) a + S1x2048x164.size a ≤ S1x2048x256.size a
  h_S1x2048x164 : 0 < S1x2048x164.numel
  shapeCasts_S1x2048x164_S2048x164 : S1x2048x164.ShapeCasts S2048x164
  reduces_S2048x164_S2048 : S2048x164.Reduces [1] S2048
  shapeCasts_S2048_S2048x1 : S2048.ShapeCasts S2048x1
  broadcasts_S2048x1_S2048x164 : S2048x1.Broadcasts S2048x164
  inb_S164_S164_0 : ∀ a, (![0] : Fin 1 → Nat) a + S164.size a ≤ S164.size a
  h_S164 : 0 < S164.numel
  shapeCasts_S164_S1x164 : S164.ShapeCasts S1x164
  broadcasts_S1x164_S2048x164 : S1x164.Broadcasts S2048x164
  bitsLt_bf16_f32 : FTy.bits .bf16 < FTy.bits .f32
  inb_S196x164_S196x164_0_0 : ∀ a, (![0, 0] : Fin 2 → Nat) a + S196x164.size a ≤ S196x164.size a
  h_S196x164 : 0 < S196x164.numel
  transposes_S196x164_p1_0_S164x196 : S196x164.Transposes [1, 0] S164x196
  inb_S196_S196_0 : ∀ a, (![0] : Fin 1 → Nat) a + S196.size a ≤ S196.size a
  h_S196 : 0 < S196.numel
  shapeCasts_S196_S1x196 : S196.ShapeCasts S1x196
  broadcasts_S1x196_S2048x196 : S1x196.Broadcasts S2048x196
  inb_S2048x256_S2048x196_0_0 : ∀ a, (![0, 0] : Fin 2 → Nat) a + S2048x196.size a ≤ S2048x256.size a
  h_S2048x196 : 0 < S2048x196.numel
  shapeCasts_S2048x196_S2048x196 : S2048x196.ShapeCasts S2048x196
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x164_S2048x164_0_0 : ∀ a, (![0, 0] : Fin 2 → Nat) a + S2048x164.size a ≤ S2048x164.size a
  h_S2048x164 : 0 < S2048x164.numel
  shapeCasts_S2048x164_S2048x164 : S2048x164.ShapeCasts S2048x164
  inb_S2048x256_S2048x16_0_0 : ∀ a, (![0, 0] : Fin 2 → Nat) a + S2048x16.size a ≤ S2048x256.size a
  h_S2048x16 : 0 < S2048x16.numel
  h_S512x16 : 0 < S512x16.numel
  h_S512x164 : 0 < S512x164.numel
  transposes_S512x16_p1_0_S16x512 : S512x16.Transposes [1, 0] S16x512
  reduces_S2048x512_S2048 : S2048x512.Reduces [1] S2048
  broadcasts_S2048x1_S2048x512 : S2048x1.Broadcasts S2048x512
  inb_S1x2048x164_S1x2048x164_0_0_0 : ∀ a, (![0, 0, 0] : Fin 3 → Nat) a + S1x2048x164.size a ≤ S1x2048x164.size a
  shapeCasts_S2048x164_S1x2048x164 : S2048x164.ShapeCasts S1x2048x164
  inb_S1x1024x164_S1x1024x164_0_0_0 : ∀ a, (![0, 0, 0] : Fin 3 → Nat) a + S1x1024x164.size a ≤ S1x1024x164.size a
  h_S1x1024x164 : 0 < S1x1024x164.numel
  shapeCasts_S1x1024x164_S1024x164 : S1x1024x164.ShapeCasts S1024x164
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  slices_S1024x768_o0_164_S1024x604 : S1024x768.Slices ![0, 164] S1024x604
  inb_S768x768_S768x768_0_0 : ∀ a, (![0, 0] : Fin 2 → Nat) a + S768x768.size a ≤ S768x768.size a
  h_S768x768 : 0 < S768x768.numel
  slices_S768x768_o0_0_S768x164 : S768x768.Slices ![0, 0] S768x164
  slices_S768x768_o0_164_S768x604 : S768x768.Slices ![0, 164] S768x604
  transposes_S768x164_p1_0_S164x768 : S768x164.Transposes [1, 0] S164x768
  transposes_S768x604_p1_0_S604x768 : S768x604.Transposes [1, 0] S604x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S1024x768_S1x1024x768 : S1024x768.ShapeCasts S1x1024x768
  dot_S2048x164_S164x196_S2048x196_1_0_0_1_n_n_wf : DotDims.WF S2048x164 S164x196 S2048x196 [1] [0] [0] [1] [] []
  dot_S2048x16_S16x512_S2048x512_1_0_0_1_n_n_wf : DotDims.WF S2048x16 S16x512 S2048x512 [1] [0] [0] [1] [] []
  dot_S2048x512_S512x164_S2048x164_1_0_0_1_n_n_wf : DotDims.WF S2048x512 S512x164 S2048x164 [1] [0] [0] [1] [] []
  dot_S1024x164_S164x768_S1024x768_1_0_0_1_n_n_wf : DotDims.WF S1024x164 S164x768 S1024x768 [1] [0] [0] [1] [] []
  dot_S1024x604_S604x768_S1024x768_1_0_0_1_n_n_wf : DotDims.WF S1024x604 S604x768 S1024x768 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x16.size a ≤ S2048x256.size a
  k0_off2_inb : ∀ i : grid0.Coords, ∀ a, (k0_off2 i) a + S512x164.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x768.size a
  hwx0_0 : ∀ i : grid0.Coords, EltTy.bits .f32 = 32 ∨ (Rect.block (s := S8x2048x768) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S164.size a ≤ S164.size a
  hwx0_1 : ∀ i : grid0.Coords, EltTy.bits .f32 = 32 ∨ (Rect.block (s := S164) S164.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S164.size a ≤ S164.size a
  hwx0_2 : ∀ i : grid0.Coords, EltTy.bits .f32 = 32 ∨ (Rect.block (s := S164) S164.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x164.size a ≤ S196x164.size a
  hwx0_3 : ∀ i : grid0.Coords, EltTy.bits .f32 = 32 ∨ (Rect.block (s := S196x164) S196x164.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S196.size a ≤ S196.size a
  hwx0_4 : ∀ i : grid0.Coords, EltTy.bits .f32 = 32 ∨ (Rect.block (s := S196) S196.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x164.size a ≤ S8x2048x164.size a
  hwx0_5 : ∀ i : grid0.Coords, EltTy.bits .f32 = 32 ∨ (Rect.block (s := S8x2048x164) S1x2048x164.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x164.size a ≤ S8x2048x164.size a
  hwx1_0 : ∀ i : grid1.Coords, EltTy.bits .f32 = 32 ∨ (Rect.block (s := S8x2048x164) S1x1024x164.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x768.size a ≤ S8x2048x768.size a
  hwx1_1 : ∀ i : grid1.Coords, EltTy.bits .f32 = 32 ∨ (Rect.block (s := S8x2048x768) S1x1024x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768.size a ≤ S768.size a
  hwx1_3 : ∀ i : grid1.Coords, EltTy.bits .f32 = 32 ∨ (Rect.block (s := S768) S768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x768.size a ≤ S8x2048x768.size a
  hwx1_4 : ∀ i : grid1.Coords, EltTy.bits .f32 = 32 ∨ (Rect.block (s := S8x2048x768) S1x1024x768.size (cc1_transform_4 i) (hinb1_4 i)).WholeWords (EltTy.packing .f32)

variable [Facts₀]

def dot_S2048x164_S164x196_S2048x196_1_0_0_1_n_n : DotDims S2048x164 S164x196 S2048x196 where
  lhsContracting := [1]
  rhsContracting := [0]
  lhsNonContracting := [0]
  rhsNonContracting := [1]
  lhsBatch := []
  rhsBatch := []
  wf := dot_S2048x164_S164x196_S2048x196_1_0_0_1_n_n_wf
def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf
def dot_S2048x512_S512x164_S2048x164_1_0_0_1_n_n : DotDims S2048x512 S512x164 S2048x164 where
  lhsContracting := [1]
  rhsContracting := [0]
  lhsNonContracting := [0]
  rhsNonContracting := [1]
  lhsBatch := []
  rhsBatch := []
  wf := dot_S2048x512_S512x164_S2048x164_1_0_0_1_n_n_wf
def dot_S1024x164_S164x768_S1024x768_1_0_0_1_n_n : DotDims S1024x164 S164x768 S1024x768 where
  lhsContracting := [1]
  rhsContracting := [0]
  lhsNonContracting := [0]
  rhsNonContracting := [1]
  lhsBatch := []
  rhsBatch := []
  wf := dot_S1024x164_S164x768_S1024x768_1_0_0_1_n_n_wf
def dot_S1024x604_S604x768_S1024x768_1_0_0_1_n_n : DotDims S1024x604 S604x768 S1024x768 where
  lhsContracting := [1]
  rhsContracting := [0]
  lhsNonContracting := [0]
  rhsNonContracting := [1]
  lhsBatch := []
  rhsBatch := []
  wf := dot_S1024x604_S604x768_S1024x768_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S164.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S164.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S196x164.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S196.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x164.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S1x1024x164.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x768 : Shape := ⟨3, ![8, 2048, 768]⟩
abbrev S164 : Shape := ⟨1, ![164]⟩
abbrev S196x164 : Shape := ⟨2, ![196, 164]⟩
abbrev S196 : Shape := ⟨1, ![196]⟩
abbrev S768x768 : Shape := ⟨2, ![768, 768]⟩
abbrev S768 : Shape := ⟨1, ![768]⟩
abbrev S8x2048x164 : Shape := ⟨3, ![8, 2048, 164]⟩
abbrev S8x2048x604 : Shape := ⟨3, ![8, 2048, 604]⟩
abbrev S_ : Shape := ⟨0, ![]⟩
abbrev S8x2048 : Shape := ⟨2, ![8, 2048]⟩
abbrev S8x2048x1 : Shape := ⟨3, ![8, 2048, 1]⟩
abbrev S1x1x164 : Shape := ⟨3, ![1, 1, 164]⟩
abbrev S8x2048x196 : Shape := ⟨3, ![8, 2048, 196]⟩
abbrev S1x1x196 : Shape := ⟨3, ![1, 1, 196]⟩
abbrev S8x2048x16 : Shape := ⟨3, ![8, 2048, 16]⟩
abbrev S8x2048x2048 : Shape := ⟨3, ![8, 2048, 2048]⟩
abbrev S1x1x768 : Shape := ⟨3, ![1, 1, 768]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S164, .f32⟩
  | .hbm, ⟨2, _⟩ => ⟨S164, .f32⟩
  | .hbm, ⟨3, _⟩ => ⟨S196x164, .f32⟩
  | .hbm, ⟨4, _⟩ => ⟨S196, .f32⟩
  | .hbm, ⟨5, _⟩ => ⟨S768x768, .f32⟩
  | .hbm, ⟨6, _⟩ => ⟨S768, .f32⟩
  | .hbm, ⟨7, _⟩ => ⟨S8x2048x164, .f32⟩
  | .hbm, ⟨8, _⟩ => ⟨S8x2048x604, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x164, .f32⟩
  | .hbm, ⟨16, _⟩ => ⟨S8x2048x164, .f32⟩
  | .hbm, ⟨17, _⟩ => ⟨S8x2048x164, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x164, .f32⟩
  | .hbm, ⟨25, _⟩ => ⟨S8x2048x164, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x164, .f32⟩
  | .hbm, ⟨31, _⟩ => ⟨S8x2048x164, .f32⟩
  | .hbm, ⟨32, _⟩ => ⟨S1x1x164, .f32⟩
  | .hbm, ⟨33, _⟩ => ⟨S8x2048x164, .f32⟩
  | .hbm, ⟨34, _⟩ => ⟨S8x2048x164, .f32⟩
  | .hbm, ⟨35, _⟩ => ⟨S1x1x164, .f32⟩
  | .hbm, ⟨36, _⟩ => ⟨S8x2048x164, .f32⟩
  | .hbm, ⟨37, _⟩ => ⟨S8x2048x164, .f32⟩
  | .hbm, ⟨38, _⟩ => ⟨S8x2048x196, .f32⟩
  | .hbm, ⟨39, _⟩ => ⟨S1x1x196, .f32⟩
  | .hbm, ⟨40, _⟩ => ⟨S8x2048x196, .f32⟩
  | .hbm, ⟨41, _⟩ => ⟨S8x2048x196, .f32⟩
  | .hbm, ⟨42, _⟩ => ⟨S8x2048x16, .f32⟩
  | .hbm, ⟨43, _⟩ => ⟨S8x2048x16, .f32⟩
  | .hbm, ⟨44, _⟩ => ⟨S8x2048x164, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x164, .f32⟩
  | .hbm, ⟨64, _⟩ => ⟨S8x2048x768, .f32⟩
  | .hbm, ⟨65, _⟩ => ⟨S8x2048x768, .f32⟩
  | .hbm, ⟨66, _⟩ => ⟨S1x1x768, .f32⟩
  | .hbm, ⟨67, _⟩ => ⟨S8x2048x768, .f32⟩
  | .hbm, ⟨68, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  slices_S8x2048x768_S8x2048x164_0_0_0 : S8x2048x768.Slices ![0, 0, 0] S8x2048x164
  slices_S8x2048x768_S8x2048x604_0_0_164 : S8x2048x768.Slices ![0, 0, 164] S8x2048x604
  reducesTo_S8x2048x164_S8x2048_d2 : S8x2048x164.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x164_0_1_2 : S8x2048x1.BroadcastsInDim S8x2048x164 (![0, 1, 2] : Fin 3 → Fin S8x2048x164.rank)
  bcast_S164_S1x1x164_2 : S164.BroadcastsInDim S1x1x164 (![2] : Fin 1 → Fin S1x1x164.rank)
  bcast_S1x1x164_S8x2048x164_0_1_2 : S1x1x164.BroadcastsInDim S8x2048x164 (![0, 1, 2] : Fin 3 → Fin S8x2048x164.rank)
  bcast_S196_S1x1x196_2 : S196.BroadcastsInDim S1x1x196 (![2] : Fin 1 → Fin S1x1x196.rank)
  bcast_S1x1x196_S8x2048x196_0_1_2 : S1x1x196.BroadcastsInDim S8x2048x196 (![0, 1, 2] : Fin 3 → Fin S8x2048x196.rank)
  slices_S8x2048x196_S8x2048x16_0_0_0 : S8x2048x196.Slices ![0, 0, 0] S8x2048x16
  slices_S8x2048x196_S8x2048x16_0_0_16 : S8x2048x196.Slices ![0, 0, 16] S8x2048x16
  slices_S8x2048x196_S8x2048x164_0_0_32 : S8x2048x196.Slices ![0, 0, 32] S8x2048x164
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  concatenates_S8x2048x164_S8x2048x604_S8x2048x768_d2 : Shape.Concatenates [S8x2048x164, S8x2048x604] S8x2048x768 2
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x164_S196x164_S8x2048x196_2_1_01_0_n_n_wf : DotDims.WF S8x2048x164 S196x164 S8x2048x196 [2] [1] [0, 1] [0] [] []
  dot_S8x2048x16_S8x2048x16_S8x2048x2048_2_2_1_1_0_0_wf : DotDims.WF S8x2048x16 S8x2048x16 S8x2048x2048 [2] [2] [1] [1] [0] [0]
  dot_S8x2048x2048_S8x2048x164_S8x2048x164_2_1_1_2_0_0_wf : DotDims.WF S8x2048x2048 S8x2048x164 S8x2048x164 [2] [1] [1] [2] [0] [0]
  dot_S8x2048x768_S768x768_S8x2048x768_2_1_01_0_n_n_wf : DotDims.WF S8x2048x768 S768x768 S8x2048x768 [2] [1] [0, 1] [0] [] []

variable [Facts₀]

def dot_S8x2048x164_S196x164_S8x2048x196_2_1_01_0_n_n : DotDims S8x2048x164 S196x164 S8x2048x196 where
  lhsContracting := [2]
  rhsContracting := [1]
  lhsNonContracting := [0, 1]
  rhsNonContracting := [0]
  lhsBatch := []
  rhsBatch := []
  wf := dot_S8x2048x164_S196x164_S8x2048x196_2_1_01_0_n_n_wf
def dot_S8x2048x16_S8x2048x16_S8x2048x2048_2_2_1_1_0_0 : DotDims S8x2048x16 S8x2048x16 S8x2048x2048 where
  lhsContracting := [2]
  rhsContracting := [2]
  lhsNonContracting := [1]
  rhsNonContracting := [1]
  lhsBatch := [0]
  rhsBatch := [0]
  wf := dot_S8x2048x16_S8x2048x16_S8x2048x2048_2_2_1_1_0_0_wf
def dot_S8x2048x2048_S8x2048x164_S8x2048x164_2_1_1_2_0_0 : DotDims S8x2048x2048 S8x2048x164 S8x2048x164 where
  lhsContracting := [2]
  rhsContracting := [1]
  lhsNonContracting := [1]
  rhsNonContracting := [2]
  lhsBatch := [0]
  rhsBatch := [0]
  wf := dot_S8x2048x2048_S8x2048x164_S8x2048x164_2_1_1_2_0_0_wf
def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf

class Facts : Prop extends Facts₀ where

variable [Facts]
-- ==== Proof.KAttnRuns.lean ====
/-
  The first pallas_call (layer normalisation, the projection to query, key and value channels, and attention with a
  running soft-max over four tiles of keys) at a parameter `V`, the buffers' contents when the region is entered:
  the windows' blocks, the two conditions of the body over the grid — "the first tile of a batch" and "the last
  tile of a batch" — in closed form, where the output window is idle, and the staging and scratch memrefs.
  The grid is 8 batches × 4 tiles: point `t` is batch `t / 4`, tile `t % 4`.
-/
import proofs.«105017_j18133351924335_2_alg».proof.Proof.Gen.Kernel.Launch
import proofs.«105017_j18133351924335_2_alg».proof.Proof.Gen.Kernel.Skeleton
import proofs.«105017_j18133351924335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Attn

/-! ## The body's two conditions -/

/-- "This is the first tile of its batch": the condition of the body's first `scf.if`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch": the condition of the body's second `scf.if`. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a batch's last tile it is live. -/
theorem liveAt0_5 : ∀ t : Fin cfg0.N, cond0_1 (grid0.coords t) → cfg0.idle 5 (grid0.coords t) = false := by decide +kernel

/-! ## The memrefs -/

abbrev VO0_5 : View sig .tc .vmem S1x2048x164 .f32 := (Memref.whole cc0_stg5_0 : Memref sig .tc .vmem S1x2048x164 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S164 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S164 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S196x164 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S196 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x164 .f32 := win0_5.stage (cfg0.slots t 5)
abbrev hs0_5 (t : Fin cfg0.N) : (ms0_5 t).IsWhole := hstage0_5 ((cfg0.slots t 5).cast nbuf0_5)
/-- The four scratch operands: the running maximum, the running denominator, the running numerator, and the projected channels. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x164 .f32 := Memref.whole cc0_scratch2
abbrev scM0_3 : Memref sig .tc .vmem S2048x256 .f32 := Memref.whole cc0_scratch3
abbrev VS0_0 : View sig .tc .vmem S2048x1 .f32 := scM0_0.view
abbrev VS0_1 : View sig .tc .vmem S2048x1 .f32 := scM0_1.view
abbrev VS0_2 : View sig .tc .vmem S2048x164 .f32 := scM0_2.view
abbrev VS0_3 : View sig .tc .vmem S2048x256 .f32 := scM0_3.view

/-- The scoped buffers of the core that belong to the other pallas_call: each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped c) ∗ (∃ r, prngReg c r)) := by
  unfold Pipeline.ΦA otherScoped; rw [scopedRest0_eq]; simp only [scM0_0, scM0_1, scM0_2, scM0_3, owns_whole]; try rfl

end Cert.Kernel.Hand

end
-- ==== Proof.KAttnRunA.lean ====
/-
  The body at the first tile of a batch (the reset is taken, the write of the output is not): on whole memrefs, the
  five inputs at their contents, the output's buffer untouched, the four scratch buffers at anything, it runs to the end
  leaving the inputs as they were and each scratch with the pieces its stores wrote.
-/
import proofs.«105017_j18133351924335_2_alg».proof.Proof.KAttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a batch's first tile the tile number is zero. -/
theorem first_tile : ∀ i : grid0.Coords, cond0_0 i → (i 1).val = 0 := by decide +kernel

/-- At a batch's first tile the tile of keys starts at row 0: the two windows' offsets as numerals. -/
instance (priority := high) closedOffA_k0_off1 (i : grid0.Coords) [h : Fact (cond0_0 i)] : ClosedOff (k0_off1 i) :=
  ⟨![0, 16], by rw [k0_off1_eq, first_tile i h.out]⟩
instance (priority := high) closedOffA_k0_off2 (i : grid0.Coords) [h : Fact (cond0_0 i)] : ClosedOff (k0_off2 i) :=
  ⟨![0, 32], by rw [k0_off2_eq, first_tile i h.out]⟩

set_option maxHeartbeats 4000000 in
/-- The run at a batch's first tile; the pieces each scratch ends with are found by the run. -/
noncomputable def kernelRun0_A (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    Σ' (LS0 : List (View.Piece (Elt F) S2048x1 .f32)) (LS1 : List (View.Piece (Elt F) S2048x1 .f32)) (LS2 : List (View.Piece (Elt F) S2048x164 .f32)), { LS3 : List (View.Piece (Elt F) S2048x256 .f32) //
      ∀ (xi5 : Vec F S1x2048x164 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  haveI : Fact (cond0_0 i) := ⟨hc0⟩
  refine ⟨?_, ?_, ?_, ?_, fun xi5 E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Hand

end
-- ==== Proof.KAttnRunB.lean ====
/-
  The body at a middle tile of a batch (neither the reset nor the write of the output is taken): the running
  maximum, denominator and numerator are read at what the tile before left and stored anew; the projected channels
  are read and left as they are; the output's buffer is untouched.
-/
import proofs.«105017_j18133351924335_2_alg».proof.Proof.KAttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle tile. -/
noncomputable def kernelRun0_B (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : ¬cond0_0 i) (hc1 : ¬cond0_1 i)
    (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32) :
    Σ' (LS0 : List (View.Piece (Elt F) S2048x1 .f32)) (LS1 : List (View.Piece (Elt F) S2048x1 .f32)), { LS2 : List (View.Piece (Elt F) S2048x164 .f32) //
      ∀ (xi5 : Vec F S1x2048x164 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.KAttnRunC.lean ====
/-
  The body at the last tile of a batch (the reset is not taken, the write of the output is): as at a middle tile, and
  then the numerator divided by the denominator is stored into the output's buffer.
-/
import proofs.«105017_j18133351924335_2_alg».proof.Proof.KAttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a batch's last tile. -/
noncomputable def kernelRun0_C (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32) :
    Σ' (L5 : List (View.Piece (Elt F) S1x2048x164 .f32)) (LS0 : List (View.Piece (Elt F) S2048x1 .f32)) (LS1 : List (View.Piece (Elt F) S2048x1 .f32)), { LS2 : List (View.Piece (Elt F) S2048x164 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.KAttnState.lean ====
/-
  What the attention body computes, as pure functions of the blocks it loads (at any float instance): the projected
  channels of a batch, the three pieces of them a tile reads (all queries; the tile's 512 keys; the tile's 512 values),
  one tile's update of the running maximum, denominator and numerator, the state after each tile of a batch, and the
  quotient written at the batch's last tile.
-/
import proofs.«105017_j18133351924335_2_alg».proof.Proof.Gen.Kernel.Skeleton
import Idealize.ShloMosaic.Lib.ValueIdx

noncomputable section

namespace Cert.Kernel.Hand

open Cert.Kernel Cert.Kernel.Gen
open Idealize.ShloMosaic

variable {F : FTy → Type} [FloatOps F]

/-- The query channels (the first 16 of the 196 projected channels) of every row. -/
def subQ (p : Vec F S2048x196 .f32) : Vec F S2048x16 .f32 := fun y =>
  p (ValueIdx.ix2 (⟨(y 0).val, (y 0).isLt⟩ : Fin 2048)
      (⟨(y 1).val, by have h : (y 1).val < 16 := (y 1).isLt; omega⟩ : Fin 196))

/-- The key channels (16 to 31) of the 512 rows of tile `j`. -/
def subK (j : ℕ) (p : Vec F S2048x196 .f32) : Vec F S512x16 .f32 := fun y =>
  p (ValueIdx.ix2 (⟨(512 * j + (y 0).val) % 2048, Nat.mod_lt _ (by norm_num)⟩ : Fin 2048)
      (⟨16 + (y 1).val, by have h : (y 1).val < 16 := (y 1).isLt; omega⟩ : Fin 196))

/-- The value channels (32 to 195) of the 512 rows of tile `j`. -/
def subV (j : ℕ) (p : Vec F S2048x196 .f32) : Vec F S512x164 .f32 := fun y =>
  p (ValueIdx.ix2 (⟨(512 * j + (y 0).val) % 2048, Nat.mod_lt _ (by norm_num)⟩ : Fin 2048)
      (⟨32 + (y 1).val, by have h : (y 1).val < 164 := (y 1).isLt; omega⟩ : Fin 196))

/-- The running maximum, the running denominator and the running numerator. -/
abbrev St (F : FTy → Type) : Type := Vec F S2048x1 .f32 × Vec F S2048x1 .f32 × Vec F S2048x164 .f32

/-- What the reset leaves: the finite stand-in for minus infinity, zero, zero. -/
def stReset : St F := (k0_pay6 (k0_pay5 (F := F)), k0_pay7 (F := F), k0_pay8 (F := F))

/-- One tile: from the queries `q`, the tile's keys `k` and values `v`, and the state before it. -/
def tileStep (q : Vec F S2048x16 .f32) (k : Vec F S512x16 .f32) (v : Vec F S512x164 .f32) (s : St F) : St F :=
  (k0_pay2 (k0_pay11 q k s.1),
   k0_pay14 q k s.1 s.1 s.2.1,
   k0_pay1 (k0_pay9 v) (k0_pay12 q k s.1 s.1) (k0_pay15 q k s.1) s.2.2)

/-- The state after tile `j` of a batch whose projected channels are `p`. -/
def stAfter (p : Vec F S2048x196 .f32) : ℕ → St F
  | 0 => tileStep (subQ p) (subK 0 p) (subV 0 p) stReset
  | j + 1 => tileStep (subQ p) (subK (j + 1) p) (subV (j + 1) p) (stAfter p j)

/-- What the last tile writes: the numerator over the denominator. -/
def outOf (s : St F) : Vec F S1x2048x164 .f32 := k0_pay3 s.2.2 s.2.1

end Cert.Kernel.Hand

end
-- ==== Proof.KAttnPiecesBC.lean ====
/-
  What the runs at a middle tile and at a last tile leave in each buffer they store into, as the pure functions of one
  tile's update: the contents are those of `tileStep` applied to the three pieces of the projected channels the tile
  reads and to the state the tile before left; at a last tile the output's buffer holds the quotient.
-/
import proofs.«105017_j18133351924335_2_alg».proof.Proof.KAttnRunB
import proofs.«105017_j18133351924335_2_alg».proof.Proof.KAttnRunC
import proofs.«105017_j18133351924335_2_alg».proof.Proof.KAttnState
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles a tile reads the projected channels through: all rows of the query columns, the tile's rows of the
    key columns, the tile's rows of the value columns. -/
abbrev rQ : Rect S2048x256 := Rect.unit (s := S2048x256) ![0, 0] S2048x16.size inb_S2048x256_S2048x16_0_0
abbrev rK (i : grid0.Coords) : Rect S2048x256 := Rect.unit (s := S2048x256) (k0_off1 i) S512x16.size (k0_off1_inb i)
abbrev rV (i : grid0.Coords) : Rect S2048x256 := Rect.unit (s := S2048x256) (k0_off2 i) S512x164.size (k0_off2_inb i)

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section Pieces
variable (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32)

/-! ### A middle tile -/

theorem coverB_0 (hc0 : ¬cond0_0 i) (hc1 : ¬cond0_1 i) (y : S2048x1.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL _ S2048x1.size (by sl_kernel_rfl) y
theorem coverB_1 (hc0 : ¬cond0_0 i) (hc1 : ¬cond0_1 i) (y : S2048x1.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL _ S2048x1.size (by sl_kernel_rfl) y
theorem coverB_2 (hc0 : ¬cond0_0 i) (hc1 : ¬cond0_1 i) (y : S2048x164.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL _ S2048x164.size (by sl_kernel_rfl) y

theorem pieceB_0 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1 = (tileStep (View.ld xs3 rQ) (View.ld xs3 (rK i)) (View.ld xs3 (rV i)) (xs0, xs1, xs2)).1 := by
  unfold kernelRun0_B; dsimp only
  rw [View.canon_unit_zero hz2]
  unfold kernelRun0_B.sl.r_1
  simp only [View.readAt_eq_ld, harg11.read_unread, harg8.read_unread, harg9.read_unread, harg10.read_unread, View.ld_unit_zero (S := S2048x1) hz2, View.ld_unit_zero (S := S2048x164) hz2]
  rfl

theorem pieceB_1 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 = (tileStep (View.ld xs3 rQ) (View.ld xs3 (rK i)) (View.ld xs3 (rV i)) (xs0, xs1, xs2)).2.1 := by
  unfold kernelRun0_B; dsimp only
  rw [View.canon_unit_zero hz2]
  simp only [View.readAt_eq_ld, harg11.read_unread, harg8.read_unread, harg9.read_unread, harg10.read_unread, View.ld_unit_zero (S := S2048x1) hz2, View.ld_unit_zero (S := S2048x164) hz2]
  rfl

theorem pieceB_2 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 = (tileStep (View.ld xs3 rQ) (View.ld xs3 (rK i)) (View.ld xs3 (rV i)) (xs0, xs1, xs2)).2.2 := by
  unfold kernelRun0_B; dsimp only
  rw [View.canon_unit_zero hz2]
  unfold kernelRun0_B.sl.r kernelRun0_B.sl.r_2 kernelRun0_B.sl.r_3
  simp only [View.readAt_eq_ld, harg11.read_unread, harg8.read_unread, harg9.read_unread, harg10.read_unread, View.ld_unit_zero (S := S2048x1) hz2, View.ld_unit_zero (S := S2048x164) hz2]
  rfl

/-! ### A last tile -/

theorem coverC_5 (hc0 : ¬cond0_0 i) (hc1 : cond0_1 i) (y : S1x2048x164.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL _ S1x2048x164.size (by sl_kernel_rfl) y
theorem coverC_0 (hc0 : ¬cond0_0 i) (hc1 : cond0_1 i) (y : S2048x1.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL _ S2048x1.size (by sl_kernel_rfl) y
theorem coverC_1 (hc0 : ¬cond0_0 i) (hc1 : cond0_1 i) (y : S2048x1.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL _ S2048x1.size (by sl_kernel_rfl) y
theorem coverC_2 (hc0 : ¬cond0_0 i) (hc1 : cond0_1 i) (y : S2048x164.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL _ S2048x164.size (by sl_kernel_rfl) y

theorem pieceC_0 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 = (tileStep (View.ld xs3 rQ) (View.ld xs3 (rK i)) (View.ld xs3 (rV i)) (xs0, xs1, xs2)).1 := by
  unfold kernelRun0_C; dsimp only
  rw [View.canon_unit_zero hz2]
  unfold kernelRun0_C.sl.r_1
  simp only [View.readAt_eq_ld, harg11.read_unread, harg8.read_unread, harg9.read_unread, harg10.read_unread, View.ld_unit_zero (S := S2048x1) hz2, View.ld_unit_zero (S := S2048x164) hz2]
  rfl

theorem pieceC_1 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 = (tileStep (View.ld xs3 rQ) (View.ld xs3 (rK i)) (View.ld xs3 (rV i)) (xs0, xs1, xs2)).2.1 := by
  unfold kernelRun0_C; dsimp only
  unfold kernelRun0_C.sl.HS1_1
  rw [View.canon_unit_zero hz2]
  simp only [View.readAt_eq_ld, harg11.read_unread, harg8.read_unread, harg9.read_unread, harg10.read_unread, View.ld_unit_zero (S := S2048x1) hz2, View.ld_unit_zero (S := S2048x164) hz2]
  rfl

theorem pieceC_2 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 = (tileStep (View.ld xs3 rQ) (View.ld xs3 (rK i)) (View.ld xs3 (rV i)) (xs0, xs1, xs2)).2.2 := by
  unfold kernelRun0_C; dsimp only
  unfold kernelRun0_C.sl.HS2_1
  rw [View.canon_unit_zero hz2]
  unfold kernelRun0_C.sl.r kernelRun0_C.sl.r_2 kernelRun0_C.sl.r_3
  simp only [View.readAt_eq_ld, harg11.read_unread, harg8.read_unread, harg9.read_unread, harg10.read_unread, View.ld_unit_zero (S := S2048x1) hz2, View.ld_unit_zero (S := S2048x164) hz2]
  rfl

theorem pieceC_5 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1 = outOf (tileStep (View.ld xs3 rQ) (View.ld xs3 (rK i)) (View.ld xs3 (rV i)) (xs0, xs1, xs2)) := by
  unfold kernelRun0_C; dsimp only
  rw [View.canon_unit_zero hz3]
  unfold kernelRun0_C.sl.v50 kernelRun0_C.sl.v51
  unfold kernelRun0_C.sl.HS2_1 kernelRun0_C.sl.HS1_1
  rw [View.readCov_unit_zero _ hz2, View.readCov_unit_zero _ hz2]
  unfold kernelRun0_C.sl.r kernelRun0_C.sl.r_2 kernelRun0_C.sl.r_3
  simp only [View.readAt_eq_ld, harg11.read_unread, harg8.read_unread, harg9.read_unread, harg10.read_unread, View.ld_unit_zero (S := S2048x1) hz2, View.ld_unit_zero (S := S2048x164) hz2]
  rfl

end Pieces

end Cert.Kernel.Hand

end
-- ==== Proof.KAttnLd.lean ====
/-
  A buffer of 256 columns whose first 196 columns hold the projected channels `p` reads, through the three rectangles a
  tile loads, the three pieces of `p`: all rows of the query columns, the tile's 512 rows of the key columns, the tile's
  512 rows of the value columns.
-/
import proofs.«105017_j18133351924335_2_alg».proof.Proof.KAttnPiecesBC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first 196 columns of the 256-column scratch. -/
abbrev R196 : Rect S2048x256 := Rect.unit (s := S2048x256) ![0, 0] S2048x196.size inb_S2048x256_S2048x196_0_0

/-- A buffer whose first 196 columns hold `p` reads, through the three rectangles of a tile, the three pieces of `p`. -/
theorem ld_rQ (d3 : Vec F S2048x256 .f32) (p : Vec F S2048x196 .f32) (h : View.ld d3 R196 = p) : View.ld d3 rQ = subQ p := by
  subst h; funext y; unfold subQ
  show d3 (rQ.idx y) = d3 (R196.idx _)
  refine congrArg d3 (funext fun a => Fin.ext ?_)
  match a with
  | ⟨0, _⟩ => rfl
  | ⟨1, _⟩ => rfl

theorem ld_rK (i : grid0.Coords) (d3 : Vec F S2048x256 .f32) (p : Vec F S2048x196 .f32) (h : View.ld d3 R196 = p) :
    View.ld d3 (rK i) = subK (i 1).val p := by
  subst h; funext y; unfold subK
  show d3 ((rK i).idx y) = d3 (R196.idx _)
  refine congrArg d3 (funext fun a => Fin.ext ?_)
  have hi : (i 1).val < 4 := (i 1).isLt
  have hy0 : (y 0).val < 512 := (y 0).isLt
  match a with
  | ⟨0, _⟩ =>
    show (k0_off1 i) 0 + 1 * (y 0).val = 0 + 1 * ((512 * (i 1).val + (y 0).val) % 2048)
    rw [k0_off1_eq i]
    show 512 * (i 1).val + 1 * (y 0).val = _
    omega
  | ⟨1, _⟩ =>
    show (k0_off1 i) 1 + 1 * (y 1).val = 0 + 1 * (16 + (y 1).val)
    rw [k0_off1_eq i]
    show 16 + 1 * (y 1).val = _
    omega

theorem ld_rV (i : grid0.Coords) (d3 : Vec F S2048x256 .f32) (p : Vec F S2048x196 .f32) (h : View.ld d3 R196 = p) :
    View.ld d3 (rV i) = subV (i 1).val p := by
  subst h; funext y; unfold subV
  show d3 ((rV i).idx y) = d3 (R196.idx _)
  refine congrArg d3 (funext fun a => Fin.ext ?_)
  have hi : (i 1).val < 4 := (i 1).isLt
  have hy0 : (y 0).val < 512 := (y 0).isLt
  match a with
  | ⟨0, _⟩ =>
    show (k0_off2 i) 0 + 1 * (y 0).val = 0 + 1 * ((512 * (i 1).val + (y 0).val) % 2048)
    rw [k0_off2_eq i]
    show 512 * (i 1).val + 1 * (y 0).val = _
    omega
  | ⟨1, _⟩ =>
    show (k0_off2 i) 1 + 1 * (y 1).val = 0 + 1 * (32 + (y 1).val)
    rw [k0_off2_eq i]
    show 32 + 1 * (y 1).val = _
    omega

end Cert.Kernel.Hand
end
-- ==== Proof.KAttnCov.lean ====
/-
  After the one store of the projected channels `p` into the first 196 columns of the 256-column scratch, a load through
  a box inside those columns reads `p` at the corresponding indices: through the three boxes a tile loads, the three
  pieces of `p`.
-/
import proofs.«105017_j18133351924335_2_alg».proof.Proof.KAttnLd
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readCov_sub [∀ e, Nonempty (Elt F e)] {κ : Kind} {sp : Space} (v : View sig κ sp S2048x256 .f32) (p : Vec F S2048x196 .f32)
    (B : LoadRect S2048x256) (e : B.shape.Idx → S2048x196.Idx) (he : ∀ j, B.idx j = R196.emb (e j)) :
    v.readCov [(⟨R196, p⟩ : View.Piece (Elt F) S2048x256 .f32)] B = fun j => p (e j) := by
  rw [View.readCov_eq_canon v _ B (fun j => ⟨_, List.mem_singleton_self _, by
    rw [he j, ← Rect.map_emb_univ]; exact Finset.mem_map_of_mem _ (Finset.mem_univ _)⟩)]
  funext j; rw [he j]; exact View.canon_cons_emb R196 p [] (e j)

theorem readCov_rQ [∀ e, Nonempty (Elt F e)] {κ : Kind} {sp : Space} (v : View sig κ sp S2048x256 .f32) (p : Vec F S2048x196 .f32) :
    v.readCov [(⟨R196, p⟩ : View.Piece (Elt F) S2048x256 .f32)] rQ.toLoadRect = subQ p := by
  rw [readCov_sub v p rQ.toLoadRect (fun y => ValueIdx.ix2 (⟨(y 0).val, (y 0).isLt⟩ : Fin 2048)
      (⟨(y 1).val, by have h : (y 1).val < 16 := (y 1).isLt; omega⟩ : Fin 196)) (fun y => funext fun a => Fin.ext (by
    match a with
    | ⟨0, _⟩ => rfl
    | ⟨1, _⟩ => rfl))]
  rfl

theorem readCov_rK [∀ e, Nonempty (Elt F e)] {κ : Kind} {sp : Space} (v : View sig κ sp S2048x256 .f32) (p : Vec F S2048x196 .f32) (i : grid0.Coords) :
    v.readCov [(⟨R196, p⟩ : View.Piece (Elt F) S2048x256 .f32)] (rK i).toLoadRect = subK (i 1).val p := by
  rw [readCov_sub v p (rK i).toLoadRect (fun y => ValueIdx.ix2 (⟨(512 * (i 1).val + (y 0).val) % 2048, Nat.mod_lt _ (by norm_num)⟩ : Fin 2048)
      (⟨16 + (y 1).val, by have h : (y 1).val < 16 := (y 1).isLt; omega⟩ : Fin 196)) (fun y => funext fun a => Fin.ext (by
    have hi : (i 1).val < 4 := (i 1).isLt
    have hy0 : (y 0).val < 512 := (y 0).isLt
    match a with
    | ⟨0, _⟩ =>
      show (k0_off1 i) 0 + 1 * (y 0).val = 0 + 1 * ((512 * (i 1).val + (y 0).val) % 2048)
      rw [k0_off1_eq i]
      show 512 * (i 1).val + 1 * (y 0).val = _
      omega
    | ⟨1, _⟩ =>
      show (k0_off1 i) 1 + 1 * (y 1).val = 0 + 1 * (16 + (y 1).val)
      rw [k0_off1_eq i]
      show 16 + 1 * (y 1).val = _
      omega))]
  rfl

theorem readCov_rV [∀ e, Nonempty (Elt F e)] {κ : Kind} {sp : Space} (v : View sig κ sp S2048x256 .f32) (p : Vec F S2048x196 .f32) (i : grid0.Coords) :
    v.readCov [(⟨R196, p⟩ : View.Piece (Elt F) S2048x256 .f32)] (rV i).toLoadRect = subV (i 1).val p := by
  rw [readCov_sub v p (rV i).toLoadRect (fun y => ValueIdx.ix2 (⟨(512 * (i 1).val + (y 0).val) % 2048, Nat.mod_lt _ (by norm_num)⟩ : Fin 2048)
      (⟨32 + (y 1).val, by have h : (y 1).val < 164 := (y 1).isLt; omega⟩ : Fin 196)) (fun y => funext fun a => Fin.ext (by
    have hi : (i 1).val < 4 := (i 1).isLt
    have hy0 : (y 0).val < 512 := (y 0).isLt
    match a with
    | ⟨0, _⟩ =>
      show (k0_off2 i) 0 + 1 * (y 0).val = 0 + 1 * ((512 * (i 1).val + (y 0).val) % 2048)
      rw [k0_off2_eq i]
      show 512 * (i 1).val + 1 * (y 0).val = _
      omega
    | ⟨1, _⟩ =>
      show (k0_off2 i) 1 + 1 * (y 1).val = 0 + 1 * (32 + (y 1).val)
      rw [k0_off2_eq i]
      show 32 + 1 * (y 1).val = _
      omega))]
  rfl

/-- The contents of a buffer after that one store, read through the first 196 columns, are `p`, whatever it held before. -/
theorem ld_writes_R196 {κ : Kind} {sp : Space} (v : View sig κ sp S2048x256 .f32) (f : v.ty.Contents (Elt F)) (p : Vec F S2048x196 .f32) :
    View.ld (v.read (Elt F) (v.writes (Elt F) f [(⟨R196, p⟩ : View.Piece (Elt F) S2048x256 .f32)])) R196 = p := by
  funext y
  show v.read (Elt F) (v.writes (Elt F) f [⟨R196, p⟩]) (R196.emb y) = p y
  exact View.read_writes_cons_emb v f R196 p [] y

end Cert.Kernel.Hand
end
-- ==== Proof.KAttnData.lean ====
/-
  The attention region's contents point by point, as pure functions of the blocks its windows read: for position `n`
  of the 8 × 4 grid (batch `n / 4`, tile `n % 4`), the projected channels of the batch — computed from the blocks at
  the batch's first point — and the running maximum, denominator and numerator after tile `n % 4`.
-/
import proofs.«105017_j18133351924335_2_alg».proof.Proof.KAttnRuns
import proofs.«105017_j18133351924335_2_alg».proof.Proof.KAttnState

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle through which the body reads the first 164 channels of the hidden-state block. -/
abbrev rIn : Rect S1x2048x256 := Rect.unit (s := S1x2048x256) ![0, 0, 0] S1x2048x164.size inb_S1x2048x256_S1x2048x164_0_0_0

section Attn
variable (V : (c : Dev nD) → (b : Ref sig .tc) → Buf (Elt F) ((c : Thread nD τ).loc b))

/-- The first point of the batch that position `n` belongs to. -/
def t0 (n : ℕ) (hn : n < cfg0.N) : Fin cfg0.N := ⟨4 * (n / 4), by have : cfg0.N = 32 := N_0; omega⟩

/-- The projected channels from the blocks at point `t`. -/
def projAt (c : Dev nD) (t : Fin cfg0.N) : Vec F S2048x196 .f32 :=
  k0_pay4 (View.ld (iblk0 V c 0 t) rIn) (iblk0 V c 1 t) (iblk0 V c 2 t) (iblk0 V c 3 t) (iblk0 V c 4 t)

/-- The projected channels of the batch of position `n`. -/
def projN (c : Dev nD) (n : ℕ) (hn : n < cfg0.N) : Vec F S2048x196 .f32 := projAt V c (t0 n hn)

/-- The running maximum, denominator and numerator after the body at position `n`. -/
def stN (c : Dev nD) (n : ℕ) (hn : n < cfg0.N) : St F := stAfter (projN V c n hn) (n % 4)

end Attn

end Cert.Kernel.Hand

end
-- ==== Proof.KAttnPiecesA.lean ====
/-
  What the run at a batch's first tile leaves: the three running buffers hold one tile's update of the reset state,
  computed from the three pieces of the projected channels that the same run has just stored into the first 196 columns
  of the fourth scratch; those columns hold the projected channels, whatever the buffer held before.
-/
import proofs.«105017_j18133351924335_2_alg».proof.Proof.KAttnRunA
import proofs.«105017_j18133351924335_2_alg».proof.Proof.KAttnCov
import proofs.«105017_j18133351924335_2_alg».proof.Proof.KAttnData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → ℕ) = fun _ => 0 := by funext a; match a with | ⟨0, _⟩ => rfl

theorem coverA_0 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x1.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL _ S2048x1.size (by sl_kernel_rfl) y
theorem coverA_1 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x1.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL _ S2048x1.size (by sl_kernel_rfl) y
theorem coverA_2 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x164.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL _ S2048x164.size (by sl_kernel_rfl) y

theorem pieceA_0 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).1 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
theorem pieceA_1 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).2.1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).2.1 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
theorem pieceA_2 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).2.2.1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).2.2 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
/-- After the reset the fourth scratch holds the projected channels in its first 196 columns, whatever it held before. -/
theorem pieceA_3 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (f : Buf (Elt F) (arg11.view.loc (c : Thread nD τ))) :
    View.ld (arg11.view.read (Elt F) (arg11.view.writes (Elt F) f (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.1)) R196 = (k0_pay4 (View.ld x0 rIn) x1 x2 x3 x4) := by
  unfold kernelRun0_A; dsimp only
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  exact ld_writes_R196 _ _ _

end Cert.Kernel.Hand

end
-- ==== Proof.KAttnFrame.lean ====
/-
  The first pallas_call's proof data and body obligation.  Point `t` of the 8 × 4 grid is batch `t / 4`, tile `t % 4`.
  Between points three scratch buffers hold the running maximum, denominator and numerator after the tiles of the batch
  so far (`stN`), and the fourth holds — in the first 196 of its 256 columns — the batch's projected channels
  (`projN`); the output window's buffer is written at a batch's last tile only, with the numerator over the denominator.
  At a batch's first tile the body resets the three running buffers and recomputes the projected channels, so what the
  buffers held before does not matter there.
-/
import proofs.«105017_j18133351924335_2_alg».proof.Proof.KAttnPiecesA
import proofs.«105017_j18133351924335_2_alg».proof.Proof.KAttnPiecesBC
import proofs.«105017_j18133351924335_2_alg».proof.Proof.KAttnData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-! ## The tile of a point, and the batch's first point -/

theorem coords1 : ∀ t : Fin cfg0.N, ((grid0.coords t) 1).val = t.val % 4 :=
  (by decide +kernel : ∀ t : Fin grid0.N, ((grid0.coords t) 1).val = t.val % 4)

theorem t0_first (t : Fin cfg0.N) (h0 : t.val % 4 = 0) : t0 t.val t.isLt = t := Fin.ext (by show 4 * (t.val / 4) = t.val; omega)
theorem t0_pred (n : ℕ) (hn : n < cfg0.N) (h0 : ¬n % 4 = 0) : t0 (n - 1) (by omega) = t0 n hn :=
  Fin.ext (by show 4 * ((n - 1) / 4) = 4 * (n / 4); omega)

theorem projN_first (c : Dev nD) (t : Fin cfg0.N) (h0 : t.val % 4 = 0) : projN V c t.val t.isLt = projAt V c t := by
  unfold projN; rw [t0_first t h0]
theorem projN_pred (c : Dev nD) (n : ℕ) (hn : n < cfg0.N) (h0 : ¬n % 4 = 0) : projN V c (n - 1) (by omega) = projN V c n hn := by
  unfold projN; rw [t0_pred n hn h0]

/-- At a batch's first tile the state is one tile's update of the reset state. -/
theorem stN_first (c : Dev nD) (t : Fin cfg0.N) (h0 : t.val % 4 = 0) :
    stN V c t.val t.isLt = tileStep (subQ (projAt V c t)) (subK ((grid0.coords t) 1).val (projAt V c t)) (subV ((grid0.coords t) 1).val (projAt V c t)) stReset := by
  unfold stN; rw [projN_first V c t h0, coords1 t, h0]; rfl

/-- At a later tile it is one tile's update of the state the tile before left. -/
theorem stN_next (c : Dev nD) (t : Fin cfg0.N) (h0 : ¬t.val % 4 = 0) :
    stN V c t.val t.isLt = tileStep (subQ (projN V c t.val t.isLt)) (subK ((grid0.coords t) 1).val (projN V c t.val t.isLt)) (subV ((grid0.coords t) 1).val (projN V c t.val t.isLt))
      (stN V c (t.val - 1) (Nat.lt_of_le_of_lt (Nat.sub_le _ _) t.isLt)) := by
  unfold stN
  rw [projN_pred V c t.val t.isLt h0, coords1 t]
  obtain ⟨j, hj⟩ : ∃ j, t.val % 4 = j + 1 := ⟨t.val % 4 - 1, by omega⟩
  have hj' : (t.val - 1) % 4 = j := by omega
  rw [hj, hj']; rfl

/-! ## The invariant -/

/-- Before position `n`: at the region's entry the class's invariant (every scratch at anything); afterwards the three
    running buffers at the state the point before left, the fourth scratch at some contents whose first 196 columns are
    the batch's projected channels, the other scoped buffers and the generator register as they come. -/
def PhiS (c : Dev nD) : (n : ℕ) → n ≤ cfg0.N → sProp 𝕄
  | 0, _ => Pipeline.ΦA spec0 c
  | n + 1, hn => iprop(iprop(owns (c : Thread nD τ) scM0_0 fullShare (stN V c n hn).1 ∗ owns (c : Thread nD τ) scM0_1 fullShare (stN V c n hn).2.1 ∗ owns (c : Thread nD τ) scM0_2 fullShare (stN V c n hn).2.2
      ∗ (∃ d3, owns (c : Thread nD τ) scM0_3 fullShare d3 ∗ ⌜View.ld d3 R196 = projN V c n hn⌝) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (stN V c n hn).1 ∗ owns (c : Thread nD τ) scM0_1 fullShare (stN V c n hn).2.1 ∗ owns (c : Thread nD τ) scM0_2 fullShare (stN V c n hn).2.2
      ∗ (∃ d3, owns (c : Thread nD τ) scM0_3 fullShare d3 ∗ ⌜View.ld d3 R196 = projN V c n hn⌝) ∗ otherScoped c) ∗ (∃ r, prngReg c r)) := rfl
theorem PhiS_pos (c : Dev nD) (n : ℕ) (h : n ≤ cfg0.N) (hz : n ≠ 0) :
    PhiS V c n h = iprop(iprop(owns (c : Thread nD τ) scM0_0 fullShare (stN V c (n - 1) (by omega)).1 ∗ owns (c : Thread nD τ) scM0_1 fullShare (stN V c (n - 1) (by omega)).2.1 ∗ owns (c : Thread nD τ) scM0_2 fullShare (stN V c (n - 1) (by omega)).2.2
      ∗ (∃ d3, owns (c : Thread nD τ) scM0_3 fullShare d3 ∗ ⌜View.ld d3 R196 = projN V c (n - 1) (by omega)⌝) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outOf (stN V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outOf (stN V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · -- a batch's first tile
    have h1 : ¬t.val % 4 = 3 := by omega
    have hcA0 : cond0_0 (grid0.coords t) := (hcond0_0 t).mpr h0
    have hcA1 : ¬cond0_1 (grid0.coords t) := fun h => h1 ((hcond0_1 t).mp h)
    rw [Dat.leavesExact_idle (dat0 V c) 5 t (idleAt0_5 t hcA1) (noFlush0_5 t hcA1)]
    rw [stN_first V c t h0, projN_first V c t h0]
    by_cases hz : t.val = 0
    · rw [PhiS_castSucc V c t, PhiS_zero V c _ _ hz, PhiA0_eq]
      iintro ⟨⟨⟨HS0, HS1, HS2, HS3, Hoth⟩, Hg⟩, Ho, ⟨%d0, H0⟩, ⟨%d1, H1⟩, ⟨%d2, H2⟩, ⟨%d3', H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcA0 hcA1 (iblk0 V c 0 t) (iblk0 V c 1 t) (iblk0 V c 2 t) (iblk0 V c 3 t) (iblk0 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverA_0 c _ _ _ _ _ _ _ _ _ _ _ _ _ _ _ _ _ _ _ _ _ _ _ _ _ _ _ _)).trans ((pieceA_0 c _ _ _ _ _ _ _ _ _ _ _ _ _ _ _ _ _ _ _ _ _ _ _ _ _ _ _ _))
          isplitl [HS1]
          · unfold owns; iexists _; isplitr
            swap; · iexact HS1
            ipureintro; exact (View.read_writes_eq_canon _ _ _ (coverA_1 c _ _ _ _ _ _ _ _ _ _ _ _ _ _ _ _ _ _ _ _ _ _ _ _ _ _ _ _)).trans ((pieceA_1 c _ _ _ _ _ _ _ _ _ _ _ _ _ _ _ _ _ _ _ _ _ _ _ _ _ _ _ _))
          isplitl [HS2]
          · unfold owns; iexists _; isplitr
            swap; · iexact HS2
            ipureintro; exact (View.read_writes_eq_canon _ _ _ (coverA_2 c _ _ _ _ _ _ _ _ _ _ _ _ _ _ _ _ _ _ _ _ _ _ _ _ _ _ _ _)).trans ((pieceA_2 c _ _ _ _ _ _ _ _ _ _ _ _ _ _ _ _ _ _ _ _ _ _ _ _ _ _ _ _))
          isplitl [HS3]
          · iexists _; isplitl [HS3]
            · unfold owns; iexists _; isplitr
              swap; · iexact HS3
              ipureintro; rfl
            ipureintro; exact pieceA_3 c _ _ _ _ _ _ _ _ _ _ _ _ _ _ _ _ _ _ _ _ _ _ _ _ _ _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2, ⟨%d3, HS3, -⟩, Hoth⟩, Hg⟩, Ho, ⟨%d0, H0⟩, ⟨%d1, H1⟩, ⟨%d2, H2⟩, ⟨%d3', H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcA0 hcA1 (iblk0 V c 0 t) (iblk0 V c 1 t) (iblk0 V c 2 t) (iblk0 V c 3 t) (iblk0 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%e0, HS0⟩, ⟨%e1, HS1⟩, ⟨%e2, HS2⟩, ⟨%e3, HS3⟩⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverA_0 c _ _ _ _ _ _ _ _ _ _ _ _ _ _ _ _ _ _ _ _ _ _ _ _ _ _ _ _)).trans ((pieceA_0 c _ _ _ _ _ _ _ _ _ _ _ _ _ _ _ _ _ _ _ _ _ _ _ _ _ _ _ _))
          isplitl [HS1]
          · unfold owns; iexists _; isplitr
            swap; · iexact HS1
            ipureintro; exact (View.read_writes_eq_canon _ _ _ (coverA_1 c _ _ _ _ _ _ _ _ _ _ _ _ _ _ _ _ _ _ _ _ _ _ _ _ _ _ _ _)).trans ((pieceA_1 c _ _ _ _ _ _ _ _ _ _ _ _ _ _ _ _ _ _ _ _ _ _ _ _ _ _ _ _))
          isplitl [HS2]
          · unfold owns; iexists _; isplitr
            swap; · iexact HS2
            ipureintro; exact (View.read_writes_eq_canon _ _ _ (coverA_2 c _ _ _ _ _ _ _ _ _ _ _ _ _ _ _ _ _ _ _ _ _ _ _ _ _ _ _ _)).trans ((pieceA_2 c _ _ _ _ _ _ _ _ _ _ _ _ _ _ _ _ _ _ _ _ _ _ _ _ _ _ _ _))
          isplitl [HS3]
          · iexists _; isplitl [HS3]
            · unfold owns; iexists _; isplitr
              swap; · iexact HS3
              ipureintro; rfl
            ipureintro; exact pieceA_3 c _ _ _ _ _ _ _ _ _ _ _ _ _ _ _ _ _ _ _ _ _ _ _ _ _ _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 4 = 3
    · -- a batch's last tile
      have hcC0 : ¬cond0_0 (grid0.coords t) := fun h => h0 ((hcond0_0 t).mp h)
      have hcC1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hcC1], after0_5]
      have hz : t.val ≠ 0 := by omega
      rw [PhiS_castSucc V c t, PhiS_pos V c _ _ hz]
      rw [stN_next V c t h0, ← projN_pred V c t.val t.isLt h0]
      iintro ⟨⟨⟨HS0, HS1, HS2, ⟨%d3, HS3, %hd3⟩, Hoth⟩, Hg⟩, Ho, ⟨%d0, H0⟩, ⟨%d1, H1⟩, ⟨%d2, H2⟩, ⟨%d3', H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcC0 hcC1 (iblk0 V c 0 t) (iblk0 V c 1 t) (iblk0 V c 2 t) (iblk0 V c 3 t) (iblk0 V c 4 t) (stN V c (t.val - 1) (Nat.lt_of_le_of_lt (Nat.sub_le _ _) t.isLt)).1 (stN V c (t.val - 1) (Nat.lt_of_le_of_lt (Nat.sub_le _ _) t.isLt)).2.1 (stN V c (t.val - 1) (Nat.lt_of_le_of_lt (Nat.sub_le _ _) t.isLt)).2.2 d3).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%e0, HS0⟩, ⟨%e1, HS1⟩, ⟨%e2, HS2⟩, HS3⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverC_0 c _ _ _ _ _ _ _ _ _ _ _ _ _ _ _ _ _ _ _ _ _ _ _ _ _ _ _ _ _ _ _ _)).trans ((pieceC_0 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS1]
          · unfold owns; iexists _; isplitr
            swap; · iexact HS1
            ipureintro; exact (View.read_writes_eq_canon _ _ _ (coverC_1 c _ _ _ _ _ _ _ _ _ _ _ _ _ _ _ _ _ _ _ _ _ _ _ _ _ _ _ _ _ _ _ _)).trans ((pieceC_1 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS2]
          · unfold owns; iexists _; isplitr
            swap; · iexact HS2
            ipureintro; exact (View.read_writes_eq_canon _ _ _ (coverC_2 c _ _ _ _ _ _ _ _ _ _ _ _ _ _ _ _ _ _ _ _ _ _ _ _ _ _ _ _ _ _ _ _)).trans ((pieceC_2 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS3]
          · iexists _; isplitl [HS3]; · iexact HS3
            ipureintro; exact hd3
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (View.read_writes_eq_canon _ _ _ (coverC_5 c _ _ _ _ _ _ _ _ _ _ _ _ _ _ _ _ _ _ _ _ _ _ _ _ _ _ _ _ _ _ _ _)).trans ((pieceC_5 c _ _ _ _ _ _ _ _ _ _ _ _ _ _ _ _ _ _ _ _ _ _ _ _ _ _ _ _ _ _ _ _).trans (by rw [ld_rQ _ _ hd3, ld_rK _ _ _ hd3, ld_rV _ _ _ hd3]))
    · -- a middle tile
      have hcB0 : ¬cond0_0 (grid0.coords t) := fun h => h0 ((hcond0_0 t).mp h)
      have hcB1 : ¬cond0_1 (grid0.coords t) := fun h => h1 ((hcond0_1 t).mp h)
      rw [Dat.leavesExact_idle (dat0 V c) 5 t (idleAt0_5 t hcB1) (noFlush0_5 t hcB1)]
      have hz : t.val ≠ 0 := by omega
      rw [PhiS_castSucc V c t, PhiS_pos V c _ _ hz]
      rw [stN_next V c t h0, ← projN_pred V c t.val t.isLt h0]
      iintro ⟨⟨⟨HS0, HS1, HS2, ⟨%d3, HS3, %hd3⟩, Hoth⟩, Hg⟩, Ho, ⟨%d0, H0⟩, ⟨%d1, H1⟩, ⟨%d2, H2⟩, ⟨%d3', H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcB0 hcB1 (iblk0 V c 0 t) (iblk0 V c 1 t) (iblk0 V c 2 t) (iblk0 V c 3 t) (iblk0 V c 4 t) (stN V c (t.val - 1) (Nat.lt_of_le_of_lt (Nat.sub_le _ _) t.isLt)).1 (stN V c (t.val - 1) (Nat.lt_of_le_of_lt (Nat.sub_le _ _) t.isLt)).2.1 (stN V c (t.val - 1) (Nat.lt_of_le_of_lt (Nat.sub_le _ _) t.isLt)).2.2 d3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, HS3⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverB_0 c _ _ _ _ _ _ _ _ _ _ _ _ _ _ _ _ _ _ _ _ _ _ _ _ _ _ _ _ _ _ _ _)).trans ((pieceB_0 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS1]
          · unfold owns; iexists _; isplitr
            swap; · iexact HS1
            ipureintro; exact (View.read_writes_eq_canon _ _ _ (coverB_1 c _ _ _ _ _ _ _ _ _ _ _ _ _ _ _ _ _ _ _ _ _ _ _ _ _ _ _ _ _ _ _ _)).trans ((pieceB_1 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS2]
          · unfold owns; iexists _; isplitr
            swap; · iexact HS2
            ipureintro; exact (View.read_writes_eq_canon _ _ _ (coverB_2 c _ _ _ _ _ _ _ _ _ _ _ _ _ _ _ _ _ _ _ _ _ _ _ _ _ _ _ _ _ _ _ _)).trans ((pieceB_2 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS3]
          · iexists _; isplitl [HS3]; · iexact HS3
            ipureintro; exact hd3
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, ⟨%d3, HS3, -⟩, Hoth⟩, Hg⟩
  isplitl [HS0 HS1 HS2 HS3 Hoth]
  · isplitl [HS0]; · iexists _; iexact HS0
    isplitl [HS1]; · iexists _; iexact HS1
    isplitl [HS2]; · iexists _; iexact HS2
    isplitl [HS3]; · iexists _; iexact HS3
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Attn

end Cert.Kernel.Hand

end
-- ==== Proof.KOutProjBody.lean ====
/-
  The out-projection call of the idealized kernel program (the second pallas_call): the body's
  separation-logic triple and the pipeline's proof data, at any float instance and at a parameter V,
  the buffer contents when the call is entered. The output block after the body is one whole-buffer
  store of the payload of the four input blocks: (attended ++ remaining channels) times the weight
  transposed, as two partial products, plus the bias.
-/
import proofs.«105017_j18133351924335_2_alg».proof.Proof.Gen.Kernel.Launch
import proofs.«105017_j18133351924335_2_alg».proof.Proof.Gen.Kernel.Skeleton
import proofs.«105017_j18133351924335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any
    proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one a whole buffer -/

abbrev r1_0 : Rect S1x1024x164 := Rect.unit (s := S1x1024x164) ![0, 0, 0] S1x1024x164.size inb_S1x1024x164_S1x1024x164_0_0_0
abbrev r1_1 : Rect S1x1024x768 := Rect.unit (s := S1x1024x768) ![0, 0, 0] S1x1024x768.size inb_S1x1024x768_S1x1024x768_0_0_0
abbrev r1_2 : Rect S768x768 := Rect.unit (s := S768x768) ![0, 0] S768x768.size inb_S768x768_S768x768_0_0
abbrev r1_3 : Rect S768 := Rect.unit (s := S768) ![0] S768.size inb_S768_S768_0

/-! ## What the body leaves in the output window's buffer -/

/-- The output window's staging buffer after the body, from the input windows' blocks: its one store. -/
def out1_4 (x0 : Vec F S1x1024x164 .f32) (x1 : Vec F S1x1024x768 .f32) (x2 : Vec F S768x768 .f32) (x3 : Vec F S768 .f32) : Vec F S1x1024x768 .f32 :=
  View.canon [⟨r1_1, k1_pay1 (View.ld x0 r1_0) (View.ld x1 r1_1) (View.ld x2 r1_2) (View.ld x3 r1_3)⟩]

/-- The store is the whole buffer, so it covers it. -/
theorem cover1_4 (p0 : Vec F S1x1024x768 .f32) (y : S1x1024x768.Idx) :
    ∃ pc ∈ ([⟨r1_1, p0⟩] : List (View.Piece (Elt F) S1x1024x768 .f32)), y ∈ pc.1.set :=
  View.cover_of_tiled [⟨r1_1, p0⟩] S1x1024x768.size (by rfl) y

/-! ## The body's triple -/

set_option maxHeartbeats 1000000 in
/-- The kernel body on whole staging memrefs, the inputs' at read contents and the output's at anything, runs to
    the continuation holding the inputs' as they were and the output's at out1_4 of the inputs'. The body loads
    the output buffer before its one store; the loaded value is not used. -/
theorem sound_kernel1 (c : Dev nD) (E : Set ℕ) (i : grid1.Coords)
    (arg2 : Memref sig .tc .vmem S1x1024x164 .f32) (harg2 : arg2.IsWhole) (arg3 : Memref sig .tc .vmem S1x1024x768 .f32) (harg3 : arg3.IsWhole)
    (arg4 : Memref sig .tc .vmem S768x768 .f32) (harg4 : arg4.IsWhole) (arg5 : Memref sig .tc .vmem S768 .f32) (harg5 : arg5.IsWhole)
    (arg6 : Memref sig .tc .vmem S1x1024x768 .f32) (harg6 : arg6.IsWhole)
    (x0 : Vec F S1x1024x164 .f32) (x1 : Vec F S1x1024x768 .f32) (x2 : Vec F S768x768 .f32) (x3 : Vec F S768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_proj_kernel i arg2 harg2 arg3 harg3 arg4 harg4 arg5 harg5 arg6 harg6) K := by
  simp only [cc1__out_proj_kernel_eq_skeleton]; unfold cc1__out_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the call's pipeline on core c: the arrays as the call finds them; after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.KRun.lean ====
/-
  The run of the idealized kernel program: its two pallas_calls in order, with no host operation between
  them. The buffer contents at the three boundaries (the launch memory; after the attention call, its arrays
  at what its write-backs leave; after the out-projection call likewise), each call as a segment over the
  thread state "every unscoped buffer at the boundary's contents, the generator register at some state,
  nothing owed", and the run: every weakly fair execution terminates, the result array ends at what the
  out-projection call's write-backs leave, and every argument ends as launched.
-/
import proofs.«105017_j18133351924335_2_alg».proof.Proof.KAttnFrame
import proofs.«105017_j18133351924335_2_alg».proof.Proof.KOutProjBody
import proofs.«105017_j18133351924335_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what the attention call's proof data take). -/
abbrev V0 : (c : Dev nD) → (b : Ref sig .tc) → Buf (Elt F) ((c : Thread nD τ).loc b) := fun c b => W0 m ρ c b
/-- The launch contents are the launch memory. -/
theorem V0_eq (c : Dev nD) (b : Ref sig .tc) : V0 m ρ c b = m ((c : Thread nD τ).loc b) := rfl

/-- After the attention call: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (what the out-projection call's proof data take). -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the out-projection call: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (the exit contents). -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the out-projection call finds -/

/-- The attended array is the attention call's output: its write-backs folded. -/
theorem V1_main_v0 (c : Dev nD) : V1 m ρ c main_v0 = (dat0 (V0 m ρ) c).arrAt 5 cfg0.N := W1_arr m ρ c 5
/-- The attention call reads the hidden states through an input window and leaves them as launched. -/
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_main_arg2 (c : Dev nD) : V1 m ρ c main_arg2 = m ((c : Thread nD τ).loc main_arg2) :=
  (W1_arr m ρ c 2).trans (((dat0 (V0 m ρ) c).arrAt_in 2 rfl _).trans (A_eq0 (V0 m ρ) c 2))
theorem V1_main_arg3 (c : Dev nD) : V1 m ρ c main_arg3 = m ((c : Thread nD τ).loc main_arg3) :=
  (W1_arr m ρ c 3).trans (((dat0 (V0 m ρ) c).arrAt_in 3 rfl _).trans (A_eq0 (V0 m ρ) c 3))
theorem V1_main_arg4 (c : Dev nD) : V1 m ρ c main_arg4 = m ((c : Thread nD τ).loc main_arg4) :=
  (W1_arr m ρ c 4).trans (((dat0 (V0 m ρ) c).arrAt_in 4 rfl _).trans (A_eq0 (V0 m ρ) c 4))
/-- The attention call has no window on the out-projection's weight and bias. -/
theorem V1_main_arg5 (c : Dev nD) : V1 m ρ c main_arg5 = m ((c : Thread nD τ).loc main_arg5) :=
  W1_of_ne m ρ c main_arg5 (by decide)
theorem V1_main_arg6 (c : Dev nD) : V1 m ρ c main_arg6 = m ((c : Thread nD τ).loc main_arg6) :=
  W1_of_ne m ρ c main_arg6 (by decide)

/-! ## The arguments end as launched -/

theorem W2_main_arg0 (c : Dev nD) : W2 m ρ c (Proc.devRef .tc main_arg0) = m ((c : Thread nD τ).loc main_arg0) :=
  (W2_arr m ρ c 1).trans ((((dat1 (V1 m ρ) c).arrAt_in 1 rfl _).trans (A_eq1 (V1 m ρ) c 1)).trans (V1_main_arg0 m ρ c))
theorem W2_main_arg1 (c : Dev nD) : W2 m ρ c (Proc.devRef .tc main_arg1) = m ((c : Thread nD τ).loc main_arg1) :=
  (W2_of_ne m ρ c main_arg1 (by decide)).trans (V1_main_arg1 m ρ c)
theorem W2_main_arg2 (c : Dev nD) : W2 m ρ c (Proc.devRef .tc main_arg2) = m ((c : Thread nD τ).loc main_arg2) :=
  (W2_of_ne m ρ c main_arg2 (by decide)).trans (V1_main_arg2 m ρ c)
theorem W2_main_arg3 (c : Dev nD) : W2 m ρ c (Proc.devRef .tc main_arg3) = m ((c : Thread nD τ).loc main_arg3) :=
  (W2_of_ne m ρ c main_arg3 (by decide)).trans (V1_main_arg3 m ρ c)
theorem W2_main_arg4 (c : Dev nD) : W2 m ρ c (Proc.devRef .tc main_arg4) = m ((c : Thread nD τ).loc main_arg4) :=
  (W2_of_ne m ρ c main_arg4 (by decide)).trans (V1_main_arg4 m ρ c)
theorem W2_main_arg5 (c : Dev nD) : W2 m ρ c (Proc.devRef .tc main_arg5) = m ((c : Thread nD τ).loc main_arg5) :=
  (W2_arr m ρ c 2).trans ((((dat1 (V1 m ρ) c).arrAt_in 2 rfl _).trans (A_eq1 (V1 m ρ) c 2)).trans (V1_main_arg5 m ρ c))
theorem W2_main_arg6 (c : Dev nD) : W2 m ρ c (Proc.devRef .tc main_arg6) = m ((c : Thread nD τ).loc main_arg6) :=
  (W2_arr m ρ c 3).trans ((((dat1 (V1 m ρ) c).arrAt_in 3 rfl _).trans (A_eq1 (V1 m ρ) c 3)).trans (V1_main_arg6 m ρ c))

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owes, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)

/-! ## The calls as segments -/

set_option backward.isDefEq.respectTransparency.types false in
/-- The attention call over the thread state: entered from every unscoped buffer at the launch contents, left at
    W1. Its arrays split out of the unscoped buffers and put back at the exit contents; the generator register
    and the scoped rest into its invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m ρ 0 c).Φ 0 from hin0 (V0 m ρ) c)
    show _ ⊢ Pipeline.ΦA spec0 c
    unfold Pipeline.ΦA
    iintro ⟨Hp, -, Hr⟩
    isplitl [Hr]; · iexact Hr
    iexact Hp
  hout c := by
    rw [Pipeline.ownSems0_none]
    refine BI.Entails.trans (show (pdats m ρ 0 c).Φ (Fin.last _) ⊢ Pipeline.ΦA spec0 c from hout0 (V0 m ρ) c) ?_
    show Pipeline.ΦA spec0 c ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The out-projection call over the thread state: entered from every unscoped buffer at W1, left at W2 (what
    the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per pallas_call. -/
abbrev segs : List (Pipeline.Seg (pcfgs (F := F)) adm (pdats m ρ) () defs₀ 𝒱₀ L lv) :=
  [ .region (reg0 m ρ), .region (reg1 m ρ) ]
/-- The program is the run of the segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN, at any float instance: from any memory with zero counters, every weakly fair execution of the program
    on the TensorCores terminates, nothing faulting, and every final state has the result array at what the
    out-projection call's write-backs leave and the argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 4),
        (h c _ (mem_uc main_arg0 (by decide))).trans (W2_main_arg0 m ρ c),
        (h c _ (mem_uc main_arg1 (by decide))).trans (W2_main_arg1 m ρ c),
        (h c _ (mem_uc main_arg2 (by decide))).trans (W2_main_arg2 m ρ c),
        (h c _ (mem_uc main_arg3 (by decide))).trans (W2_main_arg3 m ρ c),
        (h c _ (mem_uc main_arg4 (by decide))).trans (W2_main_arg4 m ρ c),
        (h c _ (mem_uc main_arg5 (by decide))).trans (W2_main_arg5 m ρ c),
        (h c _ (mem_uc main_arg6 (by decide))).trans (W2_main_arg6 m ρ c)⟩)

end Cert.Kernel.Hand

end
-- ==== Proof.AttnRuns.lean ====
/-
  The first pallas_call (layer normalisation, the projection to query, key and value channels, and attention with a
  running soft-max over four tiles of keys) at a parameter `V`, the buffers' contents when the region is entered:
  the windows' blocks, the two conditions of the body over the grid — "the first tile of a batch" and "the last
  tile of a batch" — in closed form, where the output window is idle, and the staging and scratch memrefs.
  The grid is 8 batches × 4 tiles: point `t` is batch `t / 4`, tile `t % 4`.
-/
import proofs.«105017_j18133351924335_2_alg».proof.Proof.Gen.KernelIdeal.Launch
import proofs.«105017_j18133351924335_2_alg».proof.Proof.Gen.KernelIdeal.Skeleton
import proofs.«105017_j18133351924335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Attn

/-! ## The body's two conditions -/

/-- "This is the first tile of its batch": the condition of the body's first `scf.if`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch": the condition of the body's second `scf.if`. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a batch's last tile it is live. -/
theorem liveAt0_5 : ∀ t : Fin cfg0.N, cond0_1 (grid0.coords t) → cfg0.idle 5 (grid0.coords t) = false := by decide +kernel

/-! ## The memrefs -/

abbrev VO0_5 : View sig .tc .vmem S1x2048x164 .f32 := (Memref.whole cc0_stg5_0 : Memref sig .tc .vmem S1x2048x164 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S164 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S164 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S196x164 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S196 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x164 .f32 := win0_5.stage (cfg0.slots t 5)
abbrev hs0_5 (t : Fin cfg0.N) : (ms0_5 t).IsWhole := hstage0_5 ((cfg0.slots t 5).cast nbuf0_5)
/-- The four scratch operands: the running maximum, the running denominator, the running numerator, and the projected channels. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x164 .f32 := Memref.whole cc0_scratch2
abbrev scM0_3 : Memref sig .tc .vmem S2048x256 .f32 := Memref.whole cc0_scratch3
abbrev VS0_0 : View sig .tc .vmem S2048x1 .f32 := scM0_0.view
abbrev VS0_1 : View sig .tc .vmem S2048x1 .f32 := scM0_1.view
abbrev VS0_2 : View sig .tc .vmem S2048x164 .f32 := scM0_2.view
abbrev VS0_3 : View sig .tc .vmem S2048x256 .f32 := scM0_3.view

/-- The scoped buffers of the core that belong to the other pallas_call: each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped c) ∗ (∃ r, prngReg c r)) := by
  unfold Pipeline.ΦA otherScoped; rw [scopedRest0_eq]; simp only [scM0_0, scM0_1, scM0_2, scM0_3, owns_whole]; try rfl

end Cert.KernelIdeal.Hand

end
-- ==== Proof.AttnRunA.lean ====
/-
  The body at the first tile of a batch (the reset is taken, the write of the output is not): on whole memrefs, the
  five inputs at their contents, the output's buffer untouched, the four scratch buffers at anything, it runs to the end
  leaving the inputs as they were and each scratch with the pieces its stores wrote.
-/
import proofs.«105017_j18133351924335_2_alg».proof.Proof.AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a batch's first tile the tile number is zero. -/
theorem first_tile : ∀ i : grid0.Coords, cond0_0 i → (i 1).val = 0 := by decide +kernel

/-- At a batch's first tile the tile of keys starts at row 0: the two windows' offsets as numerals. -/
instance (priority := high) closedOffA_k0_off1 (i : grid0.Coords) [h : Fact (cond0_0 i)] : ClosedOff (k0_off1 i) :=
  ⟨![0, 16], by rw [k0_off1_eq, first_tile i h.out]⟩
instance (priority := high) closedOffA_k0_off2 (i : grid0.Coords) [h : Fact (cond0_0 i)] : ClosedOff (k0_off2 i) :=
  ⟨![0, 32], by rw [k0_off2_eq, first_tile i h.out]⟩

set_option maxHeartbeats 4000000 in
/-- The run at a batch's first tile; the pieces each scratch ends with are found by the run. -/
noncomputable def kernelRun0_A (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    Σ' (LS0 : List (View.Piece (Elt F) S2048x1 .f32)) (LS1 : List (View.Piece (Elt F) S2048x1 .f32)) (LS2 : List (View.Piece (Elt F) S2048x164 .f32)), { LS3 : List (View.Piece (Elt F) S2048x256 .f32) //
      ∀ (xi5 : Vec F S1x2048x164 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  haveI : Fact (cond0_0 i) := ⟨hc0⟩
  refine ⟨?_, ?_, ?_, ?_, fun xi5 E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.AttnRunB.lean ====
/-
  The body at a middle tile of a batch (neither the reset nor the write of the output is taken): the running
  maximum, denominator and numerator are read at what the tile before left and stored anew; the projected channels
  are read and left as they are; the output's buffer is untouched.
-/
import proofs.«105017_j18133351924335_2_alg».proof.Proof.AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a middle tile. -/
noncomputable def kernelRun0_B (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : ¬cond0_0 i) (hc1 : ¬cond0_1 i)
    (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32) :
    Σ' (LS0 : List (View.Piece (Elt F) S2048x1 .f32)) (LS1 : List (View.Piece (Elt F) S2048x1 .f32)), { LS2 : List (View.Piece (Elt F) S2048x164 .f32) //
      ∀ (xi5 : Vec F S1x2048x164 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.AttnRunC.lean ====
/-
  The body at the last tile of a batch (the reset is not taken, the write of the output is): as at a middle tile, and
  then the numerator divided by the denominator is stored into the output's buffer.
-/
import proofs.«105017_j18133351924335_2_alg».proof.Proof.AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a batch's last tile. -/
noncomputable def kernelRun0_C (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : ¬cond0_0 i) (hc1 : cond0_1 i)
    (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32) :
    Σ' (L5 : List (View.Piece (Elt F) S1x2048x164 .f32)) (LS0 : List (View.Piece (Elt F) S2048x1 .f32)) (LS1 : List (View.Piece (Elt F) S2048x1 .f32)), { LS2 : List (View.Piece (Elt F) S2048x164 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__fused_attn_kernel_eq_skeleton]; unfold cc0__fused_attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.AttnState.lean ====
/-
  What the attention body computes, as pure functions of the blocks it loads (at any float instance): the projected
  channels of a batch, the three pieces of them a tile reads (all queries; the tile's 512 keys; the tile's 512 values),
  one tile's update of the running maximum, denominator and numerator, the state after each tile of a batch, and the
  quotient written at the batch's last tile.
-/
import proofs.«105017_j18133351924335_2_alg».proof.Proof.Gen.KernelIdeal.Skeleton
import Idealize.ShloMosaic.Lib.ValueIdx

noncomputable section

namespace Cert.KernelIdeal.Hand

open Cert.KernelIdeal Cert.KernelIdeal.Gen
open Idealize.ShloMosaic

variable {F : FTy → Type} [FloatOps F]

/-- The query channels (the first 16 of the 196 projected channels) of every row. -/
def subQ (p : Vec F S2048x196 .f32) : Vec F S2048x16 .f32 := fun y =>
  p (ValueIdx.ix2 (⟨(y 0).val, (y 0).isLt⟩ : Fin 2048)
      (⟨(y 1).val, by have h : (y 1).val < 16 := (y 1).isLt; omega⟩ : Fin 196))

/-- The key channels (16 to 31) of the 512 rows of tile `j`. -/
def subK (j : ℕ) (p : Vec F S2048x196 .f32) : Vec F S512x16 .f32 := fun y =>
  p (ValueIdx.ix2 (⟨(512 * j + (y 0).val) % 2048, Nat.mod_lt _ (by norm_num)⟩ : Fin 2048)
      (⟨16 + (y 1).val, by have h : (y 1).val < 16 := (y 1).isLt; omega⟩ : Fin 196))

/-- The value channels (32 to 195) of the 512 rows of tile `j`. -/
def subV (j : ℕ) (p : Vec F S2048x196 .f32) : Vec F S512x164 .f32 := fun y =>
  p (ValueIdx.ix2 (⟨(512 * j + (y 0).val) % 2048, Nat.mod_lt _ (by norm_num)⟩ : Fin 2048)
      (⟨32 + (y 1).val, by have h : (y 1).val < 164 := (y 1).isLt; omega⟩ : Fin 196))

/-- The running maximum, the running denominator and the running numerator. -/
abbrev St (F : FTy → Type) : Type := Vec F S2048x1 .f32 × Vec F S2048x1 .f32 × Vec F S2048x164 .f32

/-- What the reset leaves: the finite stand-in for minus infinity, zero, zero. -/
def stReset : St F := (k0_pay6 (k0_pay5 (F := F)), k0_pay7 (F := F), k0_pay8 (F := F))

/-- One tile: from the queries `q`, the tile's keys `k` and values `v`, and the state before it. -/
def tileStep (q : Vec F S2048x16 .f32) (k : Vec F S512x16 .f32) (v : Vec F S512x164 .f32) (s : St F) : St F :=
  (k0_pay2 (k0_pay11 q k s.1),
   k0_pay14 q k s.1 s.1 s.2.1,
   k0_pay1 (k0_pay9 v) (k0_pay12 q k s.1 s.1) (k0_pay15 q k s.1) s.2.2)

/-- The state after tile `j` of a batch whose projected channels are `p`. -/
def stAfter (p : Vec F S2048x196 .f32) : ℕ → St F
  | 0 => tileStep (subQ p) (subK 0 p) (subV 0 p) stReset
  | j + 1 => tileStep (subQ p) (subK (j + 1) p) (subV (j + 1) p) (stAfter p j)

/-- What the last tile writes: the numerator over the denominator. -/
def outOf (s : St F) : Vec F S1x2048x164 .f32 := k0_pay3 s.2.2 s.2.1

end Cert.KernelIdeal.Hand

end
-- ==== Proof.AttnPiecesBC.lean ====
/-
  What the runs at a middle tile and at a last tile leave in each buffer they store into, as the pure functions of one
  tile's update: the contents are those of `tileStep` applied to the three pieces of the projected channels the tile
  reads and to the state the tile before left; at a last tile the output's buffer holds the quotient.
-/
import proofs.«105017_j18133351924335_2_alg».proof.Proof.AttnRunB
import proofs.«105017_j18133351924335_2_alg».proof.Proof.AttnRunC
import proofs.«105017_j18133351924335_2_alg».proof.Proof.AttnState
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles a tile reads the projected channels through: all rows of the query columns, the tile's rows of the
    key columns, the tile's rows of the value columns. -/
abbrev rQ : Rect S2048x256 := Rect.unit (s := S2048x256) ![0, 0] S2048x16.size inb_S2048x256_S2048x16_0_0
abbrev rK (i : grid0.Coords) : Rect S2048x256 := Rect.unit (s := S2048x256) (k0_off1 i) S512x16.size (k0_off1_inb i)
abbrev rV (i : grid0.Coords) : Rect S2048x256 := Rect.unit (s := S2048x256) (k0_off2 i) S512x164.size (k0_off2_inb i)

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section Pieces
variable (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (x0 : Vec F S1x2048x256 .f32) (x1 : Vec F S164 .f32) (x2 : Vec F S164 .f32) (x3 : Vec F S196x164 .f32) (x4 : Vec F S196 .f32) (xs0 : Vec F S2048x1 .f32) (xs1 : Vec F S2048x1 .f32) (xs2 : Vec F S2048x164 .f32) (xs3 : Vec F S2048x256 .f32)

/-! ### A middle tile -/

theorem coverB_0 (hc0 : ¬cond0_0 i) (hc1 : ¬cond0_1 i) (y : S2048x1.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL _ S2048x1.size (by sl_kernel_rfl) y
theorem coverB_1 (hc0 : ¬cond0_0 i) (hc1 : ¬cond0_1 i) (y : S2048x1.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL _ S2048x1.size (by sl_kernel_rfl) y
theorem coverB_2 (hc0 : ¬cond0_0 i) (hc1 : ¬cond0_1 i) (y : S2048x164.Idx) : ∃ pc ∈ (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL _ S2048x164.size (by sl_kernel_rfl) y

theorem pieceB_0 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1 = (tileStep (View.ld xs3 rQ) (View.ld xs3 (rK i)) (View.ld xs3 (rV i)) (xs0, xs1, xs2)).1 := by
  unfold kernelRun0_B; dsimp only
  rw [View.canon_unit_zero hz2]
  unfold kernelRun0_B.sl.r_1
  simp only [View.readAt_eq_ld, harg11.read_unread, harg8.read_unread, harg9.read_unread, harg10.read_unread, View.ld_unit_zero (S := S2048x1) hz2, View.ld_unit_zero (S := S2048x164) hz2]
  rfl

theorem pieceB_1 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 = (tileStep (View.ld xs3 rQ) (View.ld xs3 (rK i)) (View.ld xs3 (rV i)) (xs0, xs1, xs2)).2.1 := by
  unfold kernelRun0_B; dsimp only
  rw [View.canon_unit_zero hz2]
  simp only [View.readAt_eq_ld, harg11.read_unread, harg8.read_unread, harg9.read_unread, harg10.read_unread, View.ld_unit_zero (S := S2048x1) hz2, View.ld_unit_zero (S := S2048x164) hz2]
  rfl

theorem pieceB_2 (hc0 : ¬cond0_0 i) (hc1 : ¬cond0_1 i) :
    View.canon (kernelRun0_B (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 = (tileStep (View.ld xs3 rQ) (View.ld xs3 (rK i)) (View.ld xs3 (rV i)) (xs0, xs1, xs2)).2.2 := by
  unfold kernelRun0_B; dsimp only
  rw [View.canon_unit_zero hz2]
  unfold kernelRun0_B.sl.r kernelRun0_B.sl.r_2 kernelRun0_B.sl.r_3
  simp only [View.readAt_eq_ld, harg11.read_unread, harg8.read_unread, harg9.read_unread, harg10.read_unread, View.ld_unit_zero (S := S2048x1) hz2, View.ld_unit_zero (S := S2048x164) hz2]
  rfl

/-! ### A last tile -/

theorem coverC_5 (hc0 : ¬cond0_0 i) (hc1 : cond0_1 i) (y : S1x2048x164.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL _ S1x2048x164.size (by sl_kernel_rfl) y
theorem coverC_0 (hc0 : ¬cond0_0 i) (hc1 : cond0_1 i) (y : S2048x1.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL _ S2048x1.size (by sl_kernel_rfl) y
theorem coverC_1 (hc0 : ¬cond0_0 i) (hc1 : cond0_1 i) (y : S2048x1.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL _ S2048x1.size (by sl_kernel_rfl) y
theorem coverC_2 (hc0 : ¬cond0_0 i) (hc1 : cond0_1 i) (y : S2048x164.Idx) : ∃ pc ∈ (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL _ S2048x164.size (by sl_kernel_rfl) y

theorem pieceC_0 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 = (tileStep (View.ld xs3 rQ) (View.ld xs3 (rK i)) (View.ld xs3 (rV i)) (xs0, xs1, xs2)).1 := by
  unfold kernelRun0_C; dsimp only
  rw [View.canon_unit_zero hz2]
  unfold kernelRun0_C.sl.r_1
  simp only [View.readAt_eq_ld, harg11.read_unread, harg8.read_unread, harg9.read_unread, harg10.read_unread, View.ld_unit_zero (S := S2048x1) hz2, View.ld_unit_zero (S := S2048x164) hz2]
  rfl

theorem pieceC_1 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 = (tileStep (View.ld xs3 rQ) (View.ld xs3 (rK i)) (View.ld xs3 (rV i)) (xs0, xs1, xs2)).2.1 := by
  unfold kernelRun0_C; dsimp only
  unfold kernelRun0_C.sl.HS1_1
  rw [View.canon_unit_zero hz2]
  simp only [View.readAt_eq_ld, harg11.read_unread, harg8.read_unread, harg9.read_unread, harg10.read_unread, View.ld_unit_zero (S := S2048x1) hz2, View.ld_unit_zero (S := S2048x164) hz2]
  rfl

theorem pieceC_2 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 = (tileStep (View.ld xs3 rQ) (View.ld xs3 (rK i)) (View.ld xs3 (rV i)) (xs0, xs1, xs2)).2.2 := by
  unfold kernelRun0_C; dsimp only
  unfold kernelRun0_C.sl.HS2_1
  rw [View.canon_unit_zero hz2]
  unfold kernelRun0_C.sl.r kernelRun0_C.sl.r_2 kernelRun0_C.sl.r_3
  simp only [View.readAt_eq_ld, harg11.read_unread, harg8.read_unread, harg9.read_unread, harg10.read_unread, View.ld_unit_zero (S := S2048x1) hz2, View.ld_unit_zero (S := S2048x164) hz2]
  rfl

theorem pieceC_5 (hc0 : ¬cond0_0 i) (hc1 : cond0_1 i) :
    View.canon (kernelRun0_C (F := F) c i arg2 harg2 arg3 harg3 arg4 harg4 arg5 harg5 arg6 harg6 arg7 harg7 arg8 harg8 arg9 harg9 arg10 harg10 arg11 harg11 hc0 hc1 x0 x1 x2 x3 x4 xs0 xs1 xs2 xs3).1 = outOf (tileStep (View.ld xs3 rQ) (View.ld xs3 (rK i)) (View.ld xs3 (rV i)) (xs0, xs1, xs2)) := by
  unfold kernelRun0_C; dsimp only
  rw [View.canon_unit_zero hz3]
  unfold kernelRun0_C.sl.v50 kernelRun0_C.sl.v51
  unfold kernelRun0_C.sl.HS2_1 kernelRun0_C.sl.HS1_1
  rw [View.readCov_unit_zero _ hz2, View.readCov_unit_zero _ hz2]
  unfold kernelRun0_C.sl.r kernelRun0_C.sl.r_2 kernelRun0_C.sl.r_3
  simp only [View.readAt_eq_ld, harg11.read_unread, harg8.read_unread, harg9.read_unread, harg10.read_unread, View.ld_unit_zero (S := S2048x1) hz2, View.ld_unit_zero (S := S2048x164) hz2]
  rfl

end Pieces

end Cert.KernelIdeal.Hand

end
-- ==== Proof.AttnLd.lean ====
/-
  A buffer of 256 columns whose first 196 columns hold the projected channels `p` reads, through the three rectangles a
  tile loads, the three pieces of `p`: all rows of the query columns, the tile's 512 rows of the key columns, the tile's
  512 rows of the value columns.
-/
import proofs.«105017_j18133351924335_2_alg».proof.Proof.AttnPiecesBC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first 196 columns of the 256-column scratch. -/
abbrev R196 : Rect S2048x256 := Rect.unit (s := S2048x256) ![0, 0] S2048x196.size inb_S2048x256_S2048x196_0_0

/-- A buffer whose first 196 columns hold `p` reads, through the three rectangles of a tile, the three pieces of `p`. -/
theorem ld_rQ (d3 : Vec F S2048x256 .f32) (p : Vec F S2048x196 .f32) (h : View.ld d3 R196 = p) : View.ld d3 rQ = subQ p := by
  subst h; funext y; unfold subQ
  show d3 (rQ.idx y) = d3 (R196.idx _)
  refine congrArg d3 (funext fun a => Fin.ext ?_)
  match a with
  | ⟨0, _⟩ => rfl
  | ⟨1, _⟩ => rfl

theorem ld_rK (i : grid0.Coords) (d3 : Vec F S2048x256 .f32) (p : Vec F S2048x196 .f32) (h : View.ld d3 R196 = p) :
    View.ld d3 (rK i) = subK (i 1).val p := by
  subst h; funext y; unfold subK
  show d3 ((rK i).idx y) = d3 (R196.idx _)
  refine congrArg d3 (funext fun a => Fin.ext ?_)
  have hi : (i 1).val < 4 := (i 1).isLt
  have hy0 : (y 0).val < 512 := (y 0).isLt
  match a with
  | ⟨0, _⟩ =>
    show (k0_off1 i) 0 + 1 * (y 0).val = 0 + 1 * ((512 * (i 1).val + (y 0).val) % 2048)
    rw [k0_off1_eq i]
    show 512 * (i 1).val + 1 * (y 0).val = _
    omega
  | ⟨1, _⟩ =>
    show (k0_off1 i) 1 + 1 * (y 1).val = 0 + 1 * (16 + (y 1).val)
    rw [k0_off1_eq i]
    show 16 + 1 * (y 1).val = _
    omega

theorem ld_rV (i : grid0.Coords) (d3 : Vec F S2048x256 .f32) (p : Vec F S2048x196 .f32) (h : View.ld d3 R196 = p) :
    View.ld d3 (rV i) = subV (i 1).val p := by
  subst h; funext y; unfold subV
  show d3 ((rV i).idx y) = d3 (R196.idx _)
  refine congrArg d3 (funext fun a => Fin.ext ?_)
  have hi : (i 1).val < 4 := (i 1).isLt
  have hy0 : (y 0).val < 512 := (y 0).isLt
  match a with
  | ⟨0, _⟩ =>
    show (k0_off2 i) 0 + 1 * (y 0).val = 0 + 1 * ((512 * (i 1).val + (y 0).val) % 2048)
    rw [k0_off2_eq i]
    show 512 * (i 1).val + 1 * (y 0).val = _
    omega
  | ⟨1, _⟩ =>
    show (k0_off2 i) 1 + 1 * (y 1).val = 0 + 1 * (32 + (y 1).val)
    rw [k0_off2_eq i]
    show 32 + 1 * (y 1).val = _
    omega

end Cert.KernelIdeal.Hand
end
-- ==== Proof.AttnCov.lean ====
/-
  After the one store of the projected channels `p` into the first 196 columns of the 256-column scratch, a load through
  a box inside those columns reads `p` at the corresponding indices: through the three boxes a tile loads, the three
  pieces of `p`.
-/
import proofs.«105017_j18133351924335_2_alg».proof.Proof.AttnLd
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readCov_sub [∀ e, Nonempty (Elt F e)] {κ : Kind} {sp : Space} (v : View sig κ sp S2048x256 .f32) (p : Vec F S2048x196 .f32)
    (B : LoadRect S2048x256) (e : B.shape.Idx → S2048x196.Idx) (he : ∀ j, B.idx j = R196.emb (e j)) :
    v.readCov [(⟨R196, p⟩ : View.Piece (Elt F) S2048x256 .f32)] B = fun j => p (e j) := by
  rw [View.readCov_eq_canon v _ B (fun j => ⟨_, List.mem_singleton_self _, by
    rw [he j, ← Rect.map_emb_univ]; exact Finset.mem_map_of_mem _ (Finset.mem_univ _)⟩)]
  funext j; rw [he j]; exact View.canon_cons_emb R196 p [] (e j)

theorem readCov_rQ [∀ e, Nonempty (Elt F e)] {κ : Kind} {sp : Space} (v : View sig κ sp S2048x256 .f32) (p : Vec F S2048x196 .f32) :
    v.readCov [(⟨R196, p⟩ : View.Piece (Elt F) S2048x256 .f32)] rQ.toLoadRect = subQ p := by
  rw [readCov_sub v p rQ.toLoadRect (fun y => ValueIdx.ix2 (⟨(y 0).val, (y 0).isLt⟩ : Fin 2048)
      (⟨(y 1).val, by have h : (y 1).val < 16 := (y 1).isLt; omega⟩ : Fin 196)) (fun y => funext fun a => Fin.ext (by
    match a with
    | ⟨0, _⟩ => rfl
    | ⟨1, _⟩ => rfl))]
  rfl

theorem readCov_rK [∀ e, Nonempty (Elt F e)] {κ : Kind} {sp : Space} (v : View sig κ sp S2048x256 .f32) (p : Vec F S2048x196 .f32) (i : grid0.Coords) :
    v.readCov [(⟨R196, p⟩ : View.Piece (Elt F) S2048x256 .f32)] (rK i).toLoadRect = subK (i 1).val p := by
  rw [readCov_sub v p (rK i).toLoadRect (fun y => ValueIdx.ix2 (⟨(512 * (i 1).val + (y 0).val) % 2048, Nat.mod_lt _ (by norm_num)⟩ : Fin 2048)
      (⟨16 + (y 1).val, by have h : (y 1).val < 16 := (y 1).isLt; omega⟩ : Fin 196)) (fun y => funext fun a => Fin.ext (by
    have hi : (i 1).val < 4 := (i 1).isLt
    have hy0 : (y 0).val < 512 := (y 0).isLt
    match a with
    | ⟨0, _⟩ =>
      show (k0_off1 i) 0 + 1 * (y 0).val = 0 + 1 * ((512 * (i 1).val + (y 0).val) % 2048)
      rw [k0_off1_eq i]
      show 512 * (i 1).val + 1 * (y 0).val = _
      omega
    | ⟨1, _⟩ =>
      show (k0_off1 i) 1 + 1 * (y 1).val = 0 + 1 * (16 + (y 1).val)
      rw [k0_off1_eq i]
      show 16 + 1 * (y 1).val = _
      omega))]
  rfl

theorem readCov_rV [∀ e, Nonempty (Elt F e)] {κ : Kind} {sp : Space} (v : View sig κ sp S2048x256 .f32) (p : Vec F S2048x196 .f32) (i : grid0.Coords) :
    v.readCov [(⟨R196, p⟩ : View.Piece (Elt F) S2048x256 .f32)] (rV i).toLoadRect = subV (i 1).val p := by
  rw [readCov_sub v p (rV i).toLoadRect (fun y => ValueIdx.ix2 (⟨(512 * (i 1).val + (y 0).val) % 2048, Nat.mod_lt _ (by norm_num)⟩ : Fin 2048)
      (⟨32 + (y 1).val, by have h : (y 1).val < 164 := (y 1).isLt; omega⟩ : Fin 196)) (fun y => funext fun a => Fin.ext (by
    have hi : (i 1).val < 4 := (i 1).isLt
    have hy0 : (y 0).val < 512 := (y 0).isLt
    match a with
    | ⟨0, _⟩ =>
      show (k0_off2 i) 0 + 1 * (y 0).val = 0 + 1 * ((512 * (i 1).val + (y 0).val) % 2048)
      rw [k0_off2_eq i]
      show 512 * (i 1).val + 1 * (y 0).val = _
      omega
    | ⟨1, _⟩ =>
      show (k0_off2 i) 1 + 1 * (y 1).val = 0 + 1 * (32 + (y 1).val)
      rw [k0_off2_eq i]
      show 32 + 1 * (y 1).val = _
      omega))]
  rfl

/-- The contents of a buffer after that one store, read through the first 196 columns, are `p`, whatever it held before. -/
theorem ld_writes_R196 {κ : Kind} {sp : Space} (v : View sig κ sp S2048x256 .f32) (f : v.ty.Contents (Elt F)) (p : Vec F S2048x196 .f32) :
    View.ld (v.read (Elt F) (v.writes (Elt F) f [(⟨R196, p⟩ : View.Piece (Elt F) S2048x256 .f32)])) R196 = p := by
  funext y
  show v.read (Elt F) (v.writes (Elt F) f [⟨R196, p⟩]) (R196.emb y) = p y
  exact View.read_writes_cons_emb v f R196 p [] y

end Cert.KernelIdeal.Hand
end
-- ==== Proof.AttnData.lean ====
/-
  The attention region's contents point by point, as pure functions of the blocks its windows read: for position `n`
  of the 8 × 4 grid (batch `n / 4`, tile `n % 4`), the projected channels of the batch — computed from the blocks at
  the batch's first point — and the running maximum, denominator and numerator after tile `n % 4`.
-/
import proofs.«105017_j18133351924335_2_alg».proof.Proof.AttnRuns
import proofs.«105017_j18133351924335_2_alg».proof.Proof.AttnState

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle through which the body reads the first 164 channels of the hidden-state block. -/
abbrev rIn : Rect S1x2048x256 := Rect.unit (s := S1x2048x256) ![0, 0, 0] S1x2048x164.size inb_S1x2048x256_S1x2048x164_0_0_0

section Attn
variable (V : (c : Dev nD) → (b : Ref sig .tc) → Buf (Elt F) ((c : Thread nD τ).loc b))

/-- The first point of the batch that position `n` belongs to. -/
def t0 (n : ℕ) (hn : n < cfg0.N) : Fin cfg0.N := ⟨4 * (n / 4), by have : cfg0.N = 32 := N_0; omega⟩

/-- The projected channels from the blocks at point `t`. -/
def projAt (c : Dev nD) (t : Fin cfg0.N) : Vec F S2048x196 .f32 :=
  k0_pay4 (View.ld (iblk0 V c 0 t) rIn) (iblk0 V c 1 t) (iblk0 V c 2 t) (iblk0 V c 3 t) (iblk0 V c 4 t)

/-- The projected channels of the batch of position `n`. -/
def projN (c : Dev nD) (n : ℕ) (hn : n < cfg0.N) : Vec F S2048x196 .f32 := projAt V c (t0 n hn)

/-- The running maximum, denominator and numerator after the body at position `n`. -/
def stN (c : Dev nD) (n : ℕ) (hn : n < cfg0.N) : St F := stAfter (projN V c n hn) (n % 4)

end Attn

end Cert.KernelIdeal.Hand

end
-- ==== Proof.AttnPiecesA.lean ====
/-
  What the run at a batch's first tile leaves: the three running buffers hold one tile's update of the reset state,
  computed from the three pieces of the projected channels that the same run has just stored into the first 196 columns
  of the fourth scratch; those columns hold the projected channels, whatever the buffer held before.
-/
import proofs.«105017_j18133351924335_2_alg».proof.Proof.AttnRunA
import proofs.«105017_j18133351924335_2_alg».proof.Proof.AttnCov
import proofs.«105017_j18133351924335_2_alg».proof.Proof.AttnData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → ℕ) = fun _ => 0 := by funext a; match a with | ⟨0, _⟩ => rfl

theorem coverA_0 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x1.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL _ S2048x1.size (by sl_kernel_rfl) y
theorem coverA_1 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x1.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL _ S2048x1.size (by sl_kernel_rfl) y
theorem coverA_2 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (y : S2048x164.Idx) : ∃ pc ∈ (kernelRun0_A (F := F) c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL _ S2048x164.size (by sl_kernel_rfl) y

theorem pieceA_0 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).1 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
theorem pieceA_1 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).2.1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).2.1 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
theorem pieceA_2 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) :
    View.canon (kernelRun0_A (F := F) c i arg2 harg2 arg3 harg3 arg4 harg4 arg5 harg5 arg6 harg6 arg7 harg7 arg8 harg8 arg9 harg9 arg10 harg10 arg11 harg11 hc0 hc1 x0 x1 x2 x3 x4).2.2.1 = (tileStep (subQ (k0_pay4 (View.ld x0 rIn) x1 x2 x3 x4)) (subK (i 1).val (k0_pay4 (View.ld x0 rIn) x1 x2 x3 x4)) (subV (i 1).val (k0_pay4 (View.ld x0 rIn) x1 x2 x3 x4)) (stReset (F := F))).2.2 := by
  unfold kernelRun0_A; dsimp only
  rw [View.canon_cons_unit_zero hz2]
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  repeat (first | rw [readCov_rQ] | rw [readCov_rK] | rw [readCov_rV] | rw [View.readCov_unit_zero _ hz2])
  rfl
/-- After the reset the fourth scratch holds the projected channels in its first 196 columns, whatever it held before. -/
theorem pieceA_3 (c : Dev nD) (i : grid0.Coords) (arg2 : Memref sig .tc .vmem S1x2048x256 .f32) (harg2 : arg2.IsWhole) (arg3 : Memref sig .tc .vmem S164 .f32) (harg3 : arg3.IsWhole) (arg4 : Memref sig .tc .vmem S164 .f32) (harg4 : arg4.IsWhole) (arg5 : Memref sig .tc .vmem S196x164 .f32) (harg5 : arg5.IsWhole) (arg6 : Memref sig .tc .vmem S196 .f32) (harg6 : arg6.IsWhole) (arg7 : Memref sig .tc .vmem S1x2048x164 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x164 .f32) (harg10 : arg10.IsWhole) (arg11 : Memref sig .tc .vmem S2048x256 .f32) (harg11 : arg11.IsWhole) (hc0 : cond0_0 i) (hc1 : ¬cond0_1 i)
    (x0 : Vec F S1x2048x256 .f32) (x1 : Vec F S164 .f32) (x2 : Vec F S164 .f32) (x3 : Vec F S196x164 .f32) (x4 : Vec F S196 .f32) (f : Buf (Elt F) (arg11.view.loc (c : Thread nD τ))) :
    View.ld (arg11.view.read (Elt F) (arg11.view.writes (Elt F) f (kernelRun0_A (F := F) c i arg2 harg2 arg3 harg3 arg4 harg4 arg5 harg5 arg6 harg6 arg7 harg7 arg8 harg8 arg9 harg9 arg10 harg10 arg11 harg11 hc0 hc1 x0 x1 x2 x3 x4).2.2.2.1)) R196 = (k0_pay4 (View.ld x0 rIn) x1 x2 x3 x4) := by
  unfold kernelRun0_A; dsimp only
  sl_unfold_run_names
  simp only [View.readAt_eq_ld, harg2.read_unread, harg3.read_unread, harg4.read_unread, harg5.read_unread, harg6.read_unread, View.ld_unit_zero (S := S164) hz1, View.ld_unit_zero (S := S196) hz1, View.ld_unit_zero (S := S196x164) hz2]
  exact ld_writes_R196 _ _ _

end Cert.KernelIdeal.Hand

end
-- ==== Proof.AttnFrame.lean ====
/-
  The first pallas_call's proof data and body obligation.  Point `t` of the 8 × 4 grid is batch `t / 4`, tile `t % 4`.
  Between points three scratch buffers hold the running maximum, denominator and numerator after the tiles of the batch
  so far (`stN`), and the fourth holds — in the first 196 of its 256 columns — the batch's projected channels
  (`projN`); the output window's buffer is written at a batch's last tile only, with the numerator over the denominator.
  At a batch's first tile the body resets the three running buffers and recomputes the projected channels, so what the
  buffers held before does not matter there.
-/
import proofs.«105017_j18133351924335_2_alg».proof.Proof.AttnPiecesA
import proofs.«105017_j18133351924335_2_alg».proof.Proof.AttnPiecesBC
import proofs.«105017_j18133351924335_2_alg».proof.Proof.AttnData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Attn
variable (V : (c : Dev nD) → (b : Ref sig .tc) → Buf (Elt F) ((c : Thread nD τ).loc b))

/-! ## The tile of a point, and the batch's first point -/

theorem coords1 : ∀ t : Fin cfg0.N, ((grid0.coords t) 1).val = t.val % 4 :=
  (by decide +kernel : ∀ t : Fin grid0.N, ((grid0.coords t) 1).val = t.val % 4)

theorem t0_first (t : Fin cfg0.N) (h0 : t.val % 4 = 0) : t0 t.val t.isLt = t := Fin.ext (by show 4 * (t.val / 4) = t.val; omega)
theorem t0_pred (n : ℕ) (hn : n < cfg0.N) (h0 : ¬n % 4 = 0) : t0 (n - 1) (by omega) = t0 n hn :=
  Fin.ext (by show 4 * ((n - 1) / 4) = 4 * (n / 4); omega)

theorem projN_first (c : Dev nD) (t : Fin cfg0.N) (h0 : t.val % 4 = 0) : projN V c t.val t.isLt = projAt V c t := by
  unfold projN; rw [t0_first t h0]
theorem projN_pred (c : Dev nD) (n : ℕ) (hn : n < cfg0.N) (h0 : ¬n % 4 = 0) : projN V c (n - 1) (by omega) = projN V c n hn := by
  unfold projN; rw [t0_pred n hn h0]

/-- At a batch's first tile the state is one tile's update of the reset state. -/
theorem stN_first (c : Dev nD) (t : Fin cfg0.N) (h0 : t.val % 4 = 0) :
    stN V c t.val t.isLt = tileStep (subQ (projAt V c t)) (subK ((grid0.coords t) 1).val (projAt V c t)) (subV ((grid0.coords t) 1).val (projAt V c t)) stReset := by
  unfold stN; rw [projN_first V c t h0, coords1 t, h0]; rfl

/-- At a later tile it is one tile's update of the state the tile before left. -/
theorem stN_next (c : Dev nD) (t : Fin cfg0.N) (h0 : ¬t.val % 4 = 0) :
    stN V c t.val t.isLt = tileStep (subQ (projN V c t.val t.isLt)) (subK ((grid0.coords t) 1).val (projN V c t.val t.isLt)) (subV ((grid0.coords t) 1).val (projN V c t.val t.isLt))
      (stN V c (t.val - 1) (Nat.lt_of_le_of_lt (Nat.sub_le _ _) t.isLt)) := by
  unfold stN
  rw [projN_pred V c t.val t.isLt h0, coords1 t]
  obtain ⟨j, hj⟩ : ∃ j, t.val % 4 = j + 1 := ⟨t.val % 4 - 1, by omega⟩
  have hj' : (t.val - 1) % 4 = j := by omega
  rw [hj, hj']; rfl

/-! ## The invariant -/

/-- Before position `n`: at the region's entry the class's invariant (every scratch at anything); afterwards the three
    running buffers at the state the point before left, the fourth scratch at some contents whose first 196 columns are
    the batch's projected channels, the other scoped buffers and the generator register as they come. -/
def PhiS (c : Dev nD) : (n : ℕ) → n ≤ cfg0.N → sProp 𝕄
  | 0, _ => Pipeline.ΦA spec0 c
  | n + 1, hn => iprop(iprop(owns (c : Thread nD τ) scM0_0 fullShare (stN V c n hn).1 ∗ owns (c : Thread nD τ) scM0_1 fullShare (stN V c n hn).2.1 ∗ owns (c : Thread nD τ) scM0_2 fullShare (stN V c n hn).2.2
      ∗ (∃ d3, owns (c : Thread nD τ) scM0_3 fullShare d3 ∗ ⌜View.ld d3 R196 = projN V c n hn⌝) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (stN V c n hn).1 ∗ owns (c : Thread nD τ) scM0_1 fullShare (stN V c n hn).2.1 ∗ owns (c : Thread nD τ) scM0_2 fullShare (stN V c n hn).2.2
      ∗ (∃ d3, owns (c : Thread nD τ) scM0_3 fullShare d3 ∗ ⌜View.ld d3 R196 = projN V c n hn⌝) ∗ otherScoped c) ∗ (∃ r, prngReg c r)) := rfl
theorem PhiS_pos (c : Dev nD) (n : ℕ) (h : n ≤ cfg0.N) (hz : n ≠ 0) :
    PhiS V c n h = iprop(iprop(owns (c : Thread nD τ) scM0_0 fullShare (stN V c (n - 1) (by omega)).1 ∗ owns (c : Thread nD τ) scM0_1 fullShare (stN V c (n - 1) (by omega)).2.1 ∗ owns (c : Thread nD τ) scM0_2 fullShare (stN V c (n - 1) (by omega)).2.2
      ∗ (∃ d3, owns (c : Thread nD τ) scM0_3 fullShare d3 ∗ ⌜View.ld d3 R196 = projN V c (n - 1) (by omega)⌝) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outOf (stN V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outOf (stN V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · -- a batch's first tile
    have h1 : ¬t.val % 4 = 3 := by omega
    have hcA0 : cond0_0 (grid0.coords t) := (hcond0_0 t).mpr h0
    have hcA1 : ¬cond0_1 (grid0.coords t) := fun h => h1 ((hcond0_1 t).mp h)
    rw [Dat.leavesExact_idle (dat0 V c) 5 t (idleAt0_5 t hcA1) (noFlush0_5 t hcA1)]
    rw [stN_first V c t h0, projN_first V c t h0]
    by_cases hz : t.val = 0
    · rw [PhiS_castSucc V c t, PhiS_zero V c _ _ hz, PhiA0_eq]
      iintro ⟨⟨⟨HS0, HS1, HS2, HS3, Hoth⟩, Hg⟩, Ho, ⟨%d0, H0⟩, ⟨%d1, H1⟩, ⟨%d2, H2⟩, ⟨%d3', H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcA0 hcA1 (iblk0 V c 0 t) (iblk0 V c 1 t) (iblk0 V c 2 t) (iblk0 V c 3 t) (iblk0 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, ⟨%e3, HS3⟩⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverA_0 c _ _ _ _ _ _ _ _ _ _ _ _ _ _ _ _ _ _ _ _ _ _ _ _ _ _ _ _)).trans ((pieceA_0 c _ _ _ _ _ _ _ _ _ _ _ _ _ _ _ _ _ _ _ _ _ _ _ _ _ _ _ _))
          isplitl [HS1]
          · unfold owns; iexists _; isplitr
            swap; · iexact HS1
            ipureintro; exact (View.read_writes_eq_canon _ _ _ (coverA_1 c _ _ _ _ _ _ _ _ _ _ _ _ _ _ _ _ _ _ _ _ _ _ _ _ _ _ _ _)).trans ((pieceA_1 c _ _ _ _ _ _ _ _ _ _ _ _ _ _ _ _ _ _ _ _ _ _ _ _ _ _ _ _))
          isplitl [HS2]
          · unfold owns; iexists _; isplitr
            swap; · iexact HS2
            ipureintro; exact (View.read_writes_eq_canon _ _ _ (coverA_2 c _ _ _ _ _ _ _ _ _ _ _ _ _ _ _ _ _ _ _ _ _ _ _ _ _ _ _ _)).trans ((pieceA_2 c _ _ _ _ _ _ _ _ _ _ _ _ _ _ _ _ _ _ _ _ _ _ _ _ _ _ _ _))
          isplitl [HS3]
          · iexists _; isplitl [HS3]
            · unfold owns; iexists _; isplitr
              swap; · iexact HS3
              ipureintro; rfl
            ipureintro; exact pieceA_3 c _ _ _ _ _ _ _ _ _ _ _ _ _ _ _ _ _ _ _ _ _ _ _ _ _ _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2, ⟨%d3, HS3, -⟩, Hoth⟩, Hg⟩, Ho, ⟨%d0, H0⟩, ⟨%d1, H1⟩, ⟨%d2, H2⟩, ⟨%d3', H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcA0 hcA1 (iblk0 V c 0 t) (iblk0 V c 1 t) (iblk0 V c 2 t) (iblk0 V c 3 t) (iblk0 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%e0, HS0⟩, ⟨%e1, HS1⟩, ⟨%e2, HS2⟩, ⟨%e3, HS3⟩⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverA_0 c _ _ _ _ _ _ _ _ _ _ _ _ _ _ _ _ _ _ _ _ _ _ _ _ _ _ _ _)).trans ((pieceA_0 c _ _ _ _ _ _ _ _ _ _ _ _ _ _ _ _ _ _ _ _ _ _ _ _ _ _ _ _))
          isplitl [HS1]
          · unfold owns; iexists _; isplitr
            swap; · iexact HS1
            ipureintro; exact (View.read_writes_eq_canon _ _ _ (coverA_1 c _ _ _ _ _ _ _ _ _ _ _ _ _ _ _ _ _ _ _ _ _ _ _ _ _ _ _ _)).trans ((pieceA_1 c _ _ _ _ _ _ _ _ _ _ _ _ _ _ _ _ _ _ _ _ _ _ _ _ _ _ _ _))
          isplitl [HS2]
          · unfold owns; iexists _; isplitr
            swap; · iexact HS2
            ipureintro; exact (View.read_writes_eq_canon _ _ _ (coverA_2 c _ _ _ _ _ _ _ _ _ _ _ _ _ _ _ _ _ _ _ _ _ _ _ _ _ _ _ _)).trans ((pieceA_2 c _ _ _ _ _ _ _ _ _ _ _ _ _ _ _ _ _ _ _ _ _ _ _ _ _ _ _ _))
          isplitl [HS3]
          · iexists _; isplitl [HS3]
            · unfold owns; iexists _; isplitr
              swap; · iexact HS3
              ipureintro; rfl
            ipureintro; exact pieceA_3 c _ _ _ _ _ _ _ _ _ _ _ _ _ _ _ _ _ _ _ _ _ _ _ _ _ _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 4 = 3
    · -- a batch's last tile
      have hcC0 : ¬cond0_0 (grid0.coords t) := fun h => h0 ((hcond0_0 t).mp h)
      have hcC1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hcC1], after0_5]
      have hz : t.val ≠ 0 := by omega
      rw [PhiS_castSucc V c t, PhiS_pos V c _ _ hz]
      rw [stN_next V c t h0, ← projN_pred V c t.val t.isLt h0]
      iintro ⟨⟨⟨HS0, HS1, HS2, ⟨%d3, HS3, %hd3⟩, Hoth⟩, Hg⟩, Ho, ⟨%d0, H0⟩, ⟨%d1, H1⟩, ⟨%d2, H2⟩, ⟨%d3', H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcC0 hcC1 (iblk0 V c 0 t) (iblk0 V c 1 t) (iblk0 V c 2 t) (iblk0 V c 3 t) (iblk0 V c 4 t) (stN V c (t.val - 1) (Nat.lt_of_le_of_lt (Nat.sub_le _ _) t.isLt)).1 (stN V c (t.val - 1) (Nat.lt_of_le_of_lt (Nat.sub_le _ _) t.isLt)).2.1 (stN V c (t.val - 1) (Nat.lt_of_le_of_lt (Nat.sub_le _ _) t.isLt)).2.2 d3).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%e0, HS0⟩, ⟨%e1, HS1⟩, ⟨%e2, HS2⟩, HS3⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverC_0 c _ _ _ _ _ _ _ _ _ _ _ _ _ _ _ _ _ _ _ _ _ _ _ _ _ _ _ _ _ _ _ _)).trans ((pieceC_0 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS1]
          · unfold owns; iexists _; isplitr
            swap; · iexact HS1
            ipureintro; exact (View.read_writes_eq_canon _ _ _ (coverC_1 c _ _ _ _ _ _ _ _ _ _ _ _ _ _ _ _ _ _ _ _ _ _ _ _ _ _ _ _ _ _ _ _)).trans ((pieceC_1 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS2]
          · unfold owns; iexists _; isplitr
            swap; · iexact HS2
            ipureintro; exact (View.read_writes_eq_canon _ _ _ (coverC_2 c _ _ _ _ _ _ _ _ _ _ _ _ _ _ _ _ _ _ _ _ _ _ _ _ _ _ _ _ _ _ _ _)).trans ((pieceC_2 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS3]
          · iexists _; isplitl [HS3]; · iexact HS3
            ipureintro; exact hd3
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (View.read_writes_eq_canon _ _ _ (coverC_5 c _ _ _ _ _ _ _ _ _ _ _ _ _ _ _ _ _ _ _ _ _ _ _ _ _ _ _ _ _ _ _ _)).trans ((pieceC_5 c _ _ _ _ _ _ _ _ _ _ _ _ _ _ _ _ _ _ _ _ _ _ _ _ _ _ _ _ _ _ _ _).trans (by rw [ld_rQ _ _ hd3, ld_rK _ _ _ hd3, ld_rV _ _ _ hd3]))
    · -- a middle tile
      have hcB0 : ¬cond0_0 (grid0.coords t) := fun h => h0 ((hcond0_0 t).mp h)
      have hcB1 : ¬cond0_1 (grid0.coords t) := fun h => h1 ((hcond0_1 t).mp h)
      rw [Dat.leavesExact_idle (dat0 V c) 5 t (idleAt0_5 t hcB1) (noFlush0_5 t hcB1)]
      have hz : t.val ≠ 0 := by omega
      rw [PhiS_castSucc V c t, PhiS_pos V c _ _ hz]
      rw [stN_next V c t h0, ← projN_pred V c t.val t.isLt h0]
      iintro ⟨⟨⟨HS0, HS1, HS2, ⟨%d3, HS3, %hd3⟩, Hoth⟩, Hg⟩, Ho, ⟨%d0, H0⟩, ⟨%d1, H1⟩, ⟨%d2, H2⟩, ⟨%d3', H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hcB0 hcB1 (iblk0 V c 0 t) (iblk0 V c 1 t) (iblk0 V c 2 t) (iblk0 V c 3 t) (iblk0 V c 4 t) (stN V c (t.val - 1) (Nat.lt_of_le_of_lt (Nat.sub_le _ _) t.isLt)).1 (stN V c (t.val - 1) (Nat.lt_of_le_of_lt (Nat.sub_le _ _) t.isLt)).2.1 (stN V c (t.val - 1) (Nat.lt_of_le_of_lt (Nat.sub_le _ _) t.isLt)).2.2 d3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, HS3⟩
      isplitl [HS0 HS1 HS2 HS3 Hoth Hg]
      · isplitl [HS0 HS1 HS2 HS3 Hoth]
        · isplitl [HS0]
          · unfold owns; iexists _; isplitr
            swap; · iexact HS0
            ipureintro; exact (View.read_writes_eq_canon _ _ _ (coverB_0 c _ _ _ _ _ _ _ _ _ _ _ _ _ _ _ _ _ _ _ _ _ _ _ _ _ _ _ _ _ _ _ _)).trans ((pieceB_0 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS1]
          · unfold owns; iexists _; isplitr
            swap; · iexact HS1
            ipureintro; exact (View.read_writes_eq_canon _ _ _ (coverB_1 c _ _ _ _ _ _ _ _ _ _ _ _ _ _ _ _ _ _ _ _ _ _ _ _ _ _ _ _ _ _ _ _)).trans ((pieceB_1 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS2]
          · unfold owns; iexists _; isplitr
            swap; · iexact HS2
            ipureintro; exact (View.read_writes_eq_canon _ _ _ (coverB_2 c _ _ _ _ _ _ _ _ _ _ _ _ _ _ _ _ _ _ _ _ _ _ _ _ _ _ _ _ _ _ _ _)).trans ((pieceB_2 c _ _ _ _ _ _ _ _ _ _ _ _ _ _ _ _ _ _ _ _ _ _ _ _ _ _ _ _ _ _ _ _).trans (by rw [ld_rQ _ _ hd3, ld_rK _ _ _ hd3, ld_rV _ _ _ hd3]))
          isplitl [HS3]
          · iexists _; isplitl [HS3]; · iexact HS3
            ipureintro; exact hd3
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, ⟨%d3, HS3, -⟩, Hoth⟩, Hg⟩
  isplitl [HS0 HS1 HS2 HS3 Hoth]
  · isplitl [HS0]; · iexists _; iexact HS0
    isplitl [HS1]; · iexists _; iexact HS1
    isplitl [HS2]; · iexists _; iexact HS2
    isplitl [HS3]; · iexists _; iexact HS3
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Attn

end Cert.KernelIdeal.Hand

end
-- ==== Proof.OutProjBody.lean ====
/-
  The out-projection call of the idealized kernel program (the second pallas_call): the body's
  separation-logic triple and the pipeline's proof data, at any float instance and at a parameter V,
  the buffer contents when the call is entered. The output block after the body is one whole-buffer
  store of the payload of the four input blocks: (attended ++ remaining channels) times the weight
  transposed, as two partial products, plus the bias.
-/
import proofs.«105017_j18133351924335_2_alg».proof.Proof.Gen.KernelIdeal.Launch
import proofs.«105017_j18133351924335_2_alg».proof.Proof.Gen.KernelIdeal.Skeleton
import proofs.«105017_j18133351924335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any
    proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one a whole buffer -/

abbrev r1_0 : Rect S1x1024x164 := Rect.unit (s := S1x1024x164) ![0, 0, 0] S1x1024x164.size inb_S1x1024x164_S1x1024x164_0_0_0
abbrev r1_1 : Rect S1x1024x768 := Rect.unit (s := S1x1024x768) ![0, 0, 0] S1x1024x768.size inb_S1x1024x768_S1x1024x768_0_0_0
abbrev r1_2 : Rect S768x768 := Rect.unit (s := S768x768) ![0, 0] S768x768.size inb_S768x768_S768x768_0_0
abbrev r1_3 : Rect S768 := Rect.unit (s := S768) ![0] S768.size inb_S768_S768_0

/-! ## What the body leaves in the output window's buffer -/

/-- The output window's staging buffer after the body, from the input windows' blocks: its one store. -/
def out1_4 (x0 : Vec F S1x1024x164 .f32) (x1 : Vec F S1x1024x768 .f32) (x2 : Vec F S768x768 .f32) (x3 : Vec F S768 .f32) : Vec F S1x1024x768 .f32 :=
  View.canon [⟨r1_1, k1_pay1 (View.ld x0 r1_0) (View.ld x1 r1_1) (View.ld x2 r1_2) (View.ld x3 r1_3)⟩]

/-- The store is the whole buffer, so it covers it. -/
theorem cover1_4 (p0 : Vec F S1x1024x768 .f32) (y : S1x1024x768.Idx) :
    ∃ pc ∈ ([⟨r1_1, p0⟩] : List (View.Piece (Elt F) S1x1024x768 .f32)), y ∈ pc.1.set :=
  View.cover_of_tiled [⟨r1_1, p0⟩] S1x1024x768.size (by rfl) y

/-! ## The body's triple -/

set_option maxHeartbeats 1000000 in
/-- The kernel body on whole staging memrefs, the inputs' at read contents and the output's at anything, runs to
    the continuation holding the inputs' as they were and the output's at out1_4 of the inputs'. The body loads
    the output buffer before its one store; the loaded value is not used. -/
theorem sound_kernel1 (c : Dev nD) (E : Set ℕ) (i : grid1.Coords)
    (arg2 : Memref sig .tc .vmem S1x1024x164 .f32) (harg2 : arg2.IsWhole) (arg3 : Memref sig .tc .vmem S1x1024x768 .f32) (harg3 : arg3.IsWhole)
    (arg4 : Memref sig .tc .vmem S768x768 .f32) (harg4 : arg4.IsWhole) (arg5 : Memref sig .tc .vmem S768 .f32) (harg5 : arg5.IsWhole)
    (arg6 : Memref sig .tc .vmem S1x1024x768 .f32) (harg6 : arg6.IsWhole)
    (x0 : Vec F S1x1024x164 .f32) (x1 : Vec F S1x1024x768 .f32) (x2 : Vec F S768x768 .f32) (x3 : Vec F S768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_proj_kernel i arg2 harg2 arg3 harg3 arg4 harg4 arg5 harg5 arg6 harg6) K := by
  simp only [cc1__out_proj_kernel_eq_skeleton]; unfold cc1__out_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the call's pipeline on core c: the arrays as the call finds them; after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.Run.lean ====
/-
  The run of the idealized kernel program: its two pallas_calls in order, with no host operation between
  them. The buffer contents at the three boundaries (the launch memory; after the attention call, its arrays
  at what its write-backs leave; after the out-projection call likewise), each call as a segment over the
  thread state "every unscoped buffer at the boundary's contents, the generator register at some state,
  nothing owed", and the run: every weakly fair execution terminates, the result array ends at what the
  out-projection call's write-backs leave, and every argument ends as launched.
-/
import proofs.«105017_j18133351924335_2_alg».proof.Proof.AttnFrame
import proofs.«105017_j18133351924335_2_alg».proof.Proof.OutProjBody
import proofs.«105017_j18133351924335_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what the attention call's proof data take). -/
abbrev V0 : (c : Dev nD) → (b : Ref sig .tc) → Buf (Elt F) ((c : Thread nD τ).loc b) := fun c b => W0 m ρ c b
/-- The launch contents are the launch memory. -/
theorem V0_eq (c : Dev nD) (b : Ref sig .tc) : V0 m ρ c b = m ((c : Thread nD τ).loc b) := rfl

/-- After the attention call: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (what the out-projection call's proof data take). -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the out-projection call: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (the exit contents). -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the out-projection call finds -/

/-- The attended array is the attention call's output: its write-backs folded. -/
theorem V1_main_v0 (c : Dev nD) : V1 m ρ c main_v0 = (dat0 (V0 m ρ) c).arrAt 5 cfg0.N := W1_arr m ρ c 5
/-- The attention call reads the hidden states through an input window and leaves them as launched. -/
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_main_arg2 (c : Dev nD) : V1 m ρ c main_arg2 = m ((c : Thread nD τ).loc main_arg2) :=
  (W1_arr m ρ c 2).trans (((dat0 (V0 m ρ) c).arrAt_in 2 rfl _).trans (A_eq0 (V0 m ρ) c 2))
theorem V1_main_arg3 (c : Dev nD) : V1 m ρ c main_arg3 = m ((c : Thread nD τ).loc main_arg3) :=
  (W1_arr m ρ c 3).trans (((dat0 (V0 m ρ) c).arrAt_in 3 rfl _).trans (A_eq0 (V0 m ρ) c 3))
theorem V1_main_arg4 (c : Dev nD) : V1 m ρ c main_arg4 = m ((c : Thread nD τ).loc main_arg4) :=
  (W1_arr m ρ c 4).trans (((dat0 (V0 m ρ) c).arrAt_in 4 rfl _).trans (A_eq0 (V0 m ρ) c 4))
/-- The attention call has no window on the out-projection's weight and bias. -/
theorem V1_main_arg5 (c : Dev nD) : V1 m ρ c main_arg5 = m ((c : Thread nD τ).loc main_arg5) :=
  W1_of_ne m ρ c main_arg5 (by decide)
theorem V1_main_arg6 (c : Dev nD) : V1 m ρ c main_arg6 = m ((c : Thread nD τ).loc main_arg6) :=
  W1_of_ne m ρ c main_arg6 (by decide)

/-! ## The arguments end as launched -/

theorem W2_main_arg0 (c : Dev nD) : W2 m ρ c (Proc.devRef .tc main_arg0) = m ((c : Thread nD τ).loc main_arg0) :=
  (W2_arr m ρ c 1).trans ((((dat1 (V1 m ρ) c).arrAt_in 1 rfl _).trans (A_eq1 (V1 m ρ) c 1)).trans (V1_main_arg0 m ρ c))
theorem W2_main_arg1 (c : Dev nD) : W2 m ρ c (Proc.devRef .tc main_arg1) = m ((c : Thread nD τ).loc main_arg1) :=
  (W2_of_ne m ρ c main_arg1 (by decide)).trans (V1_main_arg1 m ρ c)
theorem W2_main_arg2 (c : Dev nD) : W2 m ρ c (Proc.devRef .tc main_arg2) = m ((c : Thread nD τ).loc main_arg2) :=
  (W2_of_ne m ρ c main_arg2 (by decide)).trans (V1_main_arg2 m ρ c)
theorem W2_main_arg3 (c : Dev nD) : W2 m ρ c (Proc.devRef .tc main_arg3) = m ((c : Thread nD τ).loc main_arg3) :=
  (W2_of_ne m ρ c main_arg3 (by decide)).trans (V1_main_arg3 m ρ c)
theorem W2_main_arg4 (c : Dev nD) : W2 m ρ c (Proc.devRef .tc main_arg4) = m ((c : Thread nD τ).loc main_arg4) :=
  (W2_of_ne m ρ c main_arg4 (by decide)).trans (V1_main_arg4 m ρ c)
theorem W2_main_arg5 (c : Dev nD) : W2 m ρ c (Proc.devRef .tc main_arg5) = m ((c : Thread nD τ).loc main_arg5) :=
  (W2_arr m ρ c 2).trans ((((dat1 (V1 m ρ) c).arrAt_in 2 rfl _).trans (A_eq1 (V1 m ρ) c 2)).trans (V1_main_arg5 m ρ c))
theorem W2_main_arg6 (c : Dev nD) : W2 m ρ c (Proc.devRef .tc main_arg6) = m ((c : Thread nD τ).loc main_arg6) :=
  (W2_arr m ρ c 3).trans ((((dat1 (V1 m ρ) c).arrAt_in 3 rfl _).trans (A_eq1 (V1 m ρ) c 3)).trans (V1_main_arg6 m ρ c))

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owes, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)

/-! ## The calls as segments -/

set_option backward.isDefEq.respectTransparency.types false in
/-- The attention call over the thread state: entered from every unscoped buffer at the launch contents, left at
    W1. Its arrays split out of the unscoped buffers and put back at the exit contents; the generator register
    and the scoped rest into its invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m ρ 0 c).Φ 0 from hin0 (V0 m ρ) c)
    show _ ⊢ Pipeline.ΦA spec0 c
    unfold Pipeline.ΦA
    iintro ⟨Hp, -, Hr⟩
    isplitl [Hr]; · iexact Hr
    iexact Hp
  hout c := by
    rw [Pipeline.ownSems0_none]
    refine BI.Entails.trans (show (pdats m ρ 0 c).Φ (Fin.last _) ⊢ Pipeline.ΦA spec0 c from hout0 (V0 m ρ) c) ?_
    show Pipeline.ΦA spec0 c ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The out-projection call over the thread state: entered from every unscoped buffer at W1, left at W2 (what
    the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: a region per pallas_call. -/
abbrev segs : List (Pipeline.Seg (pcfgs (F := F)) adm (pdats m ρ) () defs₀ 𝒱₀ L lv) :=
  [ .region (reg0 m ρ), .region (reg1 m ρ) ]
/-- The program is the run of the segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN, at any float instance: from any memory with zero counters, every weakly fair execution of the program
    on the TensorCores terminates, nothing faulting, and every final state has the result array at what the
    out-projection call's write-backs leave and the argument arrays as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 4),
        (h c _ (mem_uc main_arg0 (by decide))).trans (W2_main_arg0 m ρ c),
        (h c _ (mem_uc main_arg1 (by decide))).trans (W2_main_arg1 m ρ c),
        (h c _ (mem_uc main_arg2 (by decide))).trans (W2_main_arg2 m ρ c),
        (h c _ (mem_uc main_arg3 (by decide))).trans (W2_main_arg3 m ρ c),
        (h c _ (mem_uc main_arg4 (by decide))).trans (W2_main_arg4 m ρ c),
        (h c _ (mem_uc main_arg5 (by decide))).trans (W2_main_arg5 m ρ c),
        (h c _ (mem_uc main_arg6 (by decide))).trans (W2_main_arg6 m ρ c)⟩)

end Cert.KernelIdeal.Hand

end
-- ==== Proof.LibDotPlain.lean ====
/-
  A plain matrix product — an M×K matrix times a K×N matrix, the left factor contracted on its last axis and the
  right factor on its first — at the ideal values. Read at entry (r, c), both the product accumulated into the zero
  matrix and the host's contraction are the sum over k of (r, k) times (k, c): no rounding, no order of summation.
  Nothing here mentions a program: literal ranks, symbolic extents.
-/
import Idealize.ShloMosaic.PureOps.Ideal.Laws
import Idealize.ShloMosaic.Lib.ValueIdx

noncomputable section

namespace Cert.DotPlain

open Idealize.ShloMosaic Idealize.ShloMosaic.ValueIdx

variable {M K N : Nat}

/-- The contraction index of the plain product is one coordinate below K. -/
abbrev kEquiv (M K N : Nat) : (DotDims.plain M K N).contr.Idx ≃ Fin K := contrEquiv1 (DotDims.plain M K N) K rfl rfl

/-- The left factor is read at (row of the entry, k). -/
theorem lhsIdx_eq (r : Fin M) (c : Fin N) (k : Fin K) :
    (DotDims.plain M K N).lhsIdx (ix2 r c) ((kEquiv M K N).symm k) = ix2 r k :=
  funext fun a => Fin.ext (by
    match a with
    | ⟨0, _⟩ => rfl
    | ⟨1, _⟩ => exact ((DotDims.plain M K N).lhsIdx_val_of_single rfl _ _).trans (contrEquiv1_symm_val _ K rfl rfl k))

/-- The right factor is read at (k, column of the entry). -/
theorem rhsIdx_eq (r : Fin M) (c : Fin N) (k : Fin K) :
    (DotDims.plain M K N).rhsIdx (ix2 r c) ((kEquiv M K N).symm k) = ix2 k c :=
  funext fun a => Fin.ext (by
    match a with
    | ⟨0, _⟩ => exact ((DotDims.plain M K N).rhsIdx_val_of_single rfl _ _).trans (contrEquiv1_symm_val _ K rfl rfl k)
    | ⟨1, _⟩ => rfl)

/-- The contraction's sum, re-indexed by the one coordinate k. -/
theorem sum_eq (lhs : (⟨2, ![M, K]⟩ : Shape).Idx → EReal) (rhs : (⟨2, ![K, N]⟩ : Shape).Idx → EReal) (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (kEquiv M K N).symm]
  exact Finset.sum_congr rfl fun k _ => by rw [lhsIdx_eq, rhsIdx_eq]

/-- The product accumulated into the zero matrix, at entry (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_eq lhs rhs r c)

/-- The host's contraction, at entry (r, c). -/
theorem dotGeneral_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) :=
  (Ideal.dotGeneral_apply (DotDims.plain M K N) prec _ lhs rhs (ix2 r c)).trans (sum_eq lhs rhs r c)

end Cert.DotPlain

end
-- ==== Proof.OutProjValue.lean ====
/-
  The out-projection kernel's payload at the ideal values, read at an index: row r, output channel o of the
  stored block is the sum over the 164 attended channels of attended(r, d) times weight(o, d), plus the sum over
  the remaining 604 channels of hidden(r, 164 + d) times weight(o, 164 + d), plus bias(o). The two partial
  products are plain matrix products of the (row-cast, column-sliced) left factors with the transposed column
  slices of the weight; a change of format is the identity at the ideal values.
-/
import proofs.«105017_j18133351924335_2_alg».proof.Proof.OutProjBody
import proofs.«105017_j18133351924335_2_alg».proof.Proof.LibDotPlain
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The attended factor: the block's row r, channel d. -/
theorem lhsA_apply (v0 : Vec Ideal S1x1024x164 .f32) (r : Fin 1024) (d : Fin 164) :
    (truncf .bf16 (shapeCast S1024x164 v0 shapeCasts_S1x1024x164_S1024x164) bitsLt_bf16_f32 : FVec Ideal S1024x164 .bf16) (ix2 r d)
      = v0 (ix3 0 r d) :=
  shapeCast_1ab_ab_apply v0 shapeCasts_S1x1024x164_S1024x164 r d

/-- The hidden factor: the block's row r, channel 164 + d. -/
theorem lhsB_apply (v2 : Vec Ideal S1x1024x768 .f32) (r : Fin 1024) (d : Fin 604) :
    (truncf .bf16 (extractStridedSlice S1024x604 ![0, 164] (shapeCast S1024x768 v2 shapeCasts_S1x1024x768_S1024x768)
        slices_S1024x768_o0_164_S1024x604) bitsLt_bf16_f32 : FVec Ideal S1024x604 .bf16) (ix2 r d)
      = v2 (ix3 0 r ⟨164 + d.val, by omega⟩) :=
  (slice2_axis1_apply 164 (shapeCast S1024x768 v2 shapeCasts_S1x1024x768_S1024x768) slices_S1024x768_o0_164_S1024x604 r d
      ⟨164 + d.val, by omega⟩ rfl).trans
    (shapeCast_1ab_ab_apply v2 shapeCasts_S1x1024x768_S1024x768 r ⟨164 + d.val, by omega⟩)

/-- The weight's first 164 columns, transposed: entry (d, o) is weight(o, d). -/
theorem rhsA_apply (v5 : Vec Ideal S768x768 .f32) (d : Fin 164) (o : Fin 768) :
    (transpose S164x768 [1, 0] (truncf .bf16 (extractStridedSlice S768x164 ![0, 0] v5 slices_S768x768_o0_0_S768x164) bitsLt_bf16_f32)
        transposes_S768x164_p1_0_S164x768 : FVec Ideal S164x768 .bf16) (ix2 d o)
      = v5 (ix2 o ⟨d.val, by omega⟩) :=
  (transpose_ix2_apply _ transposes_S768x164_p1_0_S164x768 d o).trans
    (slice2_axis1_apply 0 v5 slices_S768x768_o0_0_S768x164 o d ⟨d.val, by omega⟩ (Nat.zero_add _).symm)

/-- The weight's last 604 columns, transposed: entry (d, o) is weight(o, 164 + d). -/
theorem rhsB_apply (v5 : Vec Ideal S768x768 .f32) (d : Fin 604) (o : Fin 768) :
    (transpose S604x768 [1, 0] (truncf .bf16 (extractStridedSlice S768x604 ![0, 164] v5 slices_S768x768_o0_164_S768x604) bitsLt_bf16_f32)
        transposes_S768x604_p1_0_S604x768 : FVec Ideal S604x768 .bf16) (ix2 d o)
      = v5 (ix2 o ⟨164 + d.val, by omega⟩) :=
  (transpose_ix2_apply _ transposes_S768x604_p1_0_S604x768 d o).trans
    (slice2_axis1_apply 164 v5 slices_S768x768_o0_164_S768x604 o d ⟨164 + d.val, by omega⟩ rfl)

/-- The bias, cast to one row and broadcast over the rows: entry (r, o) is bias(o). -/
theorem bias_apply (v17 : Vec Ideal S768 .f32) (r : Fin 1024) (o : Fin 768) :
    (broadcastTo S1024x768 (shapeCast S1x768 v17 shapeCasts_S768_S1x768) broadcasts_S1x768_S1024x768 : FVec Ideal S1024x768 .f32) (ix2 r o)
      = v17 (ix1 o) :=
  (broadcastTo_1b_ab_apply _ broadcasts_S1x768_S1024x768 r o).trans (shapeCast_a_1a_apply v17 shapeCasts_S768_S1x768 0 o)

/-- The payload at row r, output channel o. -/
theorem k1_pay1_apply (v0 : Vec Ideal S1x1024x164 .f32) (v2 : Vec Ideal S1x1024x768 .f32) (v5 : Vec Ideal S768x768 .f32)
    (v17 : Vec Ideal S768 .f32) (r : Fin 1024) (o : Fin 768) :
    k1_pay1 (F := Ideal) v0 v2 v5 v17 (ix3 0 r o)
      = ((∑ d : Fin 164, v0 (ix3 0 r d) * v5 (ix2 o ⟨d.val, by omega⟩))
          + ∑ d : Fin 604, v2 (ix3 0 r ⟨164 + d.val, by omega⟩) * v5 (ix2 o ⟨164 + d.val, by omega⟩))
        + v17 (ix1 o) := by
  unfold k1_pay1
  refine (shapeCast_ab_1ab_apply _ shapeCasts_S1024x768_S1x1024x768 0 r o).trans ?_
  rw [addf_apply, addf_apply, bias_apply]
  rw [show dot_S1024x164_S164x768_S1024x768_1_0_0_1_n_n = DotDims.plain 1024 164 768 from rfl,
    show dot_S1024x604_S604x768_S1024x768_1_0_0_1_n_n = DotDims.plain 1024 604 768 from rfl]
  rw [Cert.DotPlain.matmul_zero_apply, Cert.DotPlain.matmul_zero_apply]
  simp only [lhsA_apply, lhsB_apply]
  refine congrArg (· + v17 (ix1 o)) (congrArg₂ (· + ·) (Finset.sum_congr rfl fun d _ => ?_) (Finset.sum_congr rfl fun d _ => ?_))
  · exact congrArg (v0 (ix3 0 r d) * ·) (rhsA_apply v5 d o)
  · exact congrArg (v2 (ix3 0 r ⟨164 + d.val, by omega⟩) * ·) (rhsB_apply v5 d o)

/-- The zero offsets of a whole-buffer access, as the constant function. -/
theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

/-- The output block after the body is the payload of the four input blocks: every access of the body is a whole
    buffer, and the one store leaves its payload. -/
theorem out1_4_eq {F : FTy → Type} [FloatOps F] (x0 : Vec F S1x1024x164 .f32) (x1 : Vec F S1x1024x768 .f32)
    (x2 : Vec F S768x768 .f32) (x3 : Vec F S768 .f32) : out1_4 x0 x1 x2 x3 = k1_pay1 x0 x1 x2 x3 := by
  unfold out1_4
  rw [View.canon_unit_zero zeros3, View.ld_unit_zero zeros3, View.ld_unit_zero zeros3, View.ld_unit_zero zeros2,
    View.ld_unit_zero zeros1]

/-- The output block after the body, at row r, output channel o: the payload of the four input blocks. -/
theorem out1_4_apply (x0 : Vec Ideal S1x1024x164 .f32) (x1 : Vec Ideal S1x1024x768 .f32) (x2 : Vec Ideal S768x768 .f32)
    (x3 : Vec Ideal S768 .f32) (r : Fin 1024) (o : Fin 768) :
    out1_4 (F := Ideal) x0 x1 x2 x3 (ix3 0 r o)
      = ((∑ d : Fin 164, x0 (ix3 0 r d) * x2 (ix2 o ⟨d.val, by omega⟩))
          + ∑ d : Fin 604, x1 (ix3 0 r ⟨164 + d.val, by omega⟩) * x2 (ix2 o ⟨164 + d.val, by omega⟩))
        + x3 (ix1 o) := by
  rw [out1_4_eq]
  exact k1_pay1_apply x0 x1 x2 x3 r o

/-- info: 'Cert.KernelIdeal.Hand.out1_4_apply' depends on axioms: [propext, Classical.choice, Quot.sound] -/
#guard_msgs in #print axioms out1_4_apply

end Cert.KernelIdeal.Hand

end
-- ==== Proof.Spec.lean ====
/-
  The mathematics both programs compute, as functions of the seven argument arrays over the extended reals,
  index by index; no program is mentioned here.

  For a batch `b` and a sequence position `r`: the first 164 channels of the hidden state are layer-normalised
  (mean and variance over the 164 channels, the variance shifted by a small constant before the inverse square root,
  then an affine map), projected to 196 channels (16 of query, 16 of key, 164 of value), the scores of a query against
  the 2048 keys of its batch are scaled by a quarter and soft-maxed, the values averaged under those weights, the
  result joined with the remaining 604 channels of the hidden state, and the 768 channels projected once more.

  The soft-max is written with its shift `M b r` a PARAMETER: for real scores the quotient
  `exp (s t - M) / ∑ t', exp (s t' - M)` does not depend on a real `M`, so one program may subtract the row's
  maximum and the other a running maximum, tile by tile.  The tile-by-tile form (`lrun`, `arun`) is the
  recurrence that rescales a running denominator and a running numerator by `exp (m j - m (j+1))` before each of
  the four tiles of 512 keys is added; `mr` is its sequence of shifts, again a parameter.
-/
import Idealize.ShloMosaic.PureOps.Ideal
import Mathlib

noncomputable section

namespace Cert.Spec

open Idealize.ShloMosaic

/-- An extended real that is a real number. -/
def IsR (x : EReal) : Prop := ∃ r : ℝ, x = (r : EReal)

/-- 164, the variance shift, a quarter, and the finite stand-in for minus infinity: as their binary words. -/
def c164 : EReal := Ideal.ofBits .f32 0x43240000#32
def ceps : EReal := Ideal.ofBits .f32 0x3727C5AC#32
def cqtr : EReal := Ideal.ofBits .f32 0x3E800000#32
def cneg : EReal := Ideal.ofBits .f32 0xFF333332#32

section
variable (hs : Fin 8 → Fin 2048 → Fin 768 → EReal) (sc bi : Fin 164 → EReal)
  (w : Fin 196 → Fin 164 → EReal) (qb : Fin 196 → EReal)
  (ow : Fin 768 → Fin 768 → EReal) (ob : Fin 768 → EReal)

/-- The normalised channels. -/
def x1 (b : Fin 8) (r : Fin 2048) (d : Fin 164) : EReal := hs b r ⟨d.val, by omega⟩
def mean (b : Fin 8) (r : Fin 2048) : EReal := Ideal.div (∑ d : Fin 164, x1 hs b r d) c164
def var (b : Fin 8) (r : Fin 2048) : EReal :=
  Ideal.div (∑ d : Fin 164, (x1 hs b r d - mean hs b r) * (x1 hs b r d - mean hs b r)) c164
def xn (b : Fin 8) (r : Fin 2048) (d : Fin 164) : EReal :=
  (x1 hs b r d - mean hs b r) * Ideal.rsqrt (var hs b r + ceps) * sc d + bi d

/-- The projection to query, key and value channels. -/
def qkv (b : Fin 8) (r : Fin 2048) (o : Fin 196) : EReal := (∑ d : Fin 164, xn hs sc bi b r d * w o d) + qb o
def qq (b : Fin 8) (r : Fin 2048) (e : Fin 16) : EReal := qkv hs sc bi w qb b r ⟨e.val, by omega⟩
def kk (b : Fin 8) (r : Fin 2048) (e : Fin 16) : EReal := qkv hs sc bi w qb b r ⟨16 + e.val, by omega⟩
def vv (b : Fin 8) (r : Fin 2048) (c : Fin 164) : EReal := qkv hs sc bi w qb b r ⟨32 + c.val, by omega⟩

/-- The scaled score of query `r` against key `t`. -/
def score (b : Fin 8) (r t : Fin 2048) : EReal := (∑ e : Fin 16, qq hs sc bi w qb b r e * kk hs sc bi w qb b t e) * cqtr

/-- The attended values, the soft-max shifted by `M b r`. -/
def att (M : Fin 8 → Fin 2048 → EReal) (b : Fin 8) (r : Fin 2048) (c : Fin 164) : EReal :=
  ∑ t : Fin 2048, Ideal.div (Ideal.exp (score hs sc bi w qb b r t - M b r))
      (∑ t' : Fin 2048, Ideal.exp (score hs sc bi w qb b r t' - M b r)) * vv hs sc bi w qb b t c

/-- The attended channels joined with the channels that bypass attention. -/
def merged (M : Fin 8 → Fin 2048 → EReal) (b : Fin 8) (r : Fin 2048) (d : Fin 768) : EReal :=
  if h : d.val < 164 then att hs sc bi w qb M b r ⟨d.val, h⟩ else hs b r d

/-- The result. -/
def out (M : Fin 8 → Fin 2048 → EReal) (b : Fin 8) (r : Fin 2048) (o : Fin 768) : EReal :=
  (∑ d : Fin 768, merged hs sc bi w qb M b r d * ow o d) + ob o

/-- The same result with the sum over the 768 joined channels written as its two stretches. -/
def outSplit (a : Fin 8 → Fin 2048 → Fin 164 → EReal) (b : Fin 8) (r : Fin 2048) (o : Fin 768) : EReal :=
  ((∑ d : Fin 164, a b r d * ow o ⟨d.val, by omega⟩)
    + ∑ d : Fin 604, hs b r ⟨164 + d.val, by omega⟩ * ow o ⟨164 + d.val, by omega⟩) + ob o

/-! ### Tile by tile -/

/-- Key `t` of tile `j` (the tiles are 512 keys long; `j < 4` is what is used). -/
def key (j : ℕ) (t : Fin 512) : Fin 2048 := ⟨(512 * j + t.val) % 2048, Nat.mod_lt _ (by norm_num)⟩

/-- The running denominator after `j` tiles, under the shifts `mr`. -/
def lrun (mr : ℕ → EReal) (b : Fin 8) (r : Fin 2048) : ℕ → EReal
  | 0 => 0
  | j + 1 => Ideal.exp (mr j - mr (j + 1)) * lrun mr b r j
      + ∑ t : Fin 512, Ideal.exp (score hs sc bi w qb b r (key j t) - mr (j + 1))

/-- The running numerator of channel `c` after `j` tiles. -/
def arun (mr : ℕ → EReal) (b : Fin 8) (r : Fin 2048) (c : Fin 164) : ℕ → EReal
  | 0 => 0
  | j + 1 => Ideal.exp (mr j - mr (j + 1)) * arun mr b r c j
      + ∑ t : Fin 512, Ideal.exp (score hs sc bi w qb b r (key j t) - mr (j + 1)) * vv hs sc bi w qb b (key j t) c

/-- The tile-by-tile attended value. -/
def attOnline (mr : ℕ → EReal) (b : Fin 8) (r : Fin 2048) (c : Fin 164) : EReal :=
  Ideal.div (arun hs sc bi w qb mr b r c 4) (lrun hs sc bi w qb mr b r 4)

end

end Cert.Spec

end
-- ==== Proof.Cur.lean ====
/-
  Arrays as functions of their coordinates: an array of extents n0 × n1 × n2 read at the index built from
  three coordinates, so that statements can be written over plain coordinates.
-/
import Idealize.ShloMosaic.Lib.ValueIdx
import Idealize.ShloMosaic.PureOps.Ideal

noncomputable section

namespace Cert.Spec

open Idealize.ShloMosaic

/-- A rank-1 array as a function of its coordinate. -/
def cur1 {n : Nat} (x : (⟨1, ![n]⟩ : Shape).Idx → EReal) : Fin n → EReal := fun a => x (ValueIdx.ix1 a)
/-- A rank-2 array as a function of its coordinates. -/
def cur2 {n0 n1 : Nat} (x : (⟨2, ![n0, n1]⟩ : Shape).Idx → EReal) : Fin n0 → Fin n1 → EReal := fun a b => x (ValueIdx.ix2 a b)
/-- A rank-3 array as a function of its coordinates. -/
def cur3 {n0 n1 n2 : Nat} (x : (⟨3, ![n0, n1, n2]⟩ : Shape).Idx → EReal) : Fin n0 → Fin n1 → Fin n2 → EReal :=
  fun a b c => x (ValueIdx.ix3 a b c)

theorem cur1_apply {n : Nat} (x : (⟨1, ![n]⟩ : Shape).Idx → EReal) (a : Fin n) : cur1 x a = x (ValueIdx.ix1 a) := rfl
theorem cur2_apply {n0 n1 : Nat} (x : (⟨2, ![n0, n1]⟩ : Shape).Idx → EReal) (a : Fin n0) (b : Fin n1) :
    cur2 x a b = x (ValueIdx.ix2 a b) := rfl
theorem cur3_apply {n0 n1 n2 : Nat} (x : (⟨3, ![n0, n1, n2]⟩ : Shape).Idx → EReal) (a : Fin n0) (b : Fin n1) (c : Fin n2) :
    cur3 x a b c = x (ValueIdx.ix3 a b c) := rfl

end Cert.Spec

end
-- ==== Proof.Arrays.lean ====
/-
  From blocks to arrays, for the two pallas_calls of the idealized kernel program.

  The attention call's output array after the call, batch by batch, for any proof data of its pipeline: the
  output window is one whole batch (2048 rows, 164 channels), written back exactly at the last of the four key
  tiles of each batch, so batch b of the final array is what the body left at point 4 b + 3.

  The out-projection call's result array at the ideal values, as one function of the arrays the call finds:
  entry (b, s, o) is the sum over the 164 attended channels of attended(b, s, d) times weight(o, d), plus the sum
  over the remaining 604 channels of hidden(b, s, 164 + d) times weight(o, 164 + d), plus bias(o). Each grid point
  (b, j) writes back rows 1024 j .. 1024 j + 1023 of batch b, all 768 output channels; the sixteen blocks tile the
  array.
-/
import proofs.«105017_j18133351924335_2_alg».proof.Proof.Run
import proofs.«105017_j18133351924335_2_alg».proof.Proof.OutProjValue
import proofs.«105017_j18133351924335_2_alg».proof.Proof.Spec
import proofs.«105017_j18133351924335_2_alg».proof.Proof.Cur
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)

/-! ## The attention call's output array, batch by batch -/

/-- The output window's block index at point t: batch t / 4, the whole batch. -/
theorem idx_facts0_5 : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

/-- Two points that both write the output back and have the same block index are one point. -/
theorem idx_inj0_5 : ∀ t t' : Fin cfg0.N, (cfg0.win 5).flush t = true → (cfg0.win 5).flush t' = true →
    win0_5.index t = win0_5.index t' → t = t' :=
  (by decide +kernel : ∀ t t' : Fin grid0.N, win0_5.flush t = true → win0_5.flush t' = true → win0_5.index t = win0_5.index t' → t = t')

/-- So two writing points' blocks share no array index. -/
theorem disjoint0_5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (idx_inj0_5 t t' hf hf' h)

/-- Batch b of the output array after the call is what the body left at point 4 b + 3. -/
theorem arrAt0_5 {F : FTy → Type} [FloatOps F] {c : Dev nD} (dat : Dat τ (Elt F) Unit ℕ (UR sig nD τ) ℕ cfg0 c)
    (b : Fin 8) (r : Fin 2048) (ch : Fin 164) :
    dat.arrAt 5 cfg0.N (ix3 b r ch) = dat.after 5 ⟨4 * b.val + 3, by have : cfg0.N = 32 := N_0; omega⟩ (ix3 0 r ch) := by
  have hN : cfg0.N = 32 := N_0
  generalize ht : (⟨4 * b.val + 3, by omega⟩ : Fin cfg0.N) = t
  have htv : t.val = 4 * b.val + 3 := by rw [← ht]
  have hf : (cfg0.win 5).flush t = true := (flush0_5 t).mpr (by omega)
  obtain ⟨e0, e1, e2⟩ := idx_facts0_5 t
  have hread := congrFun (dat.read_blk_arrAt_eq_flushed 5 disjoint0_5 cfg0.N t t.isLt hf) (ix3 0 r ch)
  have hemb : ((cfg0.win 5).blk t).view.emb (ix3 0 r ch) = ix3 b r ch := by
    funext a; apply Fin.ext
    match a with
    | ⟨0, _⟩ => show win0_5.index t (0 : Fin 3) * 1 + 1 * 0 = b.val; omega
    | ⟨1, _⟩ => show win0_5.index t (1 : Fin 3) * 2048 + 1 * r.val = r.val; omega
    | ⟨2, _⟩ => show win0_5.index t (2 : Fin 3) * 164 + 1 * ch.val = ch.val; omega
  rw [← hemb]
  exact hread

/-! ## The out-projection call's result array -/

section OutProj
variable (V : (c : Dev nD) → (b : Ref sig .tc) → Buf (Elt Ideal) ((c : Thread nD τ).loc b))

/-- The out-projection as one function of the attended array, the hidden states, the weight and the bias. -/
def outProjG (a : S8x2048x164.Idx → EReal) (x : S8x2048x768.Idx → EReal) (w : S768x768.Idx → EReal) (b : S768.Idx → EReal) :
    S8x2048x768.Idx → EReal := fun i =>
  Cert.Spec.outSplit (Cert.Spec.cur3 x) (Cert.Spec.cur2 w) (Cert.Spec.cur1 b) (Cert.Spec.cur3 a) (i 0) (i 1) (i 2)

/-- Written out: the two partial sums and the bias. -/
theorem outProjG_apply (a : S8x2048x164.Idx → EReal) (x : S8x2048x768.Idx → EReal) (w : S768x768.Idx → EReal) (b : S768.Idx → EReal)
    (i : S8x2048x768.Idx) :
    outProjG a x w b i
      = ((∑ d : Fin 164, a (ix3 (i 0) (i 1) d) * w (ix2 (i 2) ⟨d.val, by omega⟩))
          + ∑ d : Fin 604, x (ix3 (i 0) (i 1) ⟨164 + d.val, by omega⟩) * w (ix2 (i 2) ⟨164 + d.val, by omega⟩))
        + b (ix1 (i 2)) := rfl

/-- The printed index maps, decided over the grid: the two row-blocked inputs move with the output; the weight and
    the bias stay; the output's block indices stay in their ranges. -/
theorem idx_facts1 : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = win1_4.index t (1 : Fin 3)
    ∧ win1_1.index t (2 : Fin 3) = 0
    ∧ win1_2.index t (0 : Fin 2) = 0 ∧ win1_2.index t (1 : Fin 2) = 0
    ∧ win1_3.index t (0 : Fin 1) = 0
    ∧ win1_4.index t (0 : Fin 3) ≤ 7 ∧ win1_4.index t (1 : Fin 3) ≤ 1 ∧ win1_4.index t (2 : Fin 3) = 0 :=
  (by decide +kernel : ∀ t : Fin grid1.N, _)

/-- Every block of the array is some point's. -/
theorem idx_onto1 : ∀ (q0 : Fin 8) (q1 : Fin 2), ∃ t : Fin cfg1.N, win1_4.index t = ![q0.val, q1.val, 0] :=
  (by decide +kernel : ∀ (q0 : Fin 8) (q1 : Fin 2), ∃ t : Fin grid1.N, win1_4.index t = ![q0.val, q1.val, 0])

/-- An index of the array is in point t's block iff each coordinate is in the block's range on its axis. -/
theorem mem_blk1_4 (t : Fin cfg1.N) (i : S8x2048x768.Idx) :
    i ∈ ((cfg1.win 4).blk t).view.set ↔ ∀ a : Fin 3, win1_4.index t a * S1x1024x768.size a ≤ (i a).val ∧ (i a).val < win1_4.index t a * S1x1024x768.size a + S1x1024x768.size a := by
  show i ∈ ((View.whole main_v1).slice (win1_4.rect t)).set ↔ _
  rw [View.set_slice_whole, Rect.mem_set_unit]
  exact Iff.rfl

/-- The payload of the input blocks at point t, at row r' and channel o of the block, is the out-projection of
    the arrays at the block's place in the array: the row-blocked inputs move with the output, the weight and the
    bias are whole. -/
theorem flushed_entry (c : Dev nD) (t : Fin cfg1.N) (r' : Fin 1024) (o : Fin 768) :
    k1_pay1 (F := Ideal) (iblk1 V c 0 t) (iblk1 V c 1 t) (iblk1 V c 2 t) (iblk1 V c 3 t) (ix3 0 r' o)
      = outProjG (V c main_v0) (V c main_arg0) (V c main_arg5) (V c main_arg6) (((cfg1.win 4).blk t).view.emb (ix3 0 r' o)) := by
  obtain ⟨e00, e01, e02, e10, e11, e12, e20, e21, e30, b0, b1, e42⟩ := idx_facts1 t
  rw [k1_pay1_apply, outProjG_apply]
  have hA : ∀ d : Fin 164, iblk1 V c 0 t (ix3 0 r' d)
      = V c main_v0 (ix3 ((((cfg1.win 4).blk t).view.emb (ix3 0 r' o)) 0) ((((cfg1.win 4).blk t).view.emb (ix3 0 r' o)) 1) d) := fun d => by
    show V c main_v0 (((cfg1.win 0).blk t).view.emb (ix3 0 r' d)) = _
    refine congrArg (V c main_v0) (funext fun a => Fin.ext ?_)
    match a with
    | ⟨0, _⟩ => show win1_0.index t (0 : Fin 3) * 1 + 1 * 0 = win1_4.index t (0 : Fin 3) * 1 + 1 * 0; omega
    | ⟨1, _⟩ => show win1_0.index t (1 : Fin 3) * 1024 + 1 * r'.val = win1_4.index t (1 : Fin 3) * 1024 + 1 * r'.val; omega
    | ⟨2, _⟩ => show win1_0.index t (2 : Fin 3) * 164 + 1 * d.val = d.val; omega
  have hX : ∀ d : Fin 768, iblk1 V c 1 t (ix3 0 r' d)
      = V c main_arg0 (ix3 ((((cfg1.win 4).blk t).view.emb (ix3 0 r' o)) 0) ((((cfg1.win 4).blk t).view.emb (ix3 0 r' o)) 1) d) := fun d => by
    show V c main_arg0 (((cfg1.win 1).blk t).view.emb (ix3 0 r' d)) = _
    refine congrArg (V c main_arg0) (funext fun a => Fin.ext ?_)
    match a with
    | ⟨0, _⟩ => show win1_1.index t (0 : Fin 3) * 1 + 1 * 0 = win1_4.index t (0 : Fin 3) * 1 + 1 * 0; omega
    | ⟨1, _⟩ => show win1_1.index t (1 : Fin 3) * 1024 + 1 * r'.val = win1_4.index t (1 : Fin 3) * 1024 + 1 * r'.val; omega
    | ⟨2, _⟩ => show win1_1.index t (2 : Fin 3) * 768 + 1 * d.val = d.val; omega
  have hW : ∀ k : Fin 768, iblk1 V c 2 t (ix2 o k)
      = V c main_arg5 (ix2 ((((cfg1.win 4).blk t).view.emb (ix3 0 r' o)) 2) k) := fun k => by
    show V c main_arg5 (((cfg1.win 2).blk t).view.emb (ix2 o k)) = _
    refine congrArg (V c main_arg5) (funext fun a => Fin.ext ?_)
    match a with
    | ⟨0, _⟩ => show win1_2.index t (0 : Fin 2) * 768 + 1 * o.val = win1_4.index t (2 : Fin 3) * 768 + 1 * o.val; omega
    | ⟨1, _⟩ => show win1_2.index t (1 : Fin 2) * 768 + 1 * k.val = k.val; omega
  have hB : iblk1 V c 3 t (ix1 o) = V c main_arg6 (ix1 ((((cfg1.win 4).blk t).view.emb (ix3 0 r' o)) 2)) := by
    show V c main_arg6 (((cfg1.win 3).blk t).view.emb (ix1 o)) = _
    refine congrArg (V c main_arg6) (funext fun a => Fin.ext ?_)
    match a with
    | ⟨0, _⟩ => show win1_3.index t (0 : Fin 1) * 768 + 1 * o.val = win1_4.index t (2 : Fin 3) * 768 + 1 * o.val; omega
  refine congrArg₂ (· + ·) (congrArg₂ (· + ·) (Finset.sum_congr rfl fun d _ => ?_) (Finset.sum_congr rfl fun d _ => ?_)) hB
  · exact congrArg₂ (· * ·) (hA d) (hW _)
  · exact congrArg₂ (· * ·) (hX _) (hW _)

/-- What point t writes back is block t of the out-projection of the arrays the call finds. -/
theorem flushed1_4_eq (c : Dev nD) (t : Fin cfg1.N) :
    (dat1 (F := Ideal) V c).flushed 4 t
      = ((cfg1.win 4).blk t).view.read (Elt Ideal) (outProjG (V c main_v0) (V c main_arg0) (V c main_arg5) (V c main_arg6)) := by
  show (cfg1.win 4).cut (grid1.coords t) ((dat1 V c).after 4 t) = _
  rw [after1_4, out1_4_eq]
  funext j
  have h0 : (j 0).val < 1 := (j 0).isLt
  have hj : j = ix3 (0 : Fin 1) (j 1 : Fin 1024) (j 2 : Fin 768) := by
    funext a
    match a with
    | ⟨0, _⟩ => exact Fin.ext (by show (j 0).val = 0; omega)
    | ⟨1, _⟩ => rfl
    | ⟨2, _⟩ => rfl
  exact (congrArg (k1_pay1 (iblk1 V c 0 t) (iblk1 V c 1 t) (iblk1 V c 2 t) (iblk1 V c 3 t)) hj).trans
    ((flushed_entry V c t (j 1) (j 2)).trans
      (congrArg (fun y => outProjG (V c main_v0) (V c main_arg0) (V c main_arg5) (V c main_arg6) (((cfg1.win 4).blk t).view.emb y)) hj.symm))

/-- Every index of the result array is in some point's block: row r of batch b in the block of the point at
    (b, r / 1024). -/
theorem cover1_4_arr (i : S8x2048x768.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 768 := (i 2).isLt
  obtain ⟨t, ht⟩ := idx_onto1 ⟨(i 0).val, h0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 768 ≤ (i 2).val ∧ (i 2).val < win1_4.index t (2 : Fin 3) * 768 + 768; omega

/-- The result array after the call is the out-projection of the arrays the call finds. -/
theorem final1_arr (c : Dev nD) :
    (dat1 (F := Ideal) V c).arrAt 4 cfg1.N = outProjG (V c main_v0) (V c main_arg0) (V c main_arg5) (V c main_arg6) :=
  (dat1 V c).arrAt_eq_of_cover 4 _ (fun t _ => flushed1_4_eq V c t) cover1_4_arr

/-- The same, entry by entry, over plain coordinates. -/
theorem final1 (c : Dev nD) (b : Fin 8) (r : Fin 2048) (o : Fin 768) :
    (dat1 (F := Ideal) V c).arrAt 4 cfg1.N (ix3 b r o)
      = Cert.Spec.outSplit (Cert.Spec.cur3 (V c main_arg0)) (Cert.Spec.cur2 (V c main_arg5)) (Cert.Spec.cur1 (V c main_arg6))
          (Cert.Spec.cur3 (V c main_v0)) b r o :=
  congrFun (final1_arr V c) (ix3 b r o)

end OutProj

end Cert.KernelIdeal.Hand

end
-- ==== Proof.SoftmaxLaw.lean ====
/-
  The soft-max computed tile by tile equals the soft-max computed at once, and the sum over the 768 joined channels
  equals the sum of its two stretches.

  For real scores `s t`, real values `v t`, any real shifts `m 0, m 1, …` and any real `M`: the running
  denominator after `j` tiles is `∑ exp (s t - m j)` over the keys of the first `j` tiles (rescaling by
  `exp (m j - m (j+1))` moves the shift, because `exp (x + y) = exp x * exp y`), the running numerator
  likewise with the factor `v t`; after the four tiles every key has been met once, and the quotient
  of the two sums does not depend on the shift, since the common factor `exp (M - m 4)` cancels.
-/
import proofs.«105017_j18133351924335_2_alg».proof.Proof.Spec

noncomputable section

namespace Cert.Spec

open Idealize.ShloMosaic

/-! ### Over the reals -/

/-- The coercion of a finite sum of reals is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The four tiles of 512 keys enumerate the 2048 keys once each. -/
theorem sum_tiles {α : Type*} [AddCommMonoid α] (f : Fin 2048 → α) :
    ∑ i ∈ Finset.range 4, ∑ t : Fin 512, f (key i t) = ∑ t : Fin 2048, f t := by
  rw [Finset.sum_range (fun i => ∑ t : Fin 512, f (key i t))]
  rw [← Fintype.sum_prod_type' (fun (i : Fin 4) (t : Fin 512) => f (key i.val t))]
  refine Fintype.sum_equiv (finProdFinEquiv (m := 4) (n := 512)) _ _ (fun p => ?_)
  congr 1
  apply Fin.ext
  simp only [key, finProdFinEquiv_apply_val]
  omega

/-- Moving the shift of a sum of exponentials. -/
theorem exp_shift_sum {ι : Type*} (S : Finset ι) (s g : ι → ℝ) (m m' : ℝ) :
    Real.exp (m - m') * ∑ t ∈ S, Real.exp (s t - m) * g t = ∑ t ∈ S, Real.exp (s t - m') * g t := by
  rw [Finset.mul_sum]
  refine Finset.sum_congr rfl (fun t _ => ?_)
  rw [← mul_assoc, ← Real.exp_add]
  congr 2
  ring

/-- The soft-max average does not depend on the shift. -/
theorem softmax_shift {ι : Type*} [Fintype ι] [Nonempty ι] (s v : ι → ℝ) (m M : ℝ) :
    (∑ t, Real.exp (s t - m) * v t) * (1 / ∑ t, Real.exp (s t - m))
      = ∑ t, Real.exp (s t - M) * (1 / ∑ t', Real.exp (s t' - M)) * v t := by
  have hpos : ∀ x : ℝ, 0 < ∑ t, Real.exp (s t - x) := fun x =>
    Finset.sum_pos (fun _ _ => Real.exp_pos _) Finset.univ_nonempty
  have h1 : ∑ t, Real.exp (s t - m) * v t = Real.exp (M - m) * ∑ t, Real.exp (s t - M) * v t :=
    (exp_shift_sum Finset.univ s v M m).symm
  have h2 : ∑ t, Real.exp (s t - m) = Real.exp (M - m) * ∑ t, Real.exp (s t - M) := by
    have := (exp_shift_sum Finset.univ s (fun _ => (1 : ℝ)) M m).symm
    simpa using this
  rw [h1, h2]
  have hD := (hpos M).ne'
  have hE := (Real.exp_pos (M - m)).ne'
  have h3 : ∑ t, Real.exp (s t - M) * (1 / ∑ t', Real.exp (s t' - M)) * v t
      = (∑ t, Real.exp (s t - M) * v t) * (1 / ∑ t', Real.exp (s t' - M)) := by
    rw [Finset.sum_mul]
    refine Finset.sum_congr rfl (fun t _ => ?_)
    ring
  rw [h3]
  field_simp

/-! ### Over the extended reals -/

section
variable (hs : Fin 8 → Fin 2048 → Fin 768 → EReal) (sc bi : Fin 164 → EReal)
  (w : Fin 196 → Fin 164 → EReal) (qb : Fin 196 → EReal)
  (ow : Fin 768 → Fin 768 → EReal) (ob : Fin 768 → EReal)

/-- For real scores, values and shifts, the tile-by-tile soft-max average is the soft-max average. -/
theorem attOnline_eq_att (M : Fin 8 → Fin 2048 → EReal) (mr : ℕ → EReal) (b : Fin 8) (r : Fin 2048) (c : Fin 164)
    (hM : IsR (M b r)) (hmr : ∀ j, IsR (mr j)) (hsc : ∀ t, IsR (score hs sc bi w qb b r t))
    (hv : ∀ t, IsR (vv hs sc bi w qb b t c)) :
    attOnline hs sc bi w qb mr b r c = att hs sc bi w qb M b r c := by
  obtain ⟨M0, hM0⟩ := hM
  choose m hm using hmr
  choose s hs' using hsc
  choose v hv' using hv
  -- the running denominator after `j` tiles
  have hl : ∀ j, lrun hs sc bi w qb mr b r j
      = ((∑ i ∈ Finset.range j, ∑ t : Fin 512, Real.exp (s (key i t) - m j) * 1 : ℝ) : EReal) := by
    intro j
    induction j with
    | zero => simp [lrun]
    | succ j ih =>
      rw [lrun, ih, hm j, hm (j + 1)]
      simp only [hs', ← EReal.coe_sub, Ideal.exp_coe, ← EReal.coe_mul, ← coe_finset_sum, ← EReal.coe_add]
      congr 1
      rw [Finset.sum_range_succ, ← Finset.sum_product', ← Finset.sum_product',
        exp_shift_sum (Finset.range j ×ˢ Finset.univ) (fun p => s (key p.1 p.2)) (fun _ => 1) (m j) (m (j + 1))]
      simp
  -- the running numerator after `j` tiles
  have ha : ∀ j, arun hs sc bi w qb mr b r c j
      = ((∑ i ∈ Finset.range j, ∑ t : Fin 512, Real.exp (s (key i t) - m j) * v (key i t) : ℝ) : EReal) := by
    intro j
    induction j with
    | zero => simp [arun]
    | succ j ih =>
      rw [arun, ih, hm j, hm (j + 1)]
      simp only [hs', hv', ← EReal.coe_sub, Ideal.exp_coe, ← EReal.coe_mul, ← coe_finset_sum, ← EReal.coe_add]
      congr 1
      rw [Finset.sum_range_succ, ← Finset.sum_product', ← Finset.sum_product',
        exp_shift_sum (Finset.range j ×ˢ Finset.univ) (fun p => s (key p.1 p.2)) (fun p => v (key p.1 p.2)) (m j) (m (j + 1))]
  have hpos : ∀ x : ℝ, 0 < ∑ t, Real.exp (s t - x) := fun x =>
    Finset.sum_pos (fun _ _ => Real.exp_pos _) Finset.univ_nonempty
  rw [attOnline, att, hl 4, ha 4, sum_tiles (fun t => Real.exp (s t - m 4) * 1),
    sum_tiles (fun t => Real.exp (s t - m 4) * v t), hM0]
  simp only [mul_one, hs', hv', ← EReal.coe_sub, Ideal.exp_coe, ← coe_finset_sum]
  rw [Ideal.div_coe (hpos (m 4)).ne']
  simp only [Ideal.div_coe (hpos M0).ne', ← EReal.coe_mul, ← coe_finset_sum]
  congr 1
  exact softmax_shift s v (m 4) M0

/-- The sum over the 768 joined channels is the sum over the 164 attended channels plus the sum over the
    604 channels that bypass attention. -/
theorem outSplit_eq_out (M : Fin 8 → Fin 2048 → EReal) (b : Fin 8) (r : Fin 2048) (o : Fin 768) :
    outSplit hs ow ob (att hs sc bi w qb M) b r o = out hs sc bi w qb ow ob M b r o := by
  rw [outSplit, out]
  congr 1
  refine ((Fin.sum_univ_add (a := 164) (b := 604)
    (fun d : Fin 768 => merged hs sc bi w qb M b r d * ow o d)).trans ?_).symm
  congr 1

end

end Cert.Spec

end
-- ==== Proof.SpecReal.lean ====
/-
  Under real inputs every intermediate quantity of the specification is a real number: the mean and the variance
  over the 164 channels, the normalised channels (the variance is a non-negative real and the shift a positive
  real, so the inverse square root is taken of a positive real), the projected channels, the scores.
-/
import proofs.«105017_j18133351924335_2_alg».proof.Proof.SoftmaxLaw

noncomputable section

namespace Cert.Spec

open Idealize.ShloMosaic

/-! ### Closure of the real extended reals -/

theorem IsR.coe (x : ℝ) : IsR (x : EReal) := ⟨x, rfl⟩

theorem IsR.zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.neg {x : EReal} (hx : IsR x) : IsR (-x) := by
  obtain ⟨a, rfl⟩ := hx
  exact ⟨-a, (EReal.coe_neg a).symm⟩

theorem IsR.max {x y : EReal} (hx : IsR x) (hy : IsR y) : IsR (max x y) := by
  rcases le_total x y with h | h
  · rw [max_eq_right h]; exact hy
  · rw [max_eq_left h]; exact hx

theorem IsR.sum {ι : Type*} (S : Finset ι) (f : ι → EReal) (h : ∀ i ∈ S, IsR (f i)) : IsR (∑ i ∈ S, f i) := by
  classical
  induction S using Finset.induction_on with
  | empty => exact ⟨0, by simp⟩
  | insert a S ha ih =>
    rw [Finset.sum_insert ha]
    exact (h a (Finset.mem_insert_self a S)).add (ih (fun i hi => h i (Finset.mem_insert_of_mem hi)))

theorem IsR.div_coe {x : EReal} {y : ℝ} (hx : IsR x) (hy : y ≠ 0) : IsR (Ideal.div x (y : EReal)) := by
  rw [Ideal.div_coe hy]
  exact hx.mul (IsR.coe _)

theorem IsR.exp {x : EReal} (hx : IsR x) : IsR (Ideal.exp x) := by
  obtain ⟨a, rfl⟩ := hx
  exact ⟨Real.exp a, rfl⟩

/-! ### The constants -/

theorem c164_eq : c164 = ((164 : ℝ) : EReal) := by
  simp [c164, Ideal.ofBits, Ideal.ieee, -EReal.coe_mul]; norm_num

theorem cqtr_eq : cqtr = ((1 / 4 : ℝ) : EReal) := by
  simp [cqtr, Ideal.ofBits, Ideal.ieee, -EReal.coe_mul]; norm_num

theorem ceps_eq : ceps = ((10995116 * (2 : ℝ) ^ (-40 : ℤ) : ℝ) : EReal) := by
  simp [ceps, Ideal.ofBits, Ideal.ieee, -EReal.coe_mul]

theorem ceps_pos : ∃ e : ℝ, 0 < e ∧ ceps = (e : EReal) :=
  ⟨_, by positivity, ceps_eq⟩

theorem cneg_eq : cneg = ((-(11744050 * 2 ^ 104) : ℝ) : EReal) := by
  simp [cneg, Ideal.ofBits, Ideal.ieee, -EReal.coe_mul]

theorem cneg_isR : IsR cneg := ⟨_, cneg_eq⟩

/-- The two infinities, as their binary words. -/
theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

/-- The maximum from minus infinity over a nonempty finite family of reals is a real. -/
theorem fold_max_isR {ι : Type*} (S : Finset ι) (hS : S.Nonempty) (f : ι → EReal) (hf : ∀ k ∈ S, IsR (f k)) :
    IsR (S.fold max ⊥ f) := by
  induction hS using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih (fun k hk => hf k (Finset.mem_cons.2 (Or.inr hk))))

/-! ### The specification under real inputs -/

section
variable (hs : Fin 8 → Fin 2048 → Fin 768 → EReal) (sc bi : Fin 164 → EReal)
  (w : Fin 196 → Fin 164 → EReal) (qb : Fin 196 → EReal)

theorem x1_isR (hhs : ∀ b r d, IsR (hs b r d)) (b : Fin 8) (r : Fin 2048) (d : Fin 164) :
    IsR (x1 hs b r d) := hhs b r _

theorem mean_isR (hhs : ∀ b r d, IsR (hs b r d)) (b : Fin 8) (r : Fin 2048) : IsR (mean hs b r) := by
  rw [mean, c164_eq]
  exact (IsR.sum _ _ (fun d _ => x1_isR hs hhs b r d)).div_coe (by norm_num)

/-- The variance is a non-negative real. -/
theorem var_nonneg (hhs : ∀ b r d, IsR (hs b r d)) (b : Fin 8) (r : Fin 2048) :
    ∃ v : ℝ, 0 ≤ v ∧ var hs b r = (v : EReal) := by
  obtain ⟨μ, hμ⟩ := mean_isR hs hhs b r
  choose x hx using (fun d => x1_isR hs hhs b r d)
  refine ⟨(∑ d, (x d - μ) * (x d - μ)) * (1 / 164),
    mul_nonneg (Finset.sum_nonneg (fun d _ => mul_self_nonneg _)) (by norm_num), ?_⟩
  rw [var, c164_eq, Ideal.div_coe (by norm_num), hμ]
  simp only [hx, ← EReal.coe_sub, ← EReal.coe_mul, ← coe_finset_sum]

theorem xn_isR (hhs : ∀ b r d, IsR (hs b r d)) (hsc : ∀ d, IsR (sc d)) (hbi : ∀ d, IsR (bi d))
    (b : Fin 8) (r : Fin 2048) (d : Fin 164) : IsR (xn hs sc bi b r d) := by
  obtain ⟨v, hv0, hv⟩ := var_nonneg hs hhs b r
  obtain ⟨e, he0, he⟩ := ceps_pos
  have hpos : 0 < v + e := by linarith
  have hr : IsR (Ideal.rsqrt (var hs b r + ceps)) := by
    rw [hv, he, ← EReal.coe_add, Ideal.rsqrt_coe, if_neg (not_lt.2 hpos.le), if_neg hpos.ne']
    exact IsR.coe _
  exact ((((x1_isR hs hhs b r d).sub (mean_isR hs hhs b r)).mul hr).mul (hsc d)).add (hbi d)

theorem qkv_isR (hhs : ∀ b r d, IsR (hs b r d)) (hsc : ∀ d, IsR (sc d)) (hbi : ∀ d, IsR (bi d))
    (hw : ∀ o d, IsR (w o d)) (hqb : ∀ o, IsR (qb o)) :
    ∀ b r o, IsR (qkv hs sc bi w qb b r o) := fun b r o =>
  (IsR.sum _ _ (fun d _ => (xn_isR hs sc bi hhs hsc hbi b r d).mul (hw o d))).add (hqb o)

theorem score_isR (hhs : ∀ b r d, IsR (hs b r d)) (hsc : ∀ d, IsR (sc d)) (hbi : ∀ d, IsR (bi d))
    (hw : ∀ o d, IsR (w o d)) (hqb : ∀ o, IsR (qb o)) :
    ∀ b r t, IsR (score hs sc bi w qb b r t) := by
  intro b r t
  rw [score, cqtr_eq]
  exact (IsR.sum _ _ (fun e _ => (qkv_isR hs sc bi w qb hhs hsc hbi hw hqb b r _).mul
    (qkv_isR hs sc bi w qb hhs hsc hbi hw hqb b t _))).mul (IsR.coe _)

theorem vv_isR (hhs : ∀ b r d, IsR (hs b r d)) (hsc : ∀ d, IsR (sc d)) (hbi : ∀ d, IsR (bi d))
    (hw : ∀ o d, IsR (w o d)) (hqb : ∀ o, IsR (qb o)) :
    ∀ b r c, IsR (vv hs sc bi w qb b r c) := fun b r _ =>
  qkv_isR hs sc bi w qb hhs hsc hbi hw hqb b r _

end

end Cert.Spec

end
-- ==== Proof.AttnValue.lean ====
/-
  The attention body's payloads at the ideal values, read at an index, and the state after each tile of a batch:
  row by row the running denominator and numerator are the tile-by-tile recurrence of the specification under the
  running maxima as shifts, so the quotient written at the last tile is the soft-max average.
-/
import proofs.«105017_j18133351924335_2_alg».proof.Proof.AttnState
import proofs.«105017_j18133351924335_2_alg».proof.Proof.Spec
import proofs.«105017_j18133351924335_2_alg».proof.Proof.Cur
import proofs.«105017_j18133351924335_2_alg».proof.Proof.SoftmaxLaw
import proofs.«105017_j18133351924335_2_alg».proof.Proof.SpecReal
import proofs.«105017_j18133351924335_2_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ### Layout operations at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of an `[a, b]` array, at row `r`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  show (∑ k : Fin b, src (h.lift (ix1 r) k)) = _
  refine Finset.sum_congr rfl fun k _ => congrArg src ?_
  funext ax
  apply Fin.ext
  match ax with
  | ⟨0, _⟩ => rfl
  | ⟨1, _⟩ => rfl

/-- The maximum over the second axis of an `[a, b]` array, at row `r`: the fold of `max` from the accumulator. -/
theorem rowMax_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  show (Finset.univ : Finset (Fin b)).fold max (Ideal.ofBits .f32 acc) (fun k => src (h.lift (ix1 r) k)) = _
  refine congrArg (fun f => (Finset.univ : Finset (Fin b)).fold max (Ideal.ofBits .f32 acc) f)
    (funext fun k => congrArg src ?_)
  funext ax
  apply Fin.ext
  match ax with
  | ⟨0, _⟩ => rfl
  | ⟨1, _⟩ => rfl

end Layout

/-! ### The payloads at an index -/

/-- The scaled scores of a tile: row `r` against the tile's key `t`. -/
theorem pay10_apply (q : Vec Ideal S2048x16 .f32) (k : Vec Ideal S512x16 .f32) (r : Fin 2048) (t : Fin 512) :
    k0_pay10 (F := Ideal) q k (ix2 r t)
      = (∑ e : Fin 16, q (ix2 r e) * k (ix2 t e)) * Ideal.ofBits .f32 0x3E800000#32 := by
  unfold k0_pay10
  dsimp only
  rw [mulf_apply, broadcast_apply]
  rw [show dot_S2048x16_S16x512_S2048x512_1_0_0_1_n_n = DotDims.plain 2048 16 512 from rfl]
  rw [Cert.DotPlain.matmul_zero_apply]
  refine congrArg₂ (· * ·) (Finset.sum_congr rfl fun e _ => ?_) rfl
  exact congrArg (q (ix2 r e) * ·) (transpose_ix2_apply _ transposes_S512x16_p1_0_S16x512 e t)

/-- The new running maximum: the old one against the tile's row maximum. -/
theorem pay11_apply (q : Vec Ideal S2048x16 .f32) (k : Vec Ideal S512x16 .f32) (m : Vec Ideal S2048x1 .f32)
    (r : Fin 2048) (u : Fin 1) :
    k0_pay11 (F := Ideal) q k m (ix2 r u)
      = max (m (ix2 r u)) ((Finset.univ : Finset (Fin 512)).fold max (Ideal.ofBits .f32 0xFF800000#32)
          (fun t => k0_pay10 (F := Ideal) q k (ix2 r t))) := by
  unfold k0_pay11
  dsimp only
  rw [maximumf_apply, shapeCast_a_a1_apply]
  exact congrArg (max (m (ix2 r u))) (rowMax_apply _ _ _ _ _ r)

/-- The rescaling factor. -/
theorem pay12_apply (q : Vec Ideal S2048x16 .f32) (k : Vec Ideal S512x16 .f32) (m m' : Vec Ideal S2048x1 .f32)
    (i : S2048x1.Idx) :
    k0_pay12 (F := Ideal) q k m m' i = Ideal.exp (m' i - k0_pay11 (F := Ideal) q k m i) := rfl

/-- The tile's exponentials. -/
theorem pay13_apply (q : Vec Ideal S2048x16 .f32) (k : Vec Ideal S512x16 .f32) (m : Vec Ideal S2048x1 .f32)
    (r : Fin 2048) (t : Fin 512) :
    k0_pay13 (F := Ideal) q k m (ix2 r t)
      = Ideal.exp (k0_pay10 (F := Ideal) q k (ix2 r t) - k0_pay11 (F := Ideal) q k m (ix2 r (0 : Fin 1))) := by
  unfold k0_pay13
  show Ideal.exp (k0_pay10 (F := Ideal) q k (ix2 r t)
    - broadcastTo S2048x512 (k0_pay11 (F := Ideal) q k m) broadcasts_S2048x1_S2048x512 (ix2 r t)) = _
  rw [broadcastTo_a1_ab_apply]

/-- The new running denominator. -/
theorem pay14_apply (q : Vec Ideal S2048x16 .f32) (k : Vec Ideal S512x16 .f32) (m m' l : Vec Ideal S2048x1 .f32)
    (r : Fin 2048) (u : Fin 1) :
    k0_pay14 (F := Ideal) q k m m' l (ix2 r u)
      = k0_pay12 (F := Ideal) q k m m' (ix2 r u) * l (ix2 r u) + ∑ t : Fin 512, k0_pay13 (F := Ideal) q k m (ix2 r t) := by
  unfold k0_pay14
  dsimp only
  rw [shapeCast_self, addf_apply, mulf_apply, shapeCast_a_a1_apply]
  exact congrArg (k0_pay12 (F := Ideal) q k m m' (ix2 r u) * l (ix2 r u) + ·) (rowSum_apply _ _ _ _ r)

/-- The new running numerator. -/
theorem pay1_apply (v12 : FVec Ideal S512x164 .bf16) (v23 : FVec Ideal S2048x1 .f32) (v35 : FVec Ideal S2048x512 .bf16)
    (v36 : Vec Ideal S2048x164 .f32) (r : Fin 2048) (c : Fin 164) :
    k0_pay1 (F := Ideal) v12 v23 v35 v36 (ix2 r c)
      = v23 (ix2 r (0 : Fin 1)) * v36 (ix2 r c) + ∑ t : Fin 512, v35 (ix2 r t) * v12 (ix2 t c) := by
  unfold k0_pay1
  rw [shapeCast_self, addf_apply, mulf_apply, broadcastTo_a1_ab_apply]
  rw [show dot_S2048x512_S512x164_S2048x164_1_0_0_1_n_n = DotDims.plain 2048 512 164 from rfl,
    Cert.DotPlain.matmul_zero_apply]

/-- The quotient written at the last tile. -/
theorem pay3_apply (acc : Vec Ideal S2048x164 .f32) (l : Vec Ideal S2048x1 .f32) (r : Fin 2048) (c : Fin 164) :
    k0_pay3 (F := Ideal) acc l (ix3 (0 : Fin 1) r c) = Ideal.div (acc (ix2 r c)) (l (ix2 r (0 : Fin 1))) := by
  unfold k0_pay3
  refine (shapeCast_ab_1ab_apply _ shapeCasts_S2048x164_S1x2048x164 0 r c).trans ?_
  rw [divf_apply, broadcastTo_a1_ab_apply]

/-- The stored running maximum is the new running maximum. -/
theorem pay2_eq (v : FVec Ideal S2048x1 .f32) : k0_pay2 (F := Ideal) v = v := by
  unfold k0_pay2
  exact shapeCast_self v _

/-- What the reset leaves. -/
theorem reset_max_apply (i : S2048x1.Idx) : k0_pay6 (F := Ideal) (k0_pay5 (F := Ideal)) i = Cert.Spec.cneg := by
  unfold k0_pay6 k0_pay5
  dsimp only
  rw [shapeCast_self]
  rfl

theorem reset_den_apply (i : S2048x1.Idx) : k0_pay7 (F := Ideal) i = 0 := by
  unfold k0_pay7
  rw [shapeCast_self]
  exact Ideal.ofBits_zero_f32

theorem reset_num_apply (i : S2048x164.Idx) : k0_pay8 (F := Ideal) i = 0 := by
  unfold k0_pay8
  rw [shapeCast_self]
  exact Ideal.ofBits_zero_f32

/-! ### One tile, row by row -/

/-- The running maximum after a tile. -/
theorem tileStep_max (q : Vec Ideal S2048x16 .f32) (k : Vec Ideal S512x16 .f32) (v : Vec Ideal S512x164 .f32)
    (s : St Ideal) : (tileStep q k v s).1 = k0_pay11 (F := Ideal) q k s.1 := by
  show k0_pay2 (F := Ideal) (k0_pay11 (F := Ideal) q k s.1) = _
  exact pay2_eq _

/-- The running denominator after a tile, at row `r`. -/
theorem tileStep_den (q : Vec Ideal S2048x16 .f32) (k : Vec Ideal S512x16 .f32) (v : Vec Ideal S512x164 .f32)
    (s : St Ideal) (r : Fin 2048) :
    (tileStep q k v s).2.1 (ix2 r (0 : Fin 1))
      = Ideal.exp (s.1 (ix2 r (0 : Fin 1)) - k0_pay11 (F := Ideal) q k s.1 (ix2 r (0 : Fin 1))) * s.2.1 (ix2 r (0 : Fin 1))
        + ∑ t : Fin 512, Ideal.exp (k0_pay10 (F := Ideal) q k (ix2 r t) - k0_pay11 (F := Ideal) q k s.1 (ix2 r (0 : Fin 1))) := by
  show k0_pay14 (F := Ideal) q k s.1 s.1 s.2.1 (ix2 r (0 : Fin 1)) = _
  rw [pay14_apply, pay12_apply]
  exact congrArg (_ + ·) (Finset.sum_congr rfl fun t _ => pay13_apply q k s.1 r t)

/-- The running numerator after a tile, at row `r`, channel `c`. -/
theorem tileStep_num (q : Vec Ideal S2048x16 .f32) (k : Vec Ideal S512x16 .f32) (v : Vec Ideal S512x164 .f32)
    (s : St Ideal) (r : Fin 2048) (c : Fin 164) :
    (tileStep q k v s).2.2 (ix2 r c)
      = Ideal.exp (s.1 (ix2 r (0 : Fin 1)) - k0_pay11 (F := Ideal) q k s.1 (ix2 r (0 : Fin 1))) * s.2.2 (ix2 r c)
        + ∑ t : Fin 512, Ideal.exp (k0_pay10 (F := Ideal) q k (ix2 r t) - k0_pay11 (F := Ideal) q k s.1 (ix2 r (0 : Fin 1)))
            * v (ix2 t c) := by
  show k0_pay1 (F := Ideal) (k0_pay9 v) (k0_pay12 q k s.1 s.1) (k0_pay15 q k s.1) s.2.2 (ix2 r c) = _
  rw [pay1_apply, pay12_apply]
  refine congrArg (_ + ·) (Finset.sum_congr rfl fun t _ => ?_)
  exact congrArg (· * v (ix2 t c)) (pay13_apply q k s.1 r t)

/-! ### The tiles of a batch -/

section Batch
variable (p : Vec Ideal S2048x196 .f32)
  (hs : Fin 8 → Fin 2048 → Fin 768 → EReal) (sc bi : Fin 164 → EReal)
  (w : Fin 196 → Fin 164 → EReal) (qb : Fin 196 → EReal) (b : Fin 8)

/-- The state before tile `j`. -/
def stBefore : ℕ → St Ideal
  | 0 => stReset
  | j + 1 => stAfter p j

theorem stAfter_eq (j : ℕ) : stAfter p j = tileStep (subQ p) (subK j p) (subV j p) (stBefore p j) := by
  cases j <;> rfl

/-- The running maxima of row `r`: the shifts of the recurrence. -/
def mrOf (r : Fin 2048) (j : ℕ) : EReal := (stBefore p j).1 (ix2 r (0 : Fin 1))

theorem mrOf_succ (r : Fin 2048) (j : ℕ) :
    mrOf p r (j + 1) = k0_pay11 (F := Ideal) (subQ p) (subK j p) (stBefore p j).1 (ix2 r (0 : Fin 1)) := by
  show (stAfter p j).1 (ix2 r (0 : Fin 1)) = _
  rw [stAfter_eq, tileStep_max]

/-- A tile's scaled scores are the scores against the tile's keys. -/
theorem score_tile (hp : ∀ r o, p (ix2 r o) = Cert.Spec.qkv hs sc bi w qb b r o) (j : ℕ) (r : Fin 2048) (t : Fin 512) :
    k0_pay10 (F := Ideal) (subQ p) (subK j p) (ix2 r t) = Cert.Spec.score hs sc bi w qb b r (Cert.Spec.key j t) := by
  rw [pay10_apply]
  refine congrArg₂ (· * ·) (Finset.sum_congr rfl fun e _ => ?_) rfl
  exact congrArg₂ (· * ·) (hp r ⟨e.val, by omega⟩) (hp (Cert.Spec.key j t) ⟨16 + e.val, by omega⟩)

/-- A tile's values are the values of the tile's keys. -/
theorem value_tile (hp : ∀ r o, p (ix2 r o) = Cert.Spec.qkv hs sc bi w qb b r o) (j : ℕ) (t : Fin 512) (c : Fin 164) :
    subV j p (ix2 t c) = Cert.Spec.vv hs sc bi w qb b (Cert.Spec.key j t) c :=
  hp (Cert.Spec.key j t) ⟨32 + c.val, by omega⟩

/-- Row by row, the running denominator and numerator before tile `j` are the recurrence after `j` tiles. -/
theorem before_inv (hp : ∀ r o, p (ix2 r o) = Cert.Spec.qkv hs sc bi w qb b r o) (r : Fin 2048) (j : ℕ) :
    (stBefore p j).2.1 (ix2 r (0 : Fin 1)) = Cert.Spec.lrun hs sc bi w qb (mrOf p r) b r j
    ∧ ∀ c : Fin 164, (stBefore p j).2.2 (ix2 r c) = Cert.Spec.arun hs sc bi w qb (mrOf p r) b r c j := by
  induction j with
  | zero =>
    refine ⟨?_, fun c => ?_⟩
    · rw [Cert.Spec.lrun]; exact reset_den_apply (ix2 r (0 : Fin 1))
    · rw [Cert.Spec.arun]; exact reset_num_apply (ix2 r c)
  | succ j ih =>
    refine ⟨?_, fun c => ?_⟩
    · have hL := tileStep_den (subQ p) (subK j p) (subV j p) (stBefore p j) r
      rw [← stAfter_eq] at hL
      show (stAfter p j).2.1 (ix2 r (0 : Fin 1)) = _
      rw [hL, Cert.Spec.lrun, mrOf_succ, ih.1]
      simp only [score_tile p hs sc bi w qb b hp]
      rfl
    · have hA := tileStep_num (subQ p) (subK j p) (subV j p) (stBefore p j) r c
      rw [← stAfter_eq] at hA
      show (stAfter p j).2.2 (ix2 r c) = _
      rw [hA, Cert.Spec.arun, mrOf_succ, ih.2 c]
      simp only [score_tile p hs sc bi w qb b hp, value_tile p hs sc bi w qb b hp]
      rfl

/-- The scores of a batch whose projected channels are real are real. -/
theorem score_isR_of (hreal : ∀ r o, Cert.Spec.IsR (Cert.Spec.qkv hs sc bi w qb b r o)) (r t : Fin 2048) :
    Cert.Spec.IsR (Cert.Spec.score hs sc bi w qb b r t) := by
  rw [Cert.Spec.score, Cert.Spec.cqtr_eq]
  exact (Cert.Spec.IsR.sum _ _ (fun e _ => (hreal r _).mul (hreal t _))).mul (Cert.Spec.IsR.coe _)

/-- Every running maximum is a real: the stand-in for minus infinity is, and a maximum of reals is. -/
theorem mrOf_isR (hp : ∀ r o, p (ix2 r o) = Cert.Spec.qkv hs sc bi w qb b r o)
    (hreal : ∀ r o, Cert.Spec.IsR (Cert.Spec.qkv hs sc bi w qb b r o)) (r : Fin 2048) :
    ∀ j, Cert.Spec.IsR (mrOf p r j) := by
  intro j
  induction j with
  | zero =>
    show Cert.Spec.IsR ((stReset (F := Ideal)).1 (ix2 r (0 : Fin 1)))
    rw [show (stReset (F := Ideal)).1 (ix2 r (0 : Fin 1)) = Cert.Spec.cneg from reset_max_apply (ix2 r (0 : Fin 1))]
    exact Cert.Spec.cneg_isR
  | succ j ih =>
    rw [mrOf_succ, pay11_apply, Cert.Spec.ofBits_negInf]
    refine Cert.Spec.IsR.max ih (Cert.Spec.fold_max_isR _ Finset.univ_nonempty _ (fun t _ => ?_))
    rw [score_tile p hs sc bi w qb b hp]
    exact score_isR_of hs sc bi w qb b hreal r _

/-- The quotient written at the last tile is the soft-max average, whatever real shift the soft-max is written with. -/
theorem attn_value (hp : ∀ r o, p (ix2 r o) = Cert.Spec.qkv hs sc bi w qb b r o)
    (hreal : ∀ r o, Cert.Spec.IsR (Cert.Spec.qkv hs sc bi w qb b r o))
    (M : Fin 8 → Fin 2048 → EReal) (hM : ∀ r, Cert.Spec.IsR (M b r)) (r : Fin 2048) (c : Fin 164) :
    outOf (stAfter p 3) (ix3 0 r c) = Cert.Spec.att hs sc bi w qb M b r c := by
  have hinv := before_inv p hs sc bi w qb b hp r 4
  rw [← Cert.Spec.attOnline_eq_att hs sc bi w qb M (mrOf p r) b r c (hM r) (mrOf_isR p hs sc bi w qb b hp hreal r)
    (score_isR_of hs sc bi w qb b hreal r) (fun t => hreal t _)]
  show k0_pay3 (F := Ideal) (stAfter p 3).2.2 (stAfter p 3).2.1 (ix3 (0 : Fin 1) r c) = _
  rw [pay3_apply]
  exact congrArg₂ Ideal.div (hinv.2 c) hinv.1

end Batch

/-! ### The projection -/

/-- The block's rows. -/
def lnX (v50 : Vec Ideal S1x2048x164 .f32) : FVec Ideal S2048x164 .f32 :=
  shapeCast S2048x164 v50 shapeCasts_S1x2048x164_S2048x164

theorem lnX_apply (v50 : Vec Ideal S1x2048x164 .f32) (r : Fin 2048) (d : Fin 164) :
    lnX v50 (ix2 r d) = v50 (ix3 (0 : Fin 1) r d) :=
  shapeCast_1ab_ab_apply v50 shapeCasts_S1x2048x164_S2048x164 r d

/-- The mean over the 164 channels. -/
def lnMean (x : FVec Ideal S2048x164 .f32) : FVec Ideal S2048x1 .f32 :=
  divf (shapeCast S2048x1 (multiReduction .add [1] S2048 x 0x00000000#32 reduces_S2048x164_S2048 (.inl rfl) rfl)
      shapeCasts_S2048_S2048x1)
    (broadcast S2048x1 (Scalar.ofBits .f32 0x43240000#32))

theorem lnMean_apply (x : FVec Ideal S2048x164 .f32) (r : Fin 2048) (u : Fin 1) :
    lnMean x (ix2 r u) = Ideal.div (∑ d : Fin 164, x (ix2 r d)) Cert.Spec.c164 := by
  unfold lnMean
  rw [divf_apply, broadcast_apply, shapeCast_a_a1_apply]
  exact congrArg (fun z => Ideal.div z Cert.Spec.c164) (rowSum_apply _ _ _ _ r)

/-- The centred channels. -/
def lnCen (x : FVec Ideal S2048x164 .f32) : FVec Ideal S2048x164 .f32 :=
  subf x (broadcastTo S2048x164 (lnMean x) broadcasts_S2048x1_S2048x164)

theorem lnCen_apply (x : FVec Ideal S2048x164 .f32) (r : Fin 2048) (d : Fin 164) :
    lnCen x (ix2 r d) = x (ix2 r d) - Ideal.div (∑ d' : Fin 164, x (ix2 r d')) Cert.Spec.c164 := by
  unfold lnCen
  rw [subf_apply, broadcastTo_a1_ab_apply, lnMean_apply]

/-- The variance over the 164 channels. -/
def lnVar (x : FVec Ideal S2048x164 .f32) : FVec Ideal S2048x1 .f32 :=
  divf (shapeCast S2048x1 (multiReduction .add [1] S2048 (mulf (lnCen x) (lnCen x)) 0x00000000#32 reduces_S2048x164_S2048
      (.inl rfl) rfl) shapeCasts_S2048_S2048x1)
    (broadcast S2048x1 (Scalar.ofBits .f32 0x43240000#32))

theorem lnVar_apply (x : FVec Ideal S2048x164 .f32) (r : Fin 2048) (u : Fin 1) :
    lnVar x (ix2 r u) = Ideal.div (∑ d : Fin 164, lnCen x (ix2 r d) * lnCen x (ix2 r d)) Cert.Spec.c164 := by
  unfold lnVar
  rw [divf_apply, broadcast_apply, shapeCast_a_a1_apply]
  exact congrArg (fun z => Ideal.div z Cert.Spec.c164) (rowSum_apply _ _ _ _ r)

/-- The normalised channels. -/
def lnOut (x : FVec Ideal S2048x164 .f32) (v70 v74 : Vec Ideal S164 .f32) : FVec Ideal S2048x164 .f32 :=
  addf (mulf (mulf (lnCen x) (broadcastTo S2048x164 (rsqrt (addf (lnVar x) (broadcast S2048x1 (Scalar.ofBits .f32 0x3727C5AC#32))))
        broadcasts_S2048x1_S2048x164))
      (broadcastTo S2048x164 (shapeCast S1x164 v70 shapeCasts_S164_S1x164) broadcasts_S1x164_S2048x164))
    (broadcastTo S2048x164 (shapeCast S1x164 v74 shapeCasts_S164_S1x164) broadcasts_S1x164_S2048x164)

theorem lnOut_apply (x : FVec Ideal S2048x164 .f32) (v70 v74 : Vec Ideal S164 .f32) (r : Fin 2048) (d : Fin 164) :
    lnOut x v70 v74 (ix2 r d)
      = lnCen x (ix2 r d) * Ideal.rsqrt (lnVar x (ix2 r (0 : Fin 1)) + Cert.Spec.ceps) * v70 (ix1 d) + v74 (ix1 d) := by
  unfold lnOut
  rw [addf_apply, mulf_apply, mulf_apply, broadcastTo_a1_ab_apply, broadcastTo_1b_ab_apply, broadcastTo_1b_ab_apply,
    shapeCast_a_1a_apply, shapeCast_a_1a_apply]
  rfl

/-- The projection payload as the product of the normalised channels with the transposed weight, plus the bias. -/
theorem pay4_eq (v50 : Vec Ideal S1x2048x164 .f32) (v70 v74 : Vec Ideal S164 .f32) (v79 : Vec Ideal S196x164 .f32)
    (v83 : Vec Ideal S196 .f32) :
    k0_pay4 (F := Ideal) v50 v70 v74 v79 v83
      = shapeCast S2048x196 (addf (matmul dot_S2048x164_S164x196_S2048x196_1_0_0_1_n_n none
            (truncf .bf16 (lnOut (lnX v50) v70 v74) bitsLt_bf16_f32 : FVec Ideal S2048x164 .bf16)
            (transpose S164x196 [1, 0] (truncf .bf16 v79 bitsLt_bf16_f32 : FVec Ideal S196x164 .bf16)
              transposes_S196x164_p1_0_S164x196)
            (constant S2048x196 .f32 0x00000000#32))
          (broadcastTo S2048x196 (shapeCast S1x196 v83 shapeCasts_S196_S1x196) broadcasts_S1x196_S2048x196))
        shapeCasts_S2048x196_S2048x196 := rfl

/-- A block of hidden states (one batch, the first 164 channels) as an array over all coordinates: the batch coordinate
    is ignored and the channels past the block are zero. -/
def hsOf (v50 : Vec Ideal S1x2048x164 .f32) : Fin 8 → Fin 2048 → Fin 768 → EReal :=
  fun _ r d => if h : d.val < 164 then v50 (ix3 0 r ⟨d.val, h⟩) else 0

theorem hsOf_x1 (v50 : Vec Ideal S1x2048x164 .f32) (b : Fin 8) (r : Fin 2048) (d : Fin 164) :
    Cert.Spec.x1 (hsOf v50) b r d = v50 (ix3 (0 : Fin 1) r d) := by
  unfold Cert.Spec.x1 hsOf
  exact dif_pos d.isLt

/-- The projection payload at row `r`, projected channel `o`. -/
theorem proj_apply (v50 : Vec Ideal S1x2048x164 .f32) (v70 v74 : Vec Ideal S164 .f32) (v79 : Vec Ideal S196x164 .f32)
    (v83 : Vec Ideal S196 .f32) (b : Fin 8) (r : Fin 2048) (o : Fin 196) :
    k0_pay4 (F := Ideal) v50 v70 v74 v79 v83 (ix2 r o)
      = Cert.Spec.qkv (hsOf v50) (Cert.Spec.cur1 v70) (Cert.Spec.cur1 v74) (Cert.Spec.cur2 v79) (Cert.Spec.cur1 v83) b r o := by
  rw [pay4_eq, shapeCast_self, addf_apply,
    show dot_S2048x164_S164x196_S2048x196_1_0_0_1_n_n = DotDims.plain 2048 164 196 from rfl,
    Cert.DotPlain.matmul_zero_apply, broadcastTo_1b_ab_apply, shapeCast_a_1a_apply]
  unfold Cert.Spec.qkv
  refine congrArg₂ (· + ·) (Finset.sum_congr rfl fun d _ => congrArg₂ (· * ·) ?_ ?_) rfl
  · show lnOut (lnX v50) v70 v74 (ix2 r d) = _
    rw [lnOut_apply, lnVar_apply]
    simp only [lnCen_apply, lnX_apply]
    unfold Cert.Spec.xn Cert.Spec.var Cert.Spec.mean
    simp only [hsOf_x1]
    rfl
  · exact transpose_ix2_apply _ transposes_S196x164_p1_0_S164x196 d o

/-! ### The specification reads the hidden states of one batch, and of them the first 164 channels -/

section Congr
variable (hs hs' : Fin 8 → Fin 2048 → Fin 768 → EReal) (sc bi : Fin 164 → EReal)
  (w : Fin 196 → Fin 164 → EReal) (qb : Fin 196 → EReal) (b b' : Fin 8)

theorem qkv_congr (h : ∀ r (d : Fin 164), hs b r ⟨d.val, by omega⟩ = hs' b' r ⟨d.val, by omega⟩) (r : Fin 2048) (o : Fin 196) :
    Cert.Spec.qkv hs sc bi w qb b r o = Cert.Spec.qkv hs' sc bi w qb b' r o := by
  have hx : ∀ d, Cert.Spec.x1 hs b r d = Cert.Spec.x1 hs' b' r d := fun d => h r d
  unfold Cert.Spec.qkv Cert.Spec.xn Cert.Spec.var Cert.Spec.mean
  simp only [hx]

theorem att_congr (M M' : Fin 8 → Fin 2048 → EReal)
    (h : ∀ r (d : Fin 164), hs b r ⟨d.val, by omega⟩ = hs' b' r ⟨d.val, by omega⟩) (hM : ∀ r, M b r = M' b' r)
    (r : Fin 2048) (c : Fin 164) :
    Cert.Spec.att hs sc bi w qb M b r c = Cert.Spec.att hs' sc bi w qb M' b' r c := by
  have hq : ∀ r o, Cert.Spec.qkv hs sc bi w qb b r o = Cert.Spec.qkv hs' sc bi w qb b' r o :=
    qkv_congr hs hs' sc bi w qb b b' h
  unfold Cert.Spec.att Cert.Spec.score Cert.Spec.vv Cert.Spec.qq Cert.Spec.kk
  simp only [hq, hM]

end Congr

end Cert.KernelIdeal.Hand

end
-- ==== Proof.KernelValue.lean ====
/-
  The kernel program's result array at the ideal values is the specification: the out-projection call finds the
  attended channels the attention call left, batch by batch the quotient written at the batch's last tile, which is
  the soft-max average of the batch's values; the two partial sums of the out-projection are the one sum over the
  joined channels.
-/
import proofs.«105017_j18133351924335_2_alg».proof.Proof.Run
import proofs.«105017_j18133351924335_2_alg».proof.Proof.Arrays
import proofs.«105017_j18133351924335_2_alg».proof.Proof.AttnData
import proofs.«105017_j18133351924335_2_alg».proof.Proof.AttnFrame
import proofs.«105017_j18133351924335_2_alg».proof.Proof.AttnValue
import proofs.«105017_j18133351924335_2_alg».proof.Proof.SoftmaxLaw
import proofs.«105017_j18133351924335_2_alg».proof.Proof.SpecReal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)

/-! ### The blocks the attention call reads -/

/-- The input windows' block indices at point t: the hidden states move with the batch t / 4; the four parameter
    arrays are whole at every point. -/
theorem idx_facts0_in : ∀ t : Fin cfg0.N,
    win0_0.index t (0 : Fin 3) = t.val / 4 ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

section Blocks
variable (V : (c : Dev nD) → (b : Ref sig .tc) → Buf (Elt Ideal) ((c : Thread nD τ).loc b))

theorem blk0_1 (c : Dev nD) (t : Fin cfg0.N) (d : Fin 164) : iblk0 V c 1 t (ix1 d) = V c main_arg1 (ix1 d) := by
  obtain ⟨-, -, -, e1, -, -, -, -⟩ := idx_facts0_in t
  show V c main_arg1 (((cfg0.win 1).blk t).view.emb (ix1 d)) = _
  refine congrArg (V c main_arg1) (funext fun a => Fin.ext ?_)
  match a with
  | ⟨0, _⟩ => show win0_1.index t (0 : Fin 1) * 164 + 1 * d.val = d.val; omega

theorem blk0_2 (c : Dev nD) (t : Fin cfg0.N) (d : Fin 164) : iblk0 V c 2 t (ix1 d) = V c main_arg2 (ix1 d) := by
  obtain ⟨-, -, -, -, e2, -, -, -⟩ := idx_facts0_in t
  show V c main_arg2 (((cfg0.win 2).blk t).view.emb (ix1 d)) = _
  refine congrArg (V c main_arg2) (funext fun a => Fin.ext ?_)
  match a with
  | ⟨0, _⟩ => show win0_2.index t (0 : Fin 1) * 164 + 1 * d.val = d.val; omega

theorem blk0_3 (c : Dev nD) (t : Fin cfg0.N) (o : Fin 196) (d : Fin 164) :
    iblk0 V c 3 t (ix2 o d) = V c main_arg3 (ix2 o d) := by
  obtain ⟨-, -, -, -, -, e30, e31, -⟩ := idx_facts0_in t
  show V c main_arg3 (((cfg0.win 3).blk t).view.emb (ix2 o d)) = _
  refine congrArg (V c main_arg3) (funext fun a => Fin.ext ?_)
  match a with
  | ⟨0, _⟩ => show win0_3.index t (0 : Fin 2) * 196 + 1 * o.val = o.val; omega
  | ⟨1, _⟩ => show win0_3.index t (1 : Fin 2) * 164 + 1 * d.val = d.val; omega

theorem blk0_4 (c : Dev nD) (t : Fin cfg0.N) (o : Fin 196) : iblk0 V c 4 t (ix1 o) = V c main_arg4 (ix1 o) := by
  obtain ⟨-, -, -, -, -, -, -, e4⟩ := idx_facts0_in t
  show V c main_arg4 (((cfg0.win 4).blk t).view.emb (ix1 o)) = _
  refine congrArg (V c main_arg4) (funext fun a => Fin.ext ?_)
  match a with
  | ⟨0, _⟩ => show win0_4.index t (0 : Fin 1) * 196 + 1 * o.val = o.val; omega

/-- The first 164 channels of the hidden-state block at point t are those of batch t / 4. -/
theorem blk0_0 (c : Dev nD) (t : Fin cfg0.N) (b : Fin 8) (hb : t.val / 4 = b.val) (r : Fin 2048) (d : Fin 164) :
    View.ld (iblk0 V c 0 t) rIn (ix3 (0 : Fin 1) r d) = V c main_arg0 (ix3 b r ⟨d.val, by omega⟩) := by
  obtain ⟨e0, e1, e2, -⟩ := idx_facts0_in t
  show V c main_arg0 (((cfg0.win 0).blk t).view.emb (rIn.emb (ix3 (0 : Fin 1) r d))) = _
  refine congrArg (V c main_arg0) (funext fun a => Fin.ext ?_)
  match a with
  | ⟨0, _⟩ => show win0_0.index t (0 : Fin 3) * 1 + 1 * (0 + 1 * 0) = b.val; omega
  | ⟨1, _⟩ => show win0_0.index t (1 : Fin 3) * 2048 + 1 * (0 + 1 * r.val) = r.val; omega
  | ⟨2, _⟩ => show win0_0.index t (2 : Fin 3) * 256 + 1 * (0 + 1 * d.val) = d.val; omega

end Blocks

section Value
variable (V : (c : Dev nD) → (b : Ref sig .tc) → Buf (Elt Ideal) ((c : Thread nD τ).loc b))

/-- The projected channels computed at a point of batch b are the specification's, of the arrays the call finds. -/
theorem projAt_apply (c : Dev nD) (t : Fin cfg0.N) (b : Fin 8) (hb : t.val / 4 = b.val) (r : Fin 2048) (o : Fin 196) :
    projAt V c t (ix2 r o)
      = Cert.Spec.qkv (Cert.Spec.cur3 (V c main_arg0)) (Cert.Spec.cur1 (V c main_arg1)) (Cert.Spec.cur1 (V c main_arg2))
          (Cert.Spec.cur2 (V c main_arg3)) (Cert.Spec.cur1 (V c main_arg4)) b r o := by
  unfold projAt
  rw [proj_apply _ _ _ _ _ b r o]
  have e1 : Cert.Spec.cur1 (n := 164) (iblk0 V c 1 t) = Cert.Spec.cur1 (V c main_arg1) := funext fun d => blk0_1 V c t d
  have e2 : Cert.Spec.cur1 (n := 164) (iblk0 V c 2 t) = Cert.Spec.cur1 (V c main_arg2) := funext fun d => blk0_2 V c t d
  have e3 : Cert.Spec.cur2 (n0 := 196) (n1 := 164) (iblk0 V c 3 t) = Cert.Spec.cur2 (V c main_arg3) :=
    funext fun o => funext fun d => blk0_3 V c t o d
  have e4 : Cert.Spec.cur1 (n := 196) (iblk0 V c 4 t) = Cert.Spec.cur1 (V c main_arg4) := funext fun o => blk0_4 V c t o
  rw [e1, e2, e3, e4]
  exact qkv_congr _ _ _ _ _ _ b b (fun r d => (hsOf_x1 _ b r d).trans (blk0_0 V c t b hb r d)) r o

end Value

/-! ### The result array -/

section Result
variable (m : (ℓ : Loc nD τ sig) → Buf (Elt Ideal) ℓ) (ρ : Dev nD → PrngReg) (c : Dev nD)

/-- The attended channels the out-projection call finds are the soft-max averages of the specification. -/
theorem attended_eq
    (h0 : ∀ i, Cert.Spec.IsR (m ((c.tc : Thread nD τ).loc main_arg0) i))
    (h1 : ∀ i, Cert.Spec.IsR (m ((c.tc : Thread nD τ).loc main_arg1) i))
    (h2 : ∀ i, Cert.Spec.IsR (m ((c.tc : Thread nD τ).loc main_arg2) i))
    (h3 : ∀ i, Cert.Spec.IsR (m ((c.tc : Thread nD τ).loc main_arg3) i))
    (h4 : ∀ i, Cert.Spec.IsR (m ((c.tc : Thread nD τ).loc main_arg4) i))
    (M : Fin 8 → Fin 2048 → EReal) (hM : ∀ b r, Cert.Spec.IsR (M b r)) (b : Fin 8) (r : Fin 2048) (ch : Fin 164) :
    Cert.Spec.cur3 (V1 m ρ c main_v0) b r ch
      = Cert.Spec.att (Cert.Spec.cur3 (m ((c.tc : Thread nD τ).loc main_arg0))) (Cert.Spec.cur1 (m ((c.tc : Thread nD τ).loc main_arg1)))
          (Cert.Spec.cur1 (m ((c.tc : Thread nD τ).loc main_arg2))) (Cert.Spec.cur2 (m ((c.tc : Thread nD τ).loc main_arg3)))
          (Cert.Spec.cur1 (m ((c.tc : Thread nD τ).loc main_arg4))) M b r ch := by
  have hN : cfg0.N = 32 := N_0
  have hlt : 4 * b.val + 3 < cfg0.N := by omega
  have hlt' : 4 * b.val < cfg0.N := by omega
  have hst : stN (V0 m ρ) c (4 * b.val + 3) hlt = stAfter (projAt (V0 m ρ) c ⟨4 * b.val, hlt'⟩) 3 := by
    unfold stN projN
    have h3 : (4 * b.val + 3) % 4 = 3 := by omega
    have ht : t0 (4 * b.val + 3) hlt = (⟨4 * b.val, hlt'⟩ : Fin cfg0.N) :=
      Fin.ext (by show 4 * ((4 * b.val + 3) / 4) = 4 * b.val; omega)
    rw [h3, ht]
  show V1 m ρ c main_v0 (ix3 b r ch) = _
  rw [V1_main_v0, arrAt0_5, after0_5]
  show outOf (stN (V0 m ρ) c (4 * b.val + 3) hlt) (ix3 0 r ch) = _
  rw [hst]
  exact attn_value (projAt (V0 m ρ) c ⟨4 * b.val, hlt'⟩) _ _ _ _ _ b
    (fun r o => projAt_apply (V0 m ρ) c ⟨4 * b.val, hlt'⟩ b (by show 4 * b.val / 4 = b.val; omega) r o)
    (fun r o => Cert.Spec.qkv_isR _ _ _ _ _ (fun b r d => h0 _) (fun d => h1 _) (fun d => h2 _) (fun o d => h3 _) (fun o => h4 _) b r o)
    M (hM b) r ch

/-- The kernel program's result array, entry by entry, is the specification of the launch arrays, whatever real
    shifts the soft-max is written with. -/
theorem kernel_value
    (h0 : ∀ i, Cert.Spec.IsR (m ((c.tc : Thread nD τ).loc main_arg0) i))
    (h1 : ∀ i, Cert.Spec.IsR (m ((c.tc : Thread nD τ).loc main_arg1) i))
    (h2 : ∀ i, Cert.Spec.IsR (m ((c.tc : Thread nD τ).loc main_arg2) i))
    (h3 : ∀ i, Cert.Spec.IsR (m ((c.tc : Thread nD τ).loc main_arg3) i))
    (h4 : ∀ i, Cert.Spec.IsR (m ((c.tc : Thread nD τ).loc main_arg4) i))
    (M : Fin 8 → Fin 2048 → EReal) (hM : ∀ b r, Cert.Spec.IsR (M b r)) (b : Fin 8) (r : Fin 2048) (o : Fin 768) :
    (dat1 (F := Ideal) (V1 m ρ) c).arrAt 4 cfg1.N (ix3 b r o)
      = Cert.Spec.out (Cert.Spec.cur3 (m ((c.tc : Thread nD τ).loc main_arg0))) (Cert.Spec.cur1 (m ((c.tc : Thread nD τ).loc main_arg1)))
          (Cert.Spec.cur1 (m ((c.tc : Thread nD τ).loc main_arg2))) (Cert.Spec.cur2 (m ((c.tc : Thread nD τ).loc main_arg3)))
          (Cert.Spec.cur1 (m ((c.tc : Thread nD τ).loc main_arg4))) (Cert.Spec.cur2 (m ((c.tc : Thread nD τ).loc main_arg5)))
          (Cert.Spec.cur1 (m ((c.tc : Thread nD τ).loc main_arg6))) M b r o := by
  rw [final1 (V1 m ρ) c b r o, V1_main_arg0, V1_main_arg5, V1_main_arg6, ← Cert.Spec.outSplit_eq_out]
  unfold Cert.Spec.outSplit
  refine congrArg (· + _) (congrArg (· + _) (Finset.sum_congr rfl fun d _ => congrArg (· * _) ?_))
  exact attended_eq m ρ c h0 h1 h2 h3 h4 M hM b r d

end Result

end Cert.KernelIdeal.Hand

end
-- ==== Proof.RefValue.lean ====
/-
  The reference program's result, read index by index, is the specification's `out` with the soft-max shifted by the
  row maximum the reference computes.

  Each stage of the reference is read at an index built from plain coordinates and identified with the specification's
  function of the same name: the normalised channels, the projection, the scores, the soft-max weights, the attended
  values, the joined channels, the result.  The row maximum enters only as the shift `refM`, whose value does not
  matter for these identities; separately it is shown to be a real number when the scores of the row are.
-/
import proofs.«105017_j18133351924335_2_alg».proof.Proof.RefReadP
import proofs.«105017_j18133351924335_2_alg».proof.Proof.Spec
import proofs.«105017_j18133351924335_2_alg».proof.Proof.Cur
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.ReadP Idealize.ShloMosaic Idealize.ShloMosaic.TcCoe Idealize.SL.Sem
  Idealize.ShloMosaic.StableHlo Cert.Spec

variable (x0 : (⟨S8x2048x768, .f32⟩ : BufTy).Contents (Elt Ideal)) (x1 x2 : (⟨S164, .f32⟩ : BufTy).Contents (Elt Ideal))
  (x3 : (⟨S196x164, .f32⟩ : BufTy).Contents (Elt Ideal)) (x4 : (⟨S196, .f32⟩ : BufTy).Contents (Elt Ideal))
  (x5 : (⟨S768x768, .f32⟩ : BufTy).Contents (Elt Ideal)) (x6 : (⟨S768, .f32⟩ : BufTy).Contents (Elt Ideal))

/-- Two indices with the same coordinates are equal: rank 3, 2 and 1. -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

/-! ### The normalised channels -/

theorem v0_at (b : Fin 8) (r : Fin 2048) (d : Fin 164) :
    val_main_v0 (F := Ideal) x0 (ValueIdx.ix3 b r d) = Spec.x1 (cur3 x0) b r d := by
  rw [val_main_v0_apply]
  exact congrArg x0 (by idx3)

theorem v2_at (b : Fin 8) (r : Fin 2048) :
    val_main_v2 (F := Ideal) x0 (ValueIdx.ix2 b r) = ∑ d : Fin 164, Spec.x1 (cur3 x0) b r d := by
  rw [val_main_v2_apply, val_main_cst_apply, Ideal.ofBits_def, Ideal.ofBits_zero_f32, zero_add]
  refine Finset.sum_congr rfl fun k _ => ?_
  rw [show idx_main_v2 (ValueIdx.ix2 b r) k = ValueIdx.ix3 b r k from by idx3]
  exact v0_at x0 b r k

theorem v5_at (b : Fin 8) (r : Fin 2048) (z : Fin 1) :
    val_main_v5 (F := Ideal) x0 (ValueIdx.ix3 b r z) = Spec.mean (cur3 x0) b r := by
  rw [val_main_v5_apply, val_main_v3_apply, val_main_v4_apply, val_main_cst_0_apply,
    show idx_main_v3 (ValueIdx.ix3 b r z) = ValueIdx.ix2 b r from by idx2, v2_at]
  rfl

theorem v7_at (b : Fin 8) (r : Fin 2048) (d : Fin 164) :
    val_main_v7 (F := Ideal) x0 (ValueIdx.ix3 b r d) = Spec.x1 (cur3 x0) b r d - Spec.mean (cur3 x0) b r := by
  rw [val_main_v7_apply, val_main_v6_apply,
    show idx_main_v6 (ValueIdx.ix3 b r d) = ValueIdx.ix3 b r (0 : Fin 1) from by idx3, v5_at, v0_at]
  rfl

theorem v14_at (b : Fin 8) (r : Fin 2048) (d : Fin 164) :
    val_main_v14 (F := Ideal) x0 (ValueIdx.ix3 b r d) = Spec.x1 (cur3 x0) b r d - Spec.mean (cur3 x0) b r := by
  rw [val_main_v14_apply, val_main_v13_apply,
    show idx_main_v13 (ValueIdx.ix3 b r d) = ValueIdx.ix3 b r (0 : Fin 1) from by idx3, v5_at, v0_at]
  rfl

theorem v9_at (b : Fin 8) (r : Fin 2048) :
    val_main_v9 (F := Ideal) x0 (ValueIdx.ix2 b r)
      = ∑ d : Fin 164, (Spec.x1 (cur3 x0) b r d - Spec.mean (cur3 x0) b r) * (Spec.x1 (cur3 x0) b r d - Spec.mean (cur3 x0) b r) := by
  rw [val_main_v9_apply, val_main_cst_1_apply, Ideal.ofBits_def, Ideal.ofBits_zero_f32, zero_add]
  refine Finset.sum_congr rfl fun k _ => ?_
  rw [show idx_main_v9 (ValueIdx.ix2 b r) k = ValueIdx.ix3 b r k from by idx3, val_main_v8_apply, v7_at]
  rfl

theorem v12_at (b : Fin 8) (r : Fin 2048) (z : Fin 1) :
    val_main_v12 (F := Ideal) x0 (ValueIdx.ix3 b r z) = Spec.var (cur3 x0) b r := by
  rw [val_main_v12_apply, val_main_v10_apply, val_main_v11_apply, val_main_cst_2_apply,
    show idx_main_v10 (ValueIdx.ix3 b r z) = ValueIdx.ix2 b r from by idx2, v9_at]
  rfl

theorem v17_at (b : Fin 8) (r : Fin 2048) (z : Fin 1) :
    val_main_v17 (F := Ideal) x0 (ValueIdx.ix3 b r z) = Ideal.rsqrt (Spec.var (cur3 x0) b r + Spec.ceps) := by
  rw [val_main_v17_apply, val_main_v16_apply, v12_at, val_main_v15_apply, val_main_cst_3_apply]
  rfl

theorem v25_at (b : Fin 8) (r : Fin 2048) (d : Fin 164) :
    val_main_v25 (F := Ideal) x0 x1 x2 (ValueIdx.ix3 b r d) = Spec.xn (cur3 x0) (cur1 x1) (cur1 x2) b r d := by
  rw [val_main_v25_apply, val_main_v22_apply, val_main_v19_apply, v14_at, val_main_v18_apply,
    show idx_main_v18 (ValueIdx.ix3 b r d) = ValueIdx.ix3 b r (0 : Fin 1) from by idx3, v17_at,
    val_main_v21_apply, val_main_v20_apply, val_main_v24_apply, val_main_v23_apply,
    show idx_main_v20 (idx_main_v21 (ValueIdx.ix3 b r d)) = ValueIdx.ix1 d from by idx1,
    show idx_main_v23 (idx_main_v24 (ValueIdx.ix3 b r d)) = ValueIdx.ix1 d from by idx1]
  rfl

/-! ### The projection to query, key and value channels, and the scores -/

theorem v29_at (b : Fin 8) (r : Fin 2048) (o : Fin 196) :
    val_main_v29 (F := Ideal) x0 x1 x2 x3 x4 (ValueIdx.ix3 b r o)
      = Spec.qkv (cur3 x0) (cur1 x1) (cur1 x2) (cur2 x3) (cur1 x4) b r o := by
  rw [val_main_v29_apply, val_main_v26_apply, val_main_v28_apply, val_main_v27_apply,
    show idx_main_v27 (idx_main_v28 (ValueIdx.ix3 b r o)) = ValueIdx.ix1 o from by idx1]
  refine congrArg (· + x4 (ValueIdx.ix1 o)) (Finset.sum_congr rfl fun k _ => ?_)
  rw [show lidx_main_v26 (ValueIdx.ix3 b r o) k = ValueIdx.ix3 b r k from by idx3,
    show ridx_main_v26 (ValueIdx.ix3 b r o) k = ValueIdx.ix2 o k from by idx2, v25_at]
  rfl

theorem v30_at (b : Fin 8) (r : Fin 2048) (e : Fin 16) :
    val_main_v30 (F := Ideal) x0 x1 x2 x3 x4 (ValueIdx.ix3 b r e)
      = Spec.qq (cur3 x0) (cur1 x1) (cur1 x2) (cur2 x3) (cur1 x4) b r e := by
  rw [val_main_v30_apply,
    show idx_main_v30 (ValueIdx.ix3 b r e) = ValueIdx.ix3 b r (⟨e.val, by omega⟩ : Fin 196) from by idx3, v29_at]
  rfl

theorem v31_at (b : Fin 8) (r : Fin 2048) (e : Fin 16) :
    val_main_v31 (F := Ideal) x0 x1 x2 x3 x4 (ValueIdx.ix3 b r e)
      = Spec.kk (cur3 x0) (cur1 x1) (cur1 x2) (cur2 x3) (cur1 x4) b r e := by
  rw [val_main_v31_apply,
    show idx_main_v31 (ValueIdx.ix3 b r e) = ValueIdx.ix3 b r (⟨16 + e.val, by omega⟩ : Fin 196) from by idx3, v29_at]
  rfl

theorem v32_at (b : Fin 8) (r : Fin 2048) (c : Fin 164) :
    val_main_v32 (F := Ideal) x0 x1 x2 x3 x4 (ValueIdx.ix3 b r c)
      = Spec.vv (cur3 x0) (cur1 x1) (cur1 x2) (cur2 x3) (cur1 x4) b r c := by
  rw [val_main_v32_apply,
    show idx_main_v32 (ValueIdx.ix3 b r c) = ValueIdx.ix3 b r (⟨32 + c.val, by omega⟩ : Fin 196) from by idx3, v29_at]
  rfl

theorem v35_at (b : Fin 8) (r t : Fin 2048) :
    val_main_v35 (F := Ideal) x0 x1 x2 x3 x4 (ValueIdx.ix3 b r t)
      = Spec.score (cur3 x0) (cur1 x1) (cur1 x2) (cur2 x3) (cur1 x4) b r t := by
  rw [val_main_v35_apply, val_main_v33_apply, val_main_v34_apply, val_main_cst_4_apply]
  refine congrArg (· * Ideal.ofBits .f32 0x3E800000#32) (Finset.sum_congr rfl fun k _ => ?_)
  rw [show lidx_main_v33 (ValueIdx.ix3 b r t) k = ValueIdx.ix3 b r k from by idx3,
    show ridx_main_v33 (ValueIdx.ix3 b r t) k = ValueIdx.ix3 b t k from by idx3, v30_at, v31_at]

/-! ### The soft-max and the attended values -/

/-- The reference's soft-max shift at `(b, r)`: the larger of minus infinity and the row's maximum score. -/
def refM (b : Fin 8) (r : Fin 2048) : EReal := val_main_v38 (F := Ideal) x0 x1 x2 x3 x4 (ValueIdx.ix2 b r)

theorem v42_at (b : Fin 8) (r t : Fin 2048) :
    val_main_v42 (F := Ideal) x0 x1 x2 x3 x4 (ValueIdx.ix3 b r t)
      = Ideal.exp (Spec.score (cur3 x0) (cur1 x1) (cur1 x2) (cur2 x3) (cur1 x4) b r t - refM x0 x1 x2 x3 x4 b r) := by
  rw [val_main_v42_apply, val_main_v41_apply, v35_at, val_main_v40_apply, val_main_v39_apply,
    show idx_main_v39 (idx_main_v40 (ValueIdx.ix3 b r t)) = ValueIdx.ix2 b r from by idx2]
  rfl

theorem v43_at (b : Fin 8) (r : Fin 2048) :
    val_main_v43 (F := Ideal) x0 x1 x2 x3 x4 (ValueIdx.ix2 b r)
      = ∑ t : Fin 2048, Ideal.exp (Spec.score (cur3 x0) (cur1 x1) (cur1 x2) (cur2 x3) (cur1 x4) b r t - refM x0 x1 x2 x3 x4 b r) := by
  rw [val_main_v43_apply, val_main_cst_7_apply, Ideal.ofBits_def, Ideal.ofBits_zero_f32, zero_add]
  refine Finset.sum_congr rfl fun k _ => ?_
  rw [show idx_main_v43 (ValueIdx.ix2 b r) k = ValueIdx.ix3 b r k from by idx3, v42_at]

theorem v46_at (b : Fin 8) (r t : Fin 2048) :
    val_main_v46 (F := Ideal) x0 x1 x2 x3 x4 (ValueIdx.ix3 b r t)
      = Ideal.div (Ideal.exp (Spec.score (cur3 x0) (cur1 x1) (cur1 x2) (cur2 x3) (cur1 x4) b r t - refM x0 x1 x2 x3 x4 b r))
          (∑ t' : Fin 2048, Ideal.exp (Spec.score (cur3 x0) (cur1 x1) (cur1 x2) (cur2 x3) (cur1 x4) b r t' - refM x0 x1 x2 x3 x4 b r)) := by
  rw [val_main_v46_apply, v42_at, val_main_v45_apply, val_main_v44_apply,
    show idx_main_v44 (idx_main_v45 (ValueIdx.ix3 b r t)) = ValueIdx.ix2 b r from by idx2, v43_at]
  rfl

theorem v47_at (b : Fin 8) (r : Fin 2048) (c : Fin 164) :
    val_main_v47 (F := Ideal) x0 x1 x2 x3 x4 (ValueIdx.ix3 b r c)
      = Spec.att (cur3 x0) (cur1 x1) (cur1 x2) (cur2 x3) (cur1 x4) (refM x0 x1 x2 x3 x4) b r c := by
  rw [val_main_v47_apply]
  refine Finset.sum_congr rfl fun k _ => ?_
  rw [show lidx_main_v47 (ValueIdx.ix3 b r c) k = ValueIdx.ix3 b r k from by idx3,
    show ridx_main_v47 (ValueIdx.ix3 b r c) k = ValueIdx.ix3 b k c from by idx3, v46_at, v32_at]

/-! ### The joined channels and the result -/

theorem v48_at (b : Fin 8) (r : Fin 2048) (d : Fin 768) :
    val_main_v48 (F := Ideal) x0 x1 x2 x3 x4 (ValueIdx.ix3 b r d)
      = Spec.merged (cur3 x0) (cur1 x1) (cur1 x2) (cur2 x3) (cur1 x4) (refM x0 x1 x2 x3 x4) b r d := by
  unfold val_main_v48 Spec.merged
  by_cases h : d.val < 164
  · rw [dif_pos h]
    refine (concatenate_pair_apply_left (t := S8x2048x768) (s₁ := S8x2048x164) (s₂ := S8x2048x604) (2 : Fin 3) _ _ concatenates_S8x2048x164_S8x2048x604_S8x2048x768_d2
      (ValueIdx.ix3 b r d) rfl (ValueIdx.ix3 b r (⟨d.val, h⟩ : Fin 164)) (fun a => ?_)).trans
      (v47_at x0 x1 x2 x3 x4 b r ⟨d.val, h⟩)
    match a with | ⟨0, _⟩ => rfl | ⟨1, _⟩ => rfl | ⟨2, _⟩ => rfl
  · rw [dif_neg h]
    have h' : 164 ≤ d.val := Nat.le_of_not_lt h
    have hd : d.val < 768 := d.isLt
    refine (concatenate_pair_apply_right (t := S8x2048x768) (s₁ := S8x2048x164) (s₂ := S8x2048x604) (2 : Fin 3) _ _ concatenates_S8x2048x164_S8x2048x604_S8x2048x768_d2
      (ValueIdx.ix3 b r d) rfl rfl (ValueIdx.ix3 b r (⟨d.val - 164, by omega⟩ : Fin 604)) (fun a ha => ?_) ?_).trans ?_
    · match a with | ⟨0, _⟩ => rfl | ⟨1, _⟩ => rfl | ⟨2, _⟩ => exact absurd rfl ha
    · show (d.val - 164) + 164 = d.val
      omega
    · rw [val_main_v1_apply]
      refine congrArg x0 ?_
      funext a
      match a with
      | ⟨0, _⟩ => rfl
      | ⟨1, _⟩ => rfl
      | ⟨2, _⟩ => exact Fin.ext (by show 164 + (d.val - 164) = d.val; omega)

/-- The reference's result at `(b, r, o)` is the specification's, the soft-max shifted by `refM`. -/
theorem ref_eq_out (b : Fin 8) (r : Fin 2048) (o : Fin 768) :
    val_main_v52 (F := Ideal) x0 x1 x2 x3 x4 x5 x6 (ValueIdx.ix3 b r o)
      = Spec.out (cur3 x0) (cur1 x1) (cur1 x2) (cur2 x3) (cur1 x4) (cur2 x5) (cur1 x6) (refM x0 x1 x2 x3 x4) b r o := by
  rw [val_main_v52_apply, val_main_v49_apply, val_main_v51_apply, val_main_v50_apply,
    show idx_main_v50 (idx_main_v51 (ValueIdx.ix3 b r o)) = ValueIdx.ix1 o from by idx1]
  refine congrArg (· + x6 (ValueIdx.ix1 o)) (Finset.sum_congr rfl fun k _ => ?_)
  rw [show lidx_main_v49 (ValueIdx.ix3 b r o) k = ValueIdx.ix3 b r k from by idx3,
    show ridx_main_v49 (ValueIdx.ix3 b r o) k = ValueIdx.ix2 o k from by idx2, v48_at]
  rfl

/-- The term the run of the reference ends with is the last stage. -/
theorem res_eq_val (m : (ℓ : Loc nD τ sig) → Buf (Elt Ideal) ℓ) (c : Dev nD) :
    Cert.ReferenceIdeal.ValueP.res_main_v52 m c
      = val_main_v52 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  val_main_v52_eq m c

/-! ### The shift is a real number -/

/-- The binary word of minus infinity denotes the least extended real. -/
theorem ofBits_ninf : Ideal.ofBits .f32 0xFF800000#32 = ⊥ := by simp [Ideal.ofBits, Ideal.ieee]

/-- The maximum, started from the least element, of a nonempty finite family of reals is a real. -/
theorem isR_fold_max {ι : Type} (s : Finset ι) (hs : s.Nonempty) (g : ι → EReal) (hg : ∀ i, IsR (g i)) :
    IsR (s.fold max ⊥ g) := by
  obtain ⟨i, _, hi⟩ := Finset.exists_mem_eq_sup s hs g
  have e : s.fold max ⊥ g = s.sup g := rfl
  rw [e, hi]
  exact hg i

/-- The scores' last axis is the one the row maximum runs over. -/
theorem red_scores : S8x2048x2048.Reduces [2] S8x2048 := by decide

theorem refM_isR (b : Fin 8) (r : Fin 2048)
    (hscore : ∀ t, IsR (Spec.score (cur3 x0) (cur1 x1) (cur1 x2) (cur2 x3) (cur1 x4) b r t)) :
    IsR (refM x0 x1 x2 x3 x4 b r) := by
  unfold refM
  rw [val_main_v38_apply, val_main_v37_apply, val_main_cst_6_apply, Ideal.ofBits_def, ofBits_ninf, Ideal.maximumf_def,
    max_eq_right bot_le]
  unfold val_main_v36
  rw [Host.reduce_eq_fold_single FloatOps.maximumf _ _ reducesTo_S8x2048x2048_S8x2048_d2
    red_scores h_S_ (ValueIdx.ix2 b r), val_main_cst_5_apply, Ideal.ofBits_def, ofBits_ninf]
  refine isR_fold_max Finset.univ ⟨(0 : Fin 2048), Finset.mem_univ _⟩ _ fun (k : Fin 2048) => ?_
  have e : red_scores.lift (ValueIdx.ix2 b r) k = ValueIdx.ix3 b r k := by
    funext a
    match a with
    | ⟨0, _⟩ => exact Fin.ext rfl
    | ⟨1, _⟩ => exact Fin.ext rfl
    | ⟨2, _⟩ => exact Fin.ext rfl
  show IsR (val_main_v35 (F := Ideal) x0 x1 x2 x3 x4 _)
  rw [e, v35_at]
  exact hscore k

end Cert.RefValue

end
-- ==== Proof.Finite.lean ====
/-
  From the precondition to real inputs: the precondition says that, on every device, every entry of each of the
  seven argument arrays has an absolute value below plus infinity; an extended real whose absolute value is below
  plus infinity is a real number.
-/
import proofs.«105017_j18133351924335_2_alg».proof.Defs
import proofs.«105017_j18133351924335_2_alg».proof.Proof.Gen.Pre_finite_inputs
import proofs.«105017_j18133351924335_2_alg».proof.Proof.SpecReal
import Idealize.ShloMosaic.Lib.ReduceAll
import Idealize.ShloMosaic.Lib.ValueIdx

noncomputable section

namespace Cert.Finite

open Idealize.ShloMosaic Idealize.SL.Sem

/-- The rank-0 shape has one index. -/
instance : Subsingleton Cert.Pre_finite_inputs.S_.Idx := ⟨fun a b => funext fun d => d.elim0⟩

/-- An extended real whose absolute value is below plus infinity is a real. -/
theorem isR_of_abs_lt (x : EReal) (h : Ideal.cmp .olt (max x (-x)) (Ideal.ofBits .f32 0x7F800000#32) = 1#1) :
    Cert.Spec.IsR x := by
  rw [Cert.Spec.ofBits_posInf] at h
  induction x using EReal.rec with
  | bot => simp [Ideal.cmp] at h
  | coe r => exact ⟨r, rfl⟩
  | top => simp [Ideal.cmp] at h

/-- One array's conjunct of the precondition, read at an entry. -/
theorem entry_isR {s : Shape} (x : FVec Ideal s .f32)
    (hb : Cert.Pre_finite_inputs.S_.BroadcastsInDim s (![] : Fin 0 → Fin s.rank)) (i : s.Idx)
    (h : cmpf .olt (Host.absf x) (broadcastInDim s ![] hb (constant (F := Ideal) Cert.Pre_finite_inputs.S_ .f32 0x7F800000#32)) i
      = 1#1) : Cert.Spec.IsR (x i) :=
  isR_of_abs_lt (x i) h

/-- Under the precondition every entry of each of the seven argument arrays, on every device, is a real. -/
theorem inputs_isR [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsR (m ((c.tc : Thread Cert.KernelIdeal.nD Cert.KernelIdeal.τ).loc Cert.KernelIdeal.main_arg0) i))
    ∧ (∀ i, Cert.Spec.IsR (m ((c.tc : Thread Cert.KernelIdeal.nD Cert.KernelIdeal.τ).loc Cert.KernelIdeal.main_arg1) i))
    ∧ (∀ i, Cert.Spec.IsR (m ((c.tc : Thread Cert.KernelIdeal.nD Cert.KernelIdeal.τ).loc Cert.KernelIdeal.main_arg2) i))
    ∧ (∀ i, Cert.Spec.IsR (m ((c.tc : Thread Cert.KernelIdeal.nD Cert.KernelIdeal.τ).loc Cert.KernelIdeal.main_arg3) i))
    ∧ (∀ i, Cert.Spec.IsR (m ((c.tc : Thread Cert.KernelIdeal.nD Cert.KernelIdeal.τ).loc Cert.KernelIdeal.main_arg4) i))
    ∧ (∀ i, Cert.Spec.IsR (m ((c.tc : Thread Cert.KernelIdeal.nD Cert.KernelIdeal.τ).loc Cert.KernelIdeal.main_arg5) i))
    ∧ (∀ i, Cert.Spec.IsR (m ((c.tc : Thread Cert.KernelIdeal.nD Cert.KernelIdeal.τ).loc Cert.KernelIdeal.main_arg6) i)) := by
  have e := congrFun (h c) ValueIdx.ix0
  unfold Cert.Pre_finite_inputs.fn Cert.Pre_finite_inputs.fn_part1 at e
  dsimp only at e
  obtain ⟨e28, e32⟩ := IntOp.andi_eq_one.1 e
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨fun i => entry_isR _ _ i (Host.reduce_andi_all _ _ _ _ _ e3 i),
    fun i => entry_isR _ _ i (Host.reduce_andi_all _ _ _ _ _ e7 i),
    fun i => entry_isR _ _ i (Host.reduce_andi_all _ _ _ _ _ e12 i),
    fun i => entry_isR _ _ i (Host.reduce_andi_all _ _ _ _ _ e17 i),
    fun i => entry_isR _ _ i (Host.reduce_andi_all _ _ _ _ _ e22 i),
    fun i => entry_isR _ _ i (Host.reduce_andi_all _ _ _ _ _ e27 i),
    fun i => entry_isR _ _ i (Host.reduce_andi_all _ _ _ _ _ e32 i)⟩

end Cert.Finite

end
-- ==== Proof.lean ====
/-
  The five claims about the fused attention block (layer normalisation of the first 164 channels, projection to
  query, key and value channels, single-head soft-max attention over the 2048 positions of a batch, and the
  out-projection of the attended channels joined with the remaining 604) and their proofs.

  * The word-level kernel program runs and leaves its arguments as launched: the run of its two pallas_calls
    (the copy of the run below at the word-level program).
  * The same program read at the ideal values (floats are extended reals, operations exact) runs and leaves its
    arguments as launched: the run of its two pallas_calls.
  * The reference program at the ideal values runs and leaves its arguments as launched: its run as a list of
    host operations.
  * The idealization rewrote no operation: nothing to preserve.
  * At the ideal values, from memories that agree on the seven arguments, all finite, both programs end with
    one result: entry (b, r, o) is the specification's out, the soft-max shifted by the reference's row maximum
    (a real number for real scores). The kernel's result array is that function because its out-projection call
    writes the two partial products plus the bias of the attended array, and the attended array of the
    tile-by-tile soft-max is the specification's att for any real shift; the reference's last stage is that
    function stage by stage.
-/
import proofs.«105017_j18133351924335_2_alg».proof.Defs
import proofs.«105017_j18133351924335_2_alg».proof.Proof.Gen.Kernel
import proofs.«105017_j18133351924335_2_alg».proof.Proof.Gen.Kernel.Skeleton
import proofs.«105017_j18133351924335_2_alg».proof.Proof.Gen.Kernel.Launch
import proofs.«105017_j18133351924335_2_alg».proof.Proof.Gen.Kernel.Regions
import proofs.«105017_j18133351924335_2_alg».proof.Proof.Gen.Kernel.Points
import proofs.«105017_j18133351924335_2_alg».proof.Proof.Gen.KernelIdeal
import proofs.«105017_j18133351924335_2_alg».proof.Proof.Gen.KernelIdeal.Skeleton
import proofs.«105017_j18133351924335_2_alg».proof.Proof.Gen.KernelIdeal.Launch
import proofs.«105017_j18133351924335_2_alg».proof.Proof.Gen.KernelIdeal.Regions
import proofs.«105017_j18133351924335_2_alg».proof.Proof.Gen.KernelIdeal.Points
import proofs.«105017_j18133351924335_2_alg».proof.Proof.Gen.ReferenceIdeal
import proofs.«105017_j18133351924335_2_alg».proof.Proof.Gen.Pre_finite_inputs
import proofs.«105017_j18133351924335_2_alg».proof.Proof.KRun
import proofs.«105017_j18133351924335_2_alg».proof.Proof.Run
import proofs.«105017_j18133351924335_2_alg».proof.Proof.KernelValue
import proofs.«105017_j18133351924335_2_alg».proof.Proof.RefRunP
import proofs.«105017_j18133351924335_2_alg».proof.Proof.RefValue
import proofs.«105017_j18133351924335_2_alg».proof.Proof.Finite
import proofs.«105017_j18133351924335_2_alg».proof.Proof.SpecReal
import Idealize.ShloMosaic.Adequacy
import Idealize.ShloMosaic.Init

noncomputable section

namespace Cert.Proof

open Idealize.ShloMosaic Idealize.ShloMosaic.TcCoe Idealize.SL.Sem
open Cert.Spec (cur1 cur2 cur3 IsR)

/-- The common result, as a function of the seven argument arrays and the soft-max shift. -/
def resG (x0 : Cert.KernelIdeal.S8x2048x768.Idx → EReal) (x1 x2 : Cert.KernelIdeal.S164.Idx → EReal)
    (x3 : Cert.KernelIdeal.S196x164.Idx → EReal) (x4 : Cert.KernelIdeal.S196.Idx → EReal)
    (x5 : Cert.KernelIdeal.S768x768.Idx → EReal) (x6 : Cert.KernelIdeal.S768.Idx → EReal)
    (M : Fin 8 → Fin 2048 → EReal) : Cert.KernelIdeal.S8x2048x768.Idx → EReal := fun i =>
  Cert.Spec.out (cur3 x0) (cur1 x1) (cur1 x2) (cur2 x3) (cur1 x4) (cur2 x5) (cur1 x6) M (i 0) (i 1) (i 2)

/-- The word-level program runs and its arguments end as launched. -/
theorem frame_Kernel : Cert.frame_Kernel := fun m ρ _ =>
  (θ_run Cert.Kernel.defs _ _).mono (fun _ h c => (h c).2) (Cert.Kernel.Hand.run_main (F := Bits) m ρ)

/-- The program at the ideal values runs and its arguments end as launched. -/
theorem frame_KernelIdeal : Cert.frame_KernelIdeal := fun m ρ _ =>
  (θ_run Cert.KernelIdeal.defs _ _).mono (fun _ h c => (h c).2) (Cert.KernelIdeal.Hand.run_main (F := Ideal) m ρ)

/-- The reference at the ideal values runs and its arguments end as launched. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values both programs end with the specification's out of the arguments, the soft-max shifted by
    the reference's row maximum. -/
theorem algebraic : Cert.algebraic_KernelIdeal_ReferenceIdeal := by
  intro m ρ m' ρ' hpre hagree
  refine ⟨fun c => resG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.RefValue.refM (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · -- the kernel's run: the result array is the specification's function, for any real shift
    refine (θ_run Cert.KernelIdeal.defs _ _).mono (fun _ h c => ⟨(h c).1.trans ?_, (h c).2⟩)
      (Cert.KernelIdeal.Hand.run_main (F := Ideal) m ρ)
    obtain ⟨h0, h1, h2, h3, h4, h5, h6⟩ := Cert.Finite.inputs_isR m hpre c
    funext i
    rw [ValueIdx.eq_ix3 i]
    refine Cert.KernelIdeal.Hand.kernel_value m ρ c h0 h1 h2 h3 h4 _ (fun b r => Cert.RefValue.refM_isR _ _ _ _ _ b r fun t => ?_) (i 0) (i 1) (i 2)
    exact Cert.Spec.score_isR _ _ _ _ _ (fun b r d => h0 (ValueIdx.ix3 b r d)) (fun d => h1 (ValueIdx.ix1 d))
      (fun d => h2 (ValueIdx.ix1 d)) (fun o d => h3 (ValueIdx.ix2 o d)) (fun o => h4 (ValueIdx.ix1 o)) b r t
  · -- the reference's run: its last stage is the specification's function of arguments that agree with the kernel's
    refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6⟩ := hagree c
    rw [Cert.RefValue.res_eq_val m' c, a0, a1, a2, a3, a4, a5, a6]
    funext i
    rw [ValueIdx.eq_ix3 i]
    exact Cert.RefValue.ref_eq_out _ _ _ _ _ _ _ (i 0) (i 1) (i 2)

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
